-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S5x2000000 : Shape := ⟨2, ![5, 2000000]⟩
abbrev S100000x64 : Shape := ⟨2, ![100000, 64]⟩
abbrev S50000x64 : Shape := ⟨2, ![50000, 64]⟩
abbrev S5x64x64 : Shape := ⟨3, ![5, 64, 64]⟩
abbrev S5x1x64 : Shape := ⟨3, ![5, 1, 64]⟩
abbrev S320x64 : Shape := ⟨2, ![320, 64]⟩
abbrev S64 : Shape := ⟨1, ![64]⟩
abbrev S_ : Shape := ⟨0, ![]⟩

class Facts : Prop where
  bcast_S_S5x2000000 : S_.BroadcastsInDim S5x2000000 (![] : Fin 0 → Fin S5x2000000.rank)
  reducesTo_S5x2000000_S_d0_1 : S5x2000000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5x1x64 : S_.BroadcastsInDim S5x1x64 (![] : Fin 0 → Fin S5x1x64.rank)
  reducesTo_S5x1x64_S_d0_1_2 : S5x1x64.ReducesTo [0, 1, 2] S_
  bcast_S_S320x64 : S_.BroadcastsInDim S320x64 (![] : Fin 0 → Fin S320x64.rank)
  reducesTo_S320x64_S_d0_1 : S320x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S5x1x64 .f32) (main_arg9 : FVec F S320x64 .f32) (main_arg10 : FVec F S64 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x1x64 .f32 := Host.absf main_arg8
  let main_cst_6 : FVec F S_ .f32 := constant S_ .f32 0x7F800000#32
  let main_v20 : FVec F S5x1x64 .f32 := broadcastInDim S5x1x64 ![] bcast_S_S5x1x64 main_cst_6
  let main_v21 : IVec S5x1x64 1 := cmpf .olt main_v19 main_v20
  let main_c_7 : IVec S_ 1 := constantI S_ 1 1#1
  let main_v22 : IVec S_ 1 := (fun x v => Host.reduce IntOp.andi x v reducesTo_S5x1x64_S_d0_1_2 h_S_) main_v21 main_c_7
  let main_v23 : IVec S_ 1 := andi main_v18 main_v22
  let main_v24 : FVec F S320x64 .f32 := Host.absf main_arg9
  let main_cst_8 : FVec F S_ .f32 := constant S_ .f32 0x7F800000#32
  let main_v25 : FVec F S320x64 .f32 := broadcastInDim S320x64 ![] bcast_S_S320x64 main_cst_8
  let main_v26 : IVec S320x64 1 := cmpf .olt main_v24 main_v25
  let main_c_9 : IVec S_ 1 := constantI S_ 1 1#1
  let main_v27 : IVec S_ 1 := (fun x v => Host.reduce IntOp.andi x v reducesTo_S320x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S16384 32) (main_arg1 : IVec S16384 32) (main_arg2 : IVec S5x2000000 32) (main_arg3 : IVec S5x2000000 32) (main_arg4 : FVec F S5x2000000 .f32) (main_arg5 : FVec F S100000x64 .f32) (main_arg6 : FVec F S50000x64 .f32) (main_arg7 : FVec F S5x64x64 .f32) (main_arg8 : FVec F S5x1x64 .f32) (main_arg9 : FVec F S320x64 .f32) (main_arg10 : FVec F S64 .f32) : IVec S_ 1 :=
  let main_v0 : FVec F S5x2000000 .f32 := Host.absf main_arg4
  let main_cst : FVec F S_ .f32 := constant S_ .f32 0x7F800000#32
  let main_v1 : FVec F S5x2000000 .f32 := broadcastInDim S5x2000000 ![] bcast_S_S5x2000000 main_cst
  let main_v2 : IVec S5x2000000 1 := cmpf .olt main_v0 main_v1
  let main_c : IVec S_ 1 := constantI S_ 1 1#1
  let main_v3 : IVec S_ 1 := (fun x v => Host.reduce IntOp.andi x v reducesTo_S5x2000000_S_d0_1 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S5x64x64 .f32 := Host.absf main_arg7
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg8 main_arg9 main_arg10 main_v13 main_v16
-- ==== Kernel.lean ====
abbrev S16384 : Shape := ⟨1, ![16384]⟩
abbrev S5x2000000 : Shape := ⟨2, ![5, 2000000]⟩
abbrev S100000x64 : Shape := ⟨2, ![100000, 64]⟩
abbrev S50000x64 : Shape := ⟨2, ![50000, 64]⟩
abbrev S5x64x64 : Shape := ⟨3, ![5, 64, 64]⟩
abbrev S5x1x64 : Shape := ⟨3, ![5, 1, 64]⟩
abbrev S320x64 : Shape := ⟨2, ![320, 64]⟩
abbrev S64 : Shape := ⟨1, ![64]⟩
abbrev S150000x64 : Shape := ⟨2, ![150000, 64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S1x150000x64 : Shape := ⟨3, ![1, 150000, 64]⟩
abbrev S5x150000x64 : Shape := ⟨3, ![5, 150000, 64]⟩
abbrev S1x64 : Shape := ⟨2, ![1, 64]⟩
abbrev S5x6000x64 : Shape := ⟨3, ![5, 6000, 64]⟩
abbrev S6000x64 : Shape := ⟨2, ![6000, 64]⟩
abbrev S1x6000x64 : Shape := ⟨3, ![1, 6000, 64]⟩
abbrev S1x64x64 : Shape := ⟨3, ![1, 64, 64]⟩
abbrev S64x64 : Shape := ⟨2, ![64, 64]⟩
abbrev S1x1x64 : Shape := ⟨3, ![1, 1, 64]⟩
abbrev S16384x1 : Shape := ⟨2, ![16384, 1]⟩
abbrev S16384x64 : Shape := ⟨2, ![16384, 64]⟩
abbrev S2048x64 : Shape := ⟨2, ![2048, 64]⟩
abbrev S2048x1 : Shape := ⟨2, ![2048, 1]⟩
abbrev S2048 : Shape := ⟨1, ![2048]⟩

abbrev nBuf : Space → Nat
  | .hbm => 154
  | .vmem => 14
  | .smem => 0
  | _ => 0

abbrev hbmTy0_0 (i : Nat) : BufTy := match i % 128 with
  | 0 => ⟨S16384, .i32⟩
  | 1 => ⟨S16384, .i32⟩
  | 2 => ⟨S5x2000000, .i32⟩
  | 3 => ⟨S5x2000000, .i32⟩
  | 4 => ⟨S5x2000000, .f32⟩
  | 5 => ⟨S100000x64, .f32⟩
  | 6 => ⟨S50000x64, .f32⟩
  | 7 => ⟨S5x64x64, .f32⟩
  | 8 => ⟨S5x1x64, .f32⟩
  | 9 => ⟨S320x64, .f32⟩
  | 10 => ⟨S64, .f32⟩
  | 11 => ⟨S150000x64, .f32⟩
  | 12 => ⟨S1x2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S1x2000000, .f32⟩
  | 24 => ⟨S2000000, .f32⟩
  | 25 => ⟨S2000000x1, .f32⟩
  | 26 => ⟨S2000000x64, .f32⟩
  | 27 => ⟨S2000000x64, .f32⟩
  | 28 => ⟨S1x2000000, .i32⟩
  | 29 => ⟨S2000000, .i32⟩
  | 30 => ⟨S_, .f32⟩
  | 31 => ⟨S150000x64, .f32⟩
  | 32 => ⟨S2000000x1, .i32⟩
  | 33 => ⟨S150000x64, .f32⟩
  | 34 => ⟨S1x2000000, .i32⟩
  | 35 => ⟨S2000000, .i32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S2000000x64, .f32⟩
  | 45 => ⟨S1x2000000, .f32⟩
  | 46 => ⟨S2000000, .f32⟩
  | 47 => ⟨S2000000x1, .f32⟩
  | 48 => ⟨S2000000x64, .f32⟩
  | 49 => ⟨S2000000x64, .f32⟩
  | 50 => ⟨S1x2000000, .i32⟩
  | 51 => ⟨S2000000, .i32⟩
  | 52 => ⟨S_, .f32⟩
  | 53 => ⟨S150000x64, .f32⟩
  | 54 => ⟨S2000000x1, .i32⟩
  | 55 => ⟨S150000x64, .f32⟩
  | 56 => ⟨S1x2000000, .i32⟩
  | 57 => ⟨S2000000, .i32⟩
  | 58 => ⟨S_, .i32⟩
  | 59 => ⟨S2000000, .i32⟩
  | 60 => ⟨S2000000, .i1⟩
  | 61 => ⟨S_, .i32⟩
  | 62 => ⟨S2000000, .i32⟩
  | 63 => ⟨S2000000, .i32⟩
  | 64 => ⟨S2000000, .i32⟩
  | 65 => ⟨S2000000x1, .i32⟩
  | 66 => ⟨S2000000x64, .f32⟩
  | 67 => ⟨S1x2000000, .f32⟩
  | 68 => ⟨S2000000, .f32⟩
  | 69 => ⟨S2000000x1, .f32⟩
  | 70 => ⟨S2000000x64, .f32⟩
  | 71 => ⟨S2000000x64, .f32⟩
  | 72 => ⟨S1x2000000, .i32⟩
  | 73 => ⟨S2000000, .i32⟩
  | 74 => ⟨S_, .f32⟩
  | 75 => ⟨S150000x64, .f32⟩
  | 76 => ⟨S2000000x1, .i32⟩
  | 77 => ⟨S150000x64, .f32⟩
  | 78 => ⟨S1x2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x64, .f32⟩
  | 89 => ⟨S1x2000000, .f32⟩
  | 90 => ⟨S2000000, .f32⟩
  | 91 => ⟨S2000000x1, .f32⟩
  | 92 => ⟨S2000000x64, .f32⟩
  | 93 => ⟨S2000000x64, .f32⟩
  | 94 => ⟨S1x2000000, .i32⟩
  | 95 => ⟨S2000000, .i32⟩
  | 96 => ⟨S_, .f32⟩
  | 97 => ⟨S150000x64, .f32⟩
  | 98 => ⟨S2000000x1, .i32⟩
  | 99 => ⟨S150000x64, .f32⟩
  | 100 => ⟨S1x2000000, .i32⟩
  | 101 => ⟨S2000000, .i32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x64, .f32⟩
  | 111 => ⟨S1x2000000, .f32⟩
  | 112 => ⟨S2000000, .f32⟩
  | 113 => ⟨S2000000x1, .f32⟩
  | 114 => ⟨S2000000x64, .f32⟩
  | 115 => ⟨S2000000x64, .f32⟩
  | 116 => ⟨S1x2000000, .i32⟩
  | 117 => ⟨S2000000, .i32⟩
  | 118 => ⟨S_, .f32⟩
  | 119 => ⟨S150000x64, .f32⟩
  | 120 => ⟨S2000000x1, .i32⟩
  | 121 => ⟨S150000x64, .f32⟩
  | 122 => ⟨S1x150000x64, .f32⟩
  | 123 => ⟨S1x150000x64, .f32⟩
  | 124 => ⟨S1x150000x64, .f32⟩
  | 125 => ⟨S1x150000x64, .f32⟩
  | 126 => ⟨S1x150000x64, .f32⟩
  | 127 => ⟨S5x150000x64, .f32⟩
  | _ => ⟨S16384, .i32⟩

abbrev hbmTy0_1 (i : Nat) : BufTy := match i % 128 with
  | 0 => ⟨S5x64x64, .f32⟩
  | 1 => ⟨S1x64, .f32⟩
  | 2 => ⟨S150000x64, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384x64, .f32⟩
  | 12 => ⟨S_, .i32⟩
  | 13 => ⟨S16384, .i32⟩
  | 14 => ⟨S16384, .i32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S16384x64, .f32⟩
  | 24 => ⟨S16384x1, .f32⟩
  | 25 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S5x6000x64, .f32⟩
  | .local _ .vmem, ⟨1, _⟩ => ⟨S5x6000x64, .f32⟩
  | .local _ .vmem, ⟨2, _⟩ => ⟨S5x64x64, .f32⟩
  | .local _ .vmem, ⟨3, _⟩ => ⟨S5x1x64, .f32⟩
  | .local _ .vmem, ⟨4, _⟩ => ⟨S5x64x64, .f32⟩
  | .local _ .vmem, ⟨5, _⟩ => ⟨S1x64, .f32⟩
  | .local _ .vmem, ⟨6, _⟩ => ⟨S6000x64, .f32⟩
  | .local _ .vmem, ⟨7, _⟩ => ⟨S6000x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x1, .f32⟩
  | .local _ .vmem, ⟨13, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_7 : Ref sig .tc := ⟨.hbm, 80, rfl⟩
abbrev main_v60 : Ref sig .tc := ⟨.hbm, 81, rfl⟩
abbrev main_v61 : Ref sig .tc := ⟨.hbm, 82, rfl⟩
abbrev main_c_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_10 : Ref sig .tc := ⟨.hbm, 102, rfl⟩
abbrev main_v79 : Ref sig .tc := ⟨.hbm, 103, rfl⟩
abbrev main_v80 : Ref sig .tc := ⟨.hbm, 104, rfl⟩
abbrev main_c_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_13 : Ref sig .tc := ⟨.hbm, 131, rfl⟩
abbrev main_v105 : Ref sig .tc := ⟨.hbm, 132, rfl⟩
abbrev main_v106 : Ref sig .tc := ⟨.hbm, 133, rfl⟩
abbrev main_c_14 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_15 : Ref sig .tc := ⟨.hbm, 140, rfl⟩
abbrev main_v112 : Ref sig .tc := ⟨.hbm, 141, rfl⟩
abbrev main_v113 : Ref sig .tc := ⟨.hbm, 142, rfl⟩
abbrev main_c_16 : Ref sig .tc := ⟨.hbm, 143, rfl⟩
abbrev main_v114 : Ref sig .tc := ⟨.hbm, 144, rfl⟩
abbrev main_v115 : Ref sig .tc := ⟨.hbm, 145, rfl⟩
abbrev main_c_17 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S50000x64_S150000x64_d0 : Shape.Concatenates [S100000x64, S50000x64] S150000x64 0
  slices_S5x2000000_S1x2000000_0_0 : S5x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S5x2000000_S1x2000000_1_0 : S5x2000000.Slices ![1, 0] S1x2000000
  slices_S5x2000000_S1x2000000_2_0 : S5x2000000.Slices ![2, 0] S1x2000000
  slices_S5x2000000_S1x2000000_3_0 : S5x2000000.Slices ![3, 0] S1x2000000
  slices_S5x2000000_S1x2000000_4_0 : S5x2000000.Slices ![4, 0] S1x2000000
  bcast_S150000x64_S1x150000x64_1_2 : S150000x64.BroadcastsInDim S1x150000x64 (![1, 2] : Fin 2 → Fin S1x150000x64.rank)
  concatenates_S1x150000x64_S1x150000x64_S1x150000x64_S1x150000x64_S1x150000x64_S5x150000x64_d0 : Shape.Concatenates [S1x150000x64, S1x150000x64, S1x150000x64, S1x150000x64, S1x150000x64] S5x150000x64 0
  shapeCasts_S320x64_S5x64x64 : S320x64.ShapeCasts S5x64x64
  shapeCasts_S64_S1x64 : S64.ShapeCasts S1x64
  inb_S5x6000x64_S1x6000x64_0_0_0 : ∀ a, (![0, 0, 0] : Fin 3 → Nat) a + S1x6000x64.size a ≤ S5x6000x64.size a
  h_S1x6000x64 : 0 < S1x6000x64.numel
  shapeCasts_S1x6000x64_S6000x64 : S1x6000x64.ShapeCasts S6000x64
  bitsLt_bf16_f32 : FTy.bits .bf16 < FTy.bits .f32
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  inb_S5x1x64_S1x1x64_0_0_0 : ∀ a, (![0, 0, 0] : Fin 3 → Nat) a + S1x1x64.size a ≤ S5x1x64.size a
  h_S1x1x64 : 0 < S1x1x64.numel
  shapeCasts_S1x1x64_S1x64 : S1x1x64.ShapeCasts S1x64
  broadcasts_S1x64_S6000x64 : S1x64.Broadcasts S6000x64
  inb_S5x6000x64_S1x6000x64_1_0_0 : ∀ a, (![1, 0, 0] : Fin 3 → Nat) a + S1x6000x64.size a ≤ S5x6000x64.size a
  inb_S5x64x64_S1x64x64_1_0_0 : ∀ a, (![1, 0, 0] : Fin 3 → Nat) a + S1x64x64.size a ≤ S5x64x64.size a
  inb_S5x1x64_S1x1x64_1_0_0 : ∀ a, (![1, 0, 0] : Fin 3 → Nat) a + S1x1x64.size a ≤ S5x1x64.size a
  inb_S5x6000x64_S1x6000x64_2_0_0 : ∀ a, (![2, 0, 0] : Fin 3 → Nat) a + S1x6000x64.size a ≤ S5x6000x64.size a
  inb_S5x64x64_S1x64x64_2_0_0 : ∀ a, (![2, 0, 0] : Fin 3 → Nat) a + S1x64x64.size a ≤ S5x64x64.size a
  inb_S5x1x64_S1x1x64_2_0_0 : ∀ a, (![2, 0, 0] : Fin 3 → Nat) a + S1x1x64.size a ≤ S5x1x64.size a
  inb_S5x6000x64_S1x6000x64_3_0_0 : ∀ a, (![3, 0, 0] : Fin 3 → Nat) a + S1x6000x64.size a ≤ S5x6000x64.size a
  inb_S5x64x64_S1x64x64_3_0_0 : ∀ a, (![3, 0, 0] : Fin 3 → Nat) a + S1x64x64.size a ≤ S5x64x64.size a
  inb_S5x1x64_S1x1x64_3_0_0 : ∀ a, (![3, 0, 0] : Fin 3 → Nat) a + S1x1x64.size a ≤ S5x1x64.size a
  inb_S5x6000x64_S1x6000x64_4_0_0 : ∀ a, (![4, 0, 0] : Fin 3 → Nat) a + S1x6000x64.size a ≤ S5x6000x64.size a
  inb_S5x64x64_S1x64x64_4_0_0 : ∀ a, (![4, 0, 0] : Fin 3 → Nat) a + S1x64x64.size a ≤ S5x64x64.size a
  inb_S5x1x64_S1x1x64_4_0_0 : ∀ a, (![4, 0, 0] : Fin 3 → Nat) a + S1x1x64.size a ≤ S5x1x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S6000x64_S6000x64_0_0 : ∀ a, (![0, 0] : Fin 2 → Nat) a + S6000x64.size a ≤ S6000x64.size a
  h_S6000x64 : 0 < S6000x64.numel
  bcast_S_S16384 : S_.BroadcastsInDim S16384 (![] : Fin 0 → Fin S16384.rank)
  bcast_S16384_S16384x1_0 : S16384.BroadcastsInDim S16384x1 (![0] : Fin 1 → Fin S16384x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S6000x64_S64x64_S6000x64_1_0_0_1_n_n_wf : DotDims.WF S6000x64 S64x64 S6000x64 [1] [0] [0] [1] [] []
  gather_S150000x64_S16384x1_S16384x64_1_0_n_n_0_1_164_wf : GatherDims.WF S150000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x6000x64.size a ≤ S5x150000x64.size a
  hwx0_0 : ∀ i : grid0.Coords, EltTy.bits .f32 = 32 ∨ (Rect.block (s := S5x150000x64) S5x6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64x64.size a ≤ S5x64x64.size a
  hwx0_1 : ∀ i : grid0.Coords, EltTy.bits .f32 = 32 ∨ (Rect.block (s := S5x64x64) S5x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x1x64.size a ≤ S5x1x64.size a
  hwx0_2 : ∀ i : grid0.Coords, EltTy.bits .f32 = 32 ∨ (Rect.block (s := S5x1x64) S5x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64x64.size a ≤ S5x64x64.size a
  hwx0_3 : ∀ i : grid0.Coords, EltTy.bits .f32 = 32 ∨ (Rect.block (s := S5x64x64) S5x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x64.size a ≤ S150000x64.size a
  hwx0_5 : ∀ i : grid0.Coords, EltTy.bits .f32 = 32 ∨ (Rect.block (s := S150000x64) S6000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S150000x64_S16384x1_S16384x64_1_0_n_n_0_1_164 : GatherDims S150000x64 S16384x1 S16384x64 where
  offsetDims := [1]
  collapsedSliceDims := [0]
  operandBatchingDims := []
  startIndicesBatchingDims := []
  startIndexMap := [0]
  indexVectorDim := 1
  sliceSizes := ![1, 64]
  wf := gather_S150000x64_S16384x1_S16384x64_1_0_n_n_0_1_164_wf

abbrev win0_0 : Pipeline.Window sig grid0 :=
  Pipeline.Window.ofSpec (Memref.whole main_v101) S5x6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S5x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S5x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v102) S5x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v103) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S6000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v111) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v120) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v121) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384 : Shape := ⟨1, ![16384]⟩
abbrev S5x2000000 : Shape := ⟨2, ![5, 2000000]⟩
abbrev S100000x64 : Shape := ⟨2, ![100000, 64]⟩
abbrev S50000x64 : Shape := ⟨2, ![50000, 64]⟩
abbrev S5x64x64 : Shape := ⟨3, ![5, 64, 64]⟩
abbrev S5x1x64 : Shape := ⟨3, ![5, 1, 64]⟩
abbrev S320x64 : Shape := ⟨2, ![320, 64]⟩
abbrev S64 : Shape := ⟨1, ![64]⟩
abbrev S150000x64 : Shape := ⟨2, ![150000, 64]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S150000x320 : Shape := ⟨2, ![150000, 320]⟩
abbrev S16384x1 : Shape := ⟨2, ![16384, 1]⟩
abbrev S16384x64 : Shape := ⟨2, ![16384, 64]⟩

abbrev nBuf : Space → Nat
  | .hbm => 194
  | .vmem => 0
  | .smem => 0
  | _ => 0

abbrev hbmTy0_0 (i : Nat) : BufTy := match i % 128 with
  | 0 => ⟨S16384, .i32⟩
  | 1 => ⟨S16384, .i32⟩
  | 2 => ⟨S5x2000000, .i32⟩
  | 3 => ⟨S5x2000000, .i32⟩
  | 4 => ⟨S5x2000000, .f32⟩
  | 5 => ⟨S100000x64, .f32⟩
  | 6 => ⟨S50000x64, .f32⟩
  | 7 => ⟨S5x64x64, .f32⟩
  | 8 => ⟨S5x1x64, .f32⟩
  | 9 => ⟨S320x64, .f32⟩
  | 10 => ⟨S64, .f32⟩
  | 11 => ⟨S150000x64, .f32⟩
  | 12 => ⟨S1x2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S1x2000000, .f32⟩
  | 24 => ⟨S2000000, .f32⟩
  | 25 => ⟨S2000000x1, .f32⟩
  | 26 => ⟨S2000000x64, .f32⟩
  | 27 => ⟨S2000000x64, .f32⟩
  | 28 => ⟨S1x2000000, .i32⟩
  | 29 => ⟨S2000000, .i32⟩
  | 30 => ⟨S_, .f32⟩
  | 31 => ⟨S150000x64, .f32⟩
  | 32 => ⟨S2000000x1, .i32⟩
  | 33 => ⟨S150000x64, .f32⟩
  | 34 => ⟨S1x64x64, .f32⟩
  | 35 => ⟨S64x64, .f32⟩
  | 36 => ⟨S150000x64, .f32⟩
  | 37 => ⟨S1x1x64, .f32⟩
  | 38 => ⟨S1x64, .f32⟩
  | 39 => ⟨S150000x64, .f32⟩
  | 40 => ⟨S150000x64, .f32⟩
  | 41 => ⟨S1x2000000, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S1x2000000, .f32⟩
  | 53 => ⟨S2000000, .f32⟩
  | 54 => ⟨S2000000x1, .f32⟩
  | 55 => ⟨S2000000x64, .f32⟩
  | 56 => ⟨S2000000x64, .f32⟩
  | 57 => ⟨S1x2000000, .i32⟩
  | 58 => ⟨S2000000, .i32⟩
  | 59 => ⟨S_, .f32⟩
  | 60 => ⟨S150000x64, .f32⟩
  | 61 => ⟨S2000000x1, .i32⟩
  | 62 => ⟨S150000x64, .f32⟩
  | 63 => ⟨S1x64x64, .f32⟩
  | 64 => ⟨S64x64, .f32⟩
  | 65 => ⟨S150000x64, .f32⟩
  | 66 => ⟨S1x1x64, .f32⟩
  | 67 => ⟨S1x64, .f32⟩
  | 68 => ⟨S150000x64, .f32⟩
  | 69 => ⟨S150000x64, .f32⟩
  | 70 => ⟨S1x2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S2000000x64, .f32⟩
  | 81 => ⟨S1x2000000, .f32⟩
  | 82 => ⟨S2000000, .f32⟩
  | 83 => ⟨S2000000x1, .f32⟩
  | 84 => ⟨S2000000x64, .f32⟩
  | 85 => ⟨S2000000x64, .f32⟩
  | 86 => ⟨S1x2000000, .i32⟩
  | 87 => ⟨S2000000, .i32⟩
  | 88 => ⟨S_, .f32⟩
  | 89 => ⟨S150000x64, .f32⟩
  | 90 => ⟨S2000000x1, .i32⟩
  | 91 => ⟨S150000x64, .f32⟩
  | 92 => ⟨S1x64x64, .f32⟩
  | 93 => ⟨S64x64, .f32⟩
  | 94 => ⟨S150000x64, .f32⟩
  | 95 => ⟨S1x1x64, .f32⟩
  | 96 => ⟨S1x64, .f32⟩
  | 97 => ⟨S150000x64, .f32⟩
  | 98 => ⟨S150000x64, .f32⟩
  | 99 => ⟨S1x2000000, .i32⟩
  | 100 => ⟨S2000000, .i32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .f32⟩
  | 110 => ⟨S1x2000000, .f32⟩
  | 111 => ⟨S2000000, .f32⟩
  | 112 => ⟨S2000000x1, .f32⟩
  | 113 => ⟨S2000000x64, .f32⟩
  | 114 => ⟨S2000000x64, .f32⟩
  | 115 => ⟨S1x2000000, .i32⟩
  | 116 => ⟨S2000000, .i32⟩
  | 117 => ⟨S_, .f32⟩
  | 118 => ⟨S150000x64, .f32⟩
  | 119 => ⟨S2000000x1, .i32⟩
  | 120 => ⟨S150000x64, .f32⟩
  | 121 => ⟨S1x64x64, .f32⟩
  | 122 => ⟨S64x64, .f32⟩
  | 123 => ⟨S150000x64, .f32⟩
  | 124 => ⟨S1x1x64, .f32⟩
  | 125 => ⟨S1x64, .f32⟩
  | 126 => ⟨S150000x64, .f32⟩
  | 127 => ⟨S150000x64, .f32⟩
  | _ => ⟨S16384, .i32⟩

abbrev hbmTy0_1 (i : Nat) : BufTy := match i % 128 with
  | 0 => ⟨S1x2000000, .i32⟩
  | 1 => ⟨S2000000, .i32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S2000000x64, .f32⟩
  | 11 => ⟨S1x2000000, .f32⟩
  | 12 => ⟨S2000000, .f32⟩
  | 13 => ⟨S2000000x1, .f32⟩
  | 14 => ⟨S2000000x64, .f32⟩
  | 15 => ⟨S2000000x64, .f32⟩
  | 16 => ⟨S1x2000000, .i32⟩
  | 17 => ⟨S2000000, .i32⟩
  | 18 => ⟨S_, .f32⟩
  | 19 => ⟨S150000x64, .f32⟩
  | 20 => ⟨S2000000x1, .i32⟩
  | 21 => ⟨S150000x64, .f32⟩
  | 22 => ⟨S1x64x64, .f32⟩
  | 23 => ⟨S64x64, .f32⟩
  | 24 => ⟨S150000x64, .f32⟩
  | 25 => ⟨S1x1x64, .f32⟩
  | 26 => ⟨S1x64, .f32⟩
  | 27 => ⟨S150000x64, .f32⟩
  | 28 => ⟨S150000x64, .f32⟩
  | 29 => ⟨S150000x320, .f32⟩
  | 30 => ⟨S_, .f32⟩
  | 31 => ⟨S_, .f32⟩
  | 32 => ⟨S150000x320, .f32⟩
  | 33 => ⟨S150000x320, .i1⟩
  | 34 => ⟨S_, .f32⟩
  | 35 => ⟨S150000x320, .f32⟩
  | 36 => ⟨S150000x320, .f32⟩
  | 37 => ⟨S150000x320, .f32⟩
  | 38 => ⟨S150000x64, .f32⟩
  | 39 => ⟨S1x64, .f32⟩
  | 40 => ⟨S150000x64, .f32⟩
  | 41 => ⟨S150000x64, .f32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S16384x64, .f32⟩
  | 51 => ⟨S_, .i32⟩
  | 52 => ⟨S16384, .i32⟩
  | 53 => ⟨S16384, .i32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S16384x64, .f32⟩
  | 63 => ⟨S16384x64, .f32⟩
  | 64 => ⟨S_, .f32⟩
  | 65 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_4 : Ref sig .tc := ⟨.hbm, 72, rfl⟩
abbrev main_v55 : Ref sig .tc := ⟨.hbm, 73, rfl⟩
abbrev main_v56 : Ref sig .tc := ⟨.hbm, 74, rfl⟩
abbrev main_c_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_7 : Ref sig .tc := ⟨.hbm, 101, rfl⟩
abbrev main_v81 : Ref sig .tc := ⟨.hbm, 102, rfl⟩
abbrev main_v82 : Ref sig .tc := ⟨.hbm, 103, rfl⟩
abbrev main_c_8 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_c_10 : Ref sig .tc := ⟨.hbm, 130, rfl⟩
abbrev main_v107 : Ref sig .tc := ⟨.hbm, 131, rfl⟩
abbrev main_v108 : Ref sig .tc := ⟨.hbm, 132, rfl⟩
abbrev main_c_11 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_12 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_13 : Ref sig .tc := ⟨.hbm, 158, rfl⟩
abbrev main_call0_cst : Ref sig .tc := ⟨.hbm, 159, rfl⟩
abbrev main_call0_v0 : Ref sig .tc := ⟨.hbm, 160, rfl⟩
abbrev main_call0_v1 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_c_14 : Ref sig .tc := ⟨.hbm, 170, rfl⟩
abbrev main_v137 : Ref sig .tc := ⟨.hbm, 171, rfl⟩
abbrev main_v138 : Ref sig .tc := ⟨.hbm, 172, rfl⟩
abbrev main_c_15 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_c_16 : Ref sig .tc := ⟨.hbm, 179, rfl⟩
abbrev main_v144 : Ref sig .tc := ⟨.hbm, 180, rfl⟩
abbrev main_v145 : Ref sig .tc := ⟨.hbm, 181, rfl⟩
abbrev main_c_17 : Ref sig .tc := ⟨.hbm, 182, rfl⟩
abbrev main_v146 : Ref sig .tc := ⟨.hbm, 183, rfl⟩
abbrev main_v147 : Ref sig .tc := ⟨.hbm, 184, rfl⟩
abbrev main_c_18 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_19 : Ref sig .tc := ⟨.hbm, 192, rfl⟩
abbrev main_v154 : Ref sig .tc := ⟨.hbm, 193, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  slices_S5x2000000_S1x2000000_0_0 : S5x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S5x64x64_S1x64x64_0_0_0 : S5x64x64.Slices ![0, 0, 0] S1x64x64
  shapeCasts_S1x64x64_S64x64 : S1x64x64.ShapeCasts S64x64
  slices_S5x1x64_S1x1x64_0_0_0 : S5x1x64.Slices ![0, 0, 0] S1x1x64
  shapeCasts_S1x1x64_S1x64 : S1x1x64.ShapeCasts S1x64
  bcast_S1x64_S150000x64_0_1 : S1x64.BroadcastsInDim S150000x64 (![0, 1] : Fin 2 → Fin S150000x64.rank)
  slices_S5x2000000_S1x2000000_1_0 : S5x2000000.Slices ![1, 0] S1x2000000
  slices_S5x64x64_S1x64x64_1_0_0 : S5x64x64.Slices ![1, 0, 0] S1x64x64
  slices_S5x1x64_S1x1x64_1_0_0 : S5x1x64.Slices ![1, 0, 0] S1x1x64
  slices_S5x2000000_S1x2000000_2_0 : S5x2000000.Slices ![2, 0] S1x2000000
  slices_S5x64x64_S1x64x64_2_0_0 : S5x64x64.Slices ![2, 0, 0] S1x64x64
  slices_S5x1x64_S1x1x64_2_0_0 : S5x1x64.Slices ![2, 0, 0] S1x1x64
  slices_S5x2000000_S1x2000000_3_0 : S5x2000000.Slices ![3, 0] S1x2000000
  slices_S5x64x64_S1x64x64_3_0_0 : S5x64x64.Slices ![3, 0, 0] S1x64x64
  slices_S5x1x64_S1x1x64_3_0_0 : S5x1x64.Slices ![3, 0, 0] S1x1x64
  slices_S5x2000000_S1x2000000_4_0 : S5x2000000.Slices ![4, 0] S1x2000000
  slices_S5x64x64_S1x64x64_4_0_0 : S5x64x64.Slices ![4, 0, 0] S1x64x64
  slices_S5x1x64_S1x1x64_4_0_0 : S5x1x64.Slices ![4, 0, 0] S1x1x64
  concatenates_S150000x64_S150000x64_S150000x64_S150000x64_S150000x64_S150000x320_d1 : Shape.Concatenates [S150000x64, S150000x64, S150000x64, S150000x64, S150000x64] S150000x320 1
  bcast_S_S150000x320 : S_.BroadcastsInDim S150000x320 (![] : Fin 0 → Fin S150000x320.rank)
  bcast_S64_S1x64_1 : S64.BroadcastsInDim S1x64 (![1] : Fin 1 → Fin S1x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S150000x64_S64x64_S150000x64_1_0_0_1_n_n_wf : DotDims.WF S150000x64 S64x64 S150000x64 [1] [0] [0] [1] [] []
  dot_S150000x320_S320x64_S150000x64_1_0_0_1_n_n_wf : DotDims.WF S150000x320 S320x64 S150000x64 [1] [0] [0] [1] [] []
  gather_S150000x64_S16384x1_S16384x64_1_0_n_n_0_1_164_wf : GatherDims.WF S150000x64 S16384x1 S16384x64 [1] [0] [] [0] [] 1 ![1, 64]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def dot_S150000x320_S320x64_S150000x64_1_0_0_1_n_n : DotDims S150000x320 S320x64 S150000x64 where
  lhsContracting := [1]
  rhsContracting := [0]
  lhsNonContracting := [0]
  rhsNonContracting := [1]
  lhsBatch := []
  rhsBatch := []
  wf := dot_S150000x320_S320x64_S150000x64_1_0_0_1_n_n_wf
def gather_S150000x64_S16384x1_S16384x64_1_0_n_n_0_1_164 : GatherDims S150000x64 S16384x1 S16384x64 where
  offsetDims := [1]
  collapsedSliceDims := [0]
  operandBatchingDims := []
  startIndicesBatchingDims := []
  startIndexMap := [0]
  indexVectorDim := 1
  sliceSizes := ![1, 64]
  wf := gather_S150000x64_S16384x1_S16384x64_1_0_n_n_0_1_164_wf

class Facts : Prop extends Facts₀ where

variable [Facts]
-- ==== Proof.KernelDense.lean ====
/-
  The first kernel (the dense per-relation transform) at one grid point, for the launch.

  The grid has 25 points; point t is handed rows 6000·t … 6000·t + 5999 of the five relations' aggregated features
  (a 5×6000×64 block), and the whole of the relation weights (5×64×64), the relation biases (5×1×64), the affine
  matrix in five slabs (5×64×64) and the output bias (1×64); it writes rows 6000·t … 6000·t + 5999 of the logits.

  The body loads slab k of each operand for k = 0 … 4, computes, and stores ONE 6000×64 value over the whole of
  its output buffer. So after the body the output buffer holds that value (denseStored) of the five staged blocks,
  whatever it held before, and the input buffers hold what they held.
  This module states that as the body's triple, and packages it as the data the launch of the pipeline asks for:
  what every staging buffer holds after the body at every point, as a function of the arrays V found at the
  region's entry.
-/
import proofs.«118015_j56899726737489_1_alg».proof.Proof.Gen.Kernel.Launch
import proofs.«118015_j56899726737489_1_alg».proof.Proof.Gen.Kernel.Skeleton
import proofs.«118015_j56899726737489_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them: core c's contents of every buffer
variable (V : (c : Dev nD) → (b : Ref sig .tc) → Buf (Elt F) ((c : Thread nD τ).loc b))

/-! ## The operands' blocks -/

/-- Operand w's block at grid point t, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's current staging buffer holds its block at every point, fetched there or not (an operand
    fetched only at the first point has the same block at every point): one statement per input operand. -/
theorem before_of_0 {c : Dev nD} (dat : Dat τ (Elt F) Unit ℕ (UR sig nD τ) ℕ cfg0 c) (hA : dat.A 0 = V c (Pipeline.arrRef spec0 0))
    (hafter : ∀ t, dat.after 0 t = block V c 0 t) (t : Fin cfg0.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = block V c 1 t) (t : Fin cfg0.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = block V c 2 t) (t : Fin cfg0.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = block V c 3 t) (t : Fin cfg0.N) (d) : dat.before 3 t d = block V c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = block V c 4 t) (t : Fin cfg0.N) (d) : dat.before 4 t d = block V c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The body's accesses: slab k of each five-slab operand, and the whole of the bias row and of the output -/

abbrev featSlab0 : Rect S5x6000x64 := Rect.unit (s := S5x6000x64) ![0, 0, 0] S1x6000x64.size inb_S5x6000x64_S1x6000x64_0_0_0
abbrev featSlab1 : Rect S5x6000x64 := Rect.unit (s := S5x6000x64) ![1, 0, 0] S1x6000x64.size inb_S5x6000x64_S1x6000x64_1_0_0
abbrev featSlab2 : Rect S5x6000x64 := Rect.unit (s := S5x6000x64) ![2, 0, 0] S1x6000x64.size inb_S5x6000x64_S1x6000x64_2_0_0
abbrev featSlab3 : Rect S5x6000x64 := Rect.unit (s := S5x6000x64) ![3, 0, 0] S1x6000x64.size inb_S5x6000x64_S1x6000x64_3_0_0
abbrev featSlab4 : Rect S5x6000x64 := Rect.unit (s := S5x6000x64) ![4, 0, 0] S1x6000x64.size inb_S5x6000x64_S1x6000x64_4_0_0
abbrev matSlab0 : Rect S5x64x64 := Rect.unit (s := S5x64x64) ![0, 0, 0] S1x64x64.size inb_S5x64x64_S1x64x64_0_0_0
abbrev matSlab1 : Rect S5x64x64 := Rect.unit (s := S5x64x64) ![1, 0, 0] S1x64x64.size inb_S5x64x64_S1x64x64_1_0_0
abbrev matSlab2 : Rect S5x64x64 := Rect.unit (s := S5x64x64) ![2, 0, 0] S1x64x64.size inb_S5x64x64_S1x64x64_2_0_0
abbrev matSlab3 : Rect S5x64x64 := Rect.unit (s := S5x64x64) ![3, 0, 0] S1x64x64.size inb_S5x64x64_S1x64x64_3_0_0
abbrev matSlab4 : Rect S5x64x64 := Rect.unit (s := S5x64x64) ![4, 0, 0] S1x64x64.size inb_S5x64x64_S1x64x64_4_0_0
abbrev biasSlab0 : Rect S5x1x64 := Rect.unit (s := S5x1x64) ![0, 0, 0] S1x1x64.size inb_S5x1x64_S1x1x64_0_0_0
abbrev biasSlab1 : Rect S5x1x64 := Rect.unit (s := S5x1x64) ![1, 0, 0] S1x1x64.size inb_S5x1x64_S1x1x64_1_0_0
abbrev biasSlab2 : Rect S5x1x64 := Rect.unit (s := S5x1x64) ![2, 0, 0] S1x1x64.size inb_S5x1x64_S1x1x64_2_0_0
abbrev biasSlab3 : Rect S5x1x64 := Rect.unit (s := S5x1x64) ![3, 0, 0] S1x1x64.size inb_S5x1x64_S1x1x64_3_0_0
abbrev biasSlab4 : Rect S5x1x64 := Rect.unit (s := S5x1x64) ![4, 0, 0] S1x1x64.size inb_S5x1x64_S1x1x64_4_0_0
abbrev rowWhole : Rect S1x64 := Rect.unit (s := S1x64) ![0, 0] S1x64.size inb_S1x64_S1x64_0_0
abbrev outWhole : Rect S6000x64 := Rect.unit (s := S6000x64) ![0, 0] S6000x64.size inb_S6000x64_S6000x64_0_0

/-! ## What the body stores -/

/-- The one value the body stores, from the five staged blocks: the five relations' contributions accumulated
    one after the other (the payloads are the body's own arithmetic), then the output bias. -/
def denseStored (x0 : Vec F S5x6000x64 .f32) (x1 : Vec F S5x64x64 .f32) (x2 : Vec F S5x1x64 .f32) (x3 : Vec F S5x64x64 .f32)
    (x4 : Vec F S1x64 .f32) : FVec F S6000x64 .f32 :=
  k0_pay1
    (k0_pay6
      (k0_pay5 (k0_pay2 (View.ld x0 featSlab0) (View.ld x1 matSlab0) (View.ld x2 biasSlab0) (View.ld x3 matSlab0))
        (k0_pay3 (View.ld x0 featSlab1) (View.ld x1 matSlab1)) (k0_pay4 (View.ld x2 biasSlab1)) (View.ld x3 matSlab1)
        (View.ld x0 featSlab2) (View.ld x1 matSlab2) (View.ld x2 biasSlab2) (View.ld x3 matSlab2))
      (View.ld x0 featSlab3) (View.ld x1 matSlab3) (View.ld x2 biasSlab3) (View.ld x3 matSlab3))
    (k0_pay7 (View.ld x0 featSlab4) (View.ld x1 matSlab4) (View.ld x2 biasSlab4))
    (k0_pay8 (View.ld x0 featSlab4) (View.ld x1 matSlab4) (View.ld x2 biasSlab4))
    (Scalar.ofBits .f32 0x3E4CCCCD#32) (View.ld x3 matSlab4) (View.ld x4 rowWhole)

/-- The output buffer after the body: its one store, over the whole buffer. -/
def outAfter (x0 : Vec F S5x6000x64 .f32) (x1 : Vec F S5x64x64 .f32) (x2 : Vec F S5x1x64 .f32) (x3 : Vec F S5x64x64 .f32)
    (x4 : Vec F S1x64 .f32) : Vec F S6000x64 .f32 :=
  View.canon [⟨outWhole, denseStored x0 x1 x2 x3 x4⟩]

/-- The one store covers the buffer. -/
theorem outCover (p0 : Vec F S6000x64 .f32) (y : S6000x64.Idx) :
    ∃ pc ∈ ([⟨outWhole, p0⟩] : List (View.Piece (Elt F) S6000x64 .f32)), y ∈ pc.1.set :=
  View.cover_of_tiled [⟨outWhole, p0⟩] S6000x64.size (by rfl) y

/-! ## The body's triple -/

set_option maxHeartbeats 4000000 in
/-- The body on whole staging buffers, the inputs' at contents x0 … x4 and the output's at anything, runs to the
    continuation with the inputs' as they were and the output's at outAfter of them. -/
theorem sound_kernel (c : Dev nD) (E : Set ℕ) (i : grid0.Coords)
    (arg1 : Memref sig .tc .vmem S5x6000x64 .f32) (harg1 : arg1.IsWhole) (arg2 : Memref sig .tc .vmem S5x64x64 .f32) (harg2 : arg2.IsWhole)
    (arg3 : Memref sig .tc .vmem S5x1x64 .f32) (harg3 : arg3.IsWhole) (arg4 : Memref sig .tc .vmem S5x64x64 .f32) (harg4 : arg4.IsWhole)
    (arg5 : Memref sig .tc .vmem S1x64 .f32) (harg5 : arg5.IsWhole) (arg6 : Memref sig .tc .vmem S6000x64 .f32) (harg6 : arg6.IsWhole)
    (x0 : Vec F S5x6000x64 .f32) (x1 : Vec F S5x64x64 .f32) (x2 : Vec F S5x1x64 .f32) (x3 : Vec F S5x64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outAfter x0 x1 x2 x3 x4)) -∗ K ⟨⟩))
      ⊢ wp frame (wpE (defs₀ (F := F)) Variants.none c none) E (cc0__dense_kernel i arg1 harg1 arg2 harg2 arg3 harg3 arg4 harg4 arg5 harg5 arg6 harg6) K := by
  simp only [cc0__dense_kernel_eq_skeleton]; unfold cc0__dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The data the launch asks for -/

/-- Pipeline 0's data on core c: the arrays as the region finds them; after the body at point t every input buffer at
    its block and the output buffer at outAfter of the five blocks; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => block V c 3 t
    | ⟨4, _⟩ => block V c 4 t
    | ⟨5, _⟩ => outAfter (block V c 0 t) (block V c 1 t) (block V c 2 t) (block V c 3 t) (block V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = block V c 0 t := by dsimp only [dat]
theorem after_1 (c : Dev nD) (t : Fin cfg0.N) : (dat V c).after 1 t = block V c 1 t := by dsimp only [dat]
theorem after_2 (c : Dev nD) (t : Fin cfg0.N) : (dat V c).after 2 t = block V c 2 t := by dsimp only [dat]
theorem after_3 (c : Dev nD) (t : Fin cfg0.N) : (dat V c).after 3 t = block V c 3 t := by dsimp only [dat]
theorem after_4 (c : Dev nD) (t : Fin cfg0.N) : (dat V c).after 4 t = block V c 4 t := by dsimp only [dat]
theorem after_5 (c : Dev nD) (t : Fin cfg0.N) : (dat V c).after 5 t
    = outAfter (block V c 0 t) (block V c 1 t) (block V c 2 t) (block V c 3 t) (block V c 4 t) := by dsimp only [dat]

theorem before_0 (c : Dev nD) (t : Fin cfg0.N) (d) : (dat V c).before 0 t d = block V c 0 t :=
  before_of_0 V (dat V c) (A_eq V c 0) (after_0 V c) t d
theorem before_1 (c : Dev nD) (t : Fin cfg0.N) (d) : (dat V c).before 1 t d = block V c 1 t :=
  before_of_1 V (dat V c) (A_eq V c 1) (after_1 V c) t d
theorem before_2 (c : Dev nD) (t : Fin cfg0.N) (d) : (dat V c).before 2 t d = block V c 2 t :=
  before_of_2 V (dat V c) (A_eq V c 2) (after_2 V c) t d
theorem before_3 (c : Dev nD) (t : Fin cfg0.N) (d) : (dat V c).before 3 t d = block V c 3 t :=
  before_of_3 V (dat V c) (A_eq V c 3) (after_3 V c) t d
theorem before_4 (c : Dev nD) (t : Fin cfg0.N) (d) : (dat V c).before 4 t d = block V c 4 t :=
  before_of_4 V (dat V c) (A_eq V c 4) (after_4 V c) t d

/-! ## The body obligation -/

/-- What the body is called with at point t, the operands one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (block V c 0 t) (block V c 1 t) (block V c 2 t) (block V c 3 t) (block V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Dense

end
-- ==== Proof.KernelScore.lean ====
/-
  The second kernel (the pair score) at one grid point, for the launch.

  The grid has 8 points; point t is handed rows 2048·t … 2048·t + 2047 of the two picked-row matrices (2048×64
  blocks) and writes rows 2048·t … 2048·t + 2047 of the column of scores. The body loads both blocks whole and
  stores ONE 2048×1 value (the row sums of their elementwise product) over the whole of its output buffer.
  This module states the body's triple and packages it as the data the launch of the pipeline asks for, as a
  function of the arrays V found at the region's entry.
-/
import proofs.«118015_j56899726737489_1_alg».proof.Proof.Gen.Kernel.Launch
import proofs.«118015_j56899726737489_1_alg».proof.Proof.Gen.Kernel.Skeleton
import proofs.«118015_j56899726737489_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Score

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them: core c's contents of every buffer
variable (V : (c : Dev nD) → (b : Ref sig .tc) → Buf (Elt F) ((c : Thread nD τ).loc b))

/-! ## The operands' blocks -/

/-- Operand w's block at grid point t, read off its array as the region finds it. -/
def block (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's current staging buffer holds its block at every point. -/
theorem before_of_0 {c : Dev nD} (dat : Dat τ (Elt F) Unit ℕ (UR sig nD τ) ℕ cfg1 c) (hA : dat.A 0 = V c (Pipeline.arrRef spec1 0))
    (hafter : ∀ t, dat.after 0 t = block V c 0 t) (t : Fin cfg1.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = block V c 1 t) (t : Fin cfg1.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-! ## The body's accesses: each buffer whole -/

abbrev rowsWhole : Rect S2048x64 := Rect.unit (s := S2048x64) ![0, 0] S2048x64.size inb_S2048x64_S2048x64_0_0
abbrev colWhole : Rect S2048x1 := Rect.unit (s := S2048x1) ![0, 0] S2048x1.size inb_S2048x1_S2048x1_0_0

/-! ## What the body stores -/

/-- The one value the body stores, from the two staged blocks: the row sums of their elementwise product, as a column. -/
def scoreStored (x0 x1 : Vec F S2048x64 .f32) : FVec F S2048x1 .f32 :=
  k1_pay1 (View.ld x0 rowsWhole) (View.ld x1 rowsWhole)

/-- The output buffer after the body: its one store, over the whole buffer. -/
def outAfter (x0 x1 : Vec F S2048x64 .f32) : Vec F S2048x1 .f32 :=
  View.canon [⟨colWhole, scoreStored x0 x1⟩]

/-- The one store covers the buffer. -/
theorem outCover (p0 : Vec F S2048x1 .f32) (y : S2048x1.Idx) :
    ∃ pc ∈ ([⟨colWhole, p0⟩] : List (View.Piece (Elt F) S2048x1 .f32)), y ∈ pc.1.set :=
  View.cover_of_tiled [⟨colWhole, p0⟩] S2048x1.size (by rfl) y

/-! ## The body's triple -/

set_option maxHeartbeats 4000000 in
/-- The body on whole staging buffers, the inputs' at contents x0, x1 and the output's at anything, runs to the
    continuation with the inputs' as they were and the output's at outAfter of them. -/
theorem sound_kernel (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S2048x1 .f32) (harg3 : arg3.IsWhole)
    (x0 x1 : Vec F S2048x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outAfter x0 x1)) -∗ K ⟨⟩))
      ⊢ wp frame (wpE (defs₀ (F := F)) Variants.none c none) E (cc1__dot_reduce_kernel i arg1 harg1 arg2 harg2 arg3 harg3) K := by
  simp only [cc1__dot_reduce_kernel_eq_skeleton]; unfold cc1__dot_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The data the launch asks for -/

/-- Pipeline 1's data on core c: the arrays as the region finds them; after the body at point t every input buffer at
    its block and the output buffer at outAfter of the two blocks; the scoped rest and the generator register
    untouched; nothing owed; full shares. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => outAfter (block V c 0 t) (block V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = block V c 0 t := by dsimp only [dat]
theorem after_1 (c : Dev nD) (t : Fin cfg1.N) : (dat V c).after 1 t = block V c 1 t := by dsimp only [dat]
theorem after_2 (c : Dev nD) (t : Fin cfg1.N) : (dat V c).after 2 t = outAfter (block V c 0 t) (block V c 1 t) := by dsimp only [dat]

theorem before_0 (c : Dev nD) (t : Fin cfg1.N) (d) : (dat V c).before 0 t d = block V c 0 t :=
  before_of_0 V (dat V c) (A_eq V c 0) (after_0 V c) t d
theorem before_1 (c : Dev nD) (t : Fin cfg1.N) (d) : (dat V c).before 1 t d = block V c 1 t :=
  before_of_1 V (dat V c) (A_eq V c 1) (after_1 V c) t d

/-! ## The body obligation -/

/-- What the body is called with at point t, the operands one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (block V c 0 t) (block V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Score

end
-- ==== Proof.KernelRun.lean ====
/-
  The whole program's run: the host operations, the first kernel over its 25 grid points, more host operations,
  the second kernel over its 8 grid points, a last reshape.

  Between two items of @main every buffer of the core is held at named contents:
    W0  the launch memory;
    W1, W2  after the first and the second stretch of host operations (the node table, the five relations'
        aggregated features, their stack, the affine matrix in slabs, the bias as a row);
    W3  after the first kernel: its output array (the logits) holds what the 25 write-backs leave, every other
        buffer what it held;
    W4  after the next stretch of host operations (the two matrices of picked rows);
    W5  after the second kernel: its output array (the column of scores) holds what the 8 write-backs leave;
    W6  after the last reshape.
  The run ends with every buffer at W6; what W6 holds at the result and at each argument is read off it elsewhere.
-/
import proofs.«118015_j56899726737489_1_alg».proof.Proof.KernelDense
import proofs.«118015_j56899726737489_1_alg».proof.Proof.KernelScore

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- Core c's buffers at launch. -/
abbrev W0 : Dev nD → Valuation τ sig (Elt F) := fun c b => m ((c : Dev nD), b)
/-- After the first stretch of host operations. -/
abbrev W1 : Dev nD → Valuation τ sig (Elt F) := fun c => StableHlo.after main_part0_ops0 (W0 m c)
/-- After the second stretch: what the first kernel is entered from. -/
abbrev W2 : Dev nD → Valuation τ sig (Elt F) := fun c => StableHlo.after main_part1_ops0 (W1 m c)
abbrev V2 : (c : Dev nD) → (b : Ref sig .tc) → Buf (Elt F) ((c : Thread nD τ).loc b) := fun c b => W2 m c b
/-- After the first kernel: its arrays at what the pipeline leaves, every other buffer as entered. -/
def W3 (c : Dev nD) : Valuation τ sig (Elt F) :=
  Pipeline.withArrays spec0 c (W2 m c) fun w => (Dense.dat (V2 m) c).arrAt w cfg0.N
theorem W3_arr (c : Dev nD) (w : Fin cfg0.W) :
    W3 m c (Proc.devRef .tc (Pipeline.arrRef spec0 w)) = (Dense.dat (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (Dense.dat (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- After the third stretch of host operations: what the second kernel is entered from. -/
abbrev W4 : Dev nD → Valuation τ sig (Elt F) := fun c => StableHlo.after main_part2_ops0 (W3 m c)
abbrev V4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (Score.dat (V4 m) c).arrAt w cfg1.N
theorem W5_arr (c : Dev nD) (w : Fin cfg1.W) :
    W5 m c (Proc.devRef .tc (Pipeline.arrRef spec1 w)) = (Score.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Score.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the last host operation: the end of the run. -/
abbrev W6 : Dev nD → Valuation τ sig (Elt F) := fun c => StableHlo.after main_part2_ops1 (W5 m c)

/-! ## The pipelines' data and the thread state -/

/-- No pipeline has a prefetched table. -/
abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => Dense.dat (V2 m) c
  | ⟨1, _⟩ => fun c => Score.dat (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item: every unscoped buffer from the contents W to the contents after them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh_part0 : (main_part0_ops0 : List (HloOp τ sig (Elt F))).Forall fun op => op.fresh = ∅ := by
  simp only [List.Forall]; repeat' constructor
theorem fresh_part1 : (main_part1_ops0 : List (HloOp τ sig (Elt F))).Forall fun op => op.fresh = ∅ := by
  simp only [List.Forall]; repeat' constructor
theorem fresh_part2a : (main_part2_ops0 : List (HloOp τ sig (Elt F))).Forall fun op => op.fresh = ∅ := by
  simp only [List.Forall]; repeat' constructor
theorem fresh_part2b : (main_part2_ops1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W6 m c) ∗ ∃ r, prngReg c r)

/-! ## The two kernel regions as items -/

set_option backward.isDefEq.respectTransparency.types false in
/-- The first kernel's region: entered with every unscoped buffer at W2, left with them at W3. Its arrays are split
    out of the unscoped buffers and put back at the exit contents; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at W4, left with them at W5. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Score.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's six items in order. -/
abbrev segs : List (Pipeline.Seg (pcfgs (F := F)) adm (pdats m) () defs₀ 𝒱₀ L lv) :=
  [ .host (hseg main_part0_ops0 main_part0_ops0_sub fresh_part0 (W0 m)),
    .host (hseg main_part1_ops0 main_part1_ops0_sub fresh_part1 (W1 m)),
    .region (reg0 m),
    .host (hseg main_part2_ops0 main_part2_ops0_sub fresh_part2a (W3 m)),
    .region (reg1 m),
    .host (hseg main_part2_ops1 main_part2_ops1_sub fresh_part2b (W5 m)) ]

/-- @main is the run of the items. -/
theorem main_run (c : Dev nD) : main (F := F) c = Pipeline.Seg.run (segs m) := (main_chain_windows c).trans (by chain_rfl)

set_option backward.isDefEq.respectTransparency.types false in
/-- From any memory with zero counters, every weakly fair execution of @main terminates, nothing faulting, and every
    final state holds every unscoped buffer of every core at W6. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.KernelKept.lean ====
/-
  No item of @main writes an argument array: a stretch of host operations writes only its own results, the first
  kernel writes only the logits, the second only the column of scores; an argument a kernel reads through an
  input operand is handed back as found. So every argument array ends the run holding its launch contents — the
  frame claim — whatever the float instance.
-/
import proofs.«118015_j56899726737489_1_alg».proof.Proof.KernelRun

set_option maxRecDepth 16384

noncomputable section

namespace Cert.Kernel.Kept

open Cert.Kernel Cert.Kernel.Gen Cert.Kernel.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each stretch of host operations writes -/

abbrev written0 : List (Ref sig .tc) := [main_v0, main_v1, main_v2, main_c, main_v3, main_v4, main_c_0, main_v5, main_v6, main_v7, main_v8, main_v9, main_v10, main_v11, main_v12, main_v13, main_v14, main_v15, main_v16, main_cst, main_v17, main_v18, main_v19, main_v20, main_v21, main_c_1, main_v22, main_v23, main_c_2, main_v24, main_v25, main_v26, main_v27, main_v28, main_v29, main_v30, main_v31, main_v32, main_v33, main_v34, main_v35, main_cst_3, main_v36, main_v37, main_v38, main_v39, main_v40, main_c_4, main_v41, main_v42, main_c_5, main_v43, main_v44, main_v45, main_v46, main_v47, main_v48, main_v49, main_v50, main_v51]
abbrev written1 : List (Ref sig .tc) := [main_v52, main_v53, main_v54, main_cst_6, main_v55, main_v56, main_v57, main_v58, main_v59, main_c_7, main_v60, main_v61, main_c_8, main_v62, main_v63, main_v64, main_v65, main_v66, main_v67, main_v68, main_v69, main_v70, main_v71, main_v72, main_v73, main_cst_9, main_v74, main_v75, main_v76, main_v77, main_v78, main_c_10, main_v79, main_v80, main_c_11, main_v81, main_v82, main_v83, main_v84, main_v85, main_v86, main_v87, main_v88, main_v89, main_v90, main_v91, main_v92, main_cst_12, main_v93, main_v94, main_v95, main_v96, main_v97, main_v98, main_v99, main_v100, main_v101, main_v102, main_v103]
abbrev written2 : List (Ref sig .tc) := [main_c_13, main_v105, main_v106, main_c_14, main_v107, main_v108, main_v109, main_v110, main_v111, main_c_15, main_v112, main_v113, main_c_16, main_v114, main_v115, main_c_17, main_v116, main_v117, main_v118, main_v119, main_v120]
abbrev written3 : List (Ref sig .tc) := [main_v122]

theorem writes0 : (main_part0_ops0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes1 : (main_part1_ops0 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes2 : (main_part2_ops0 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes3 : (main_part2_ops1 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ)

/-! ## A buffer nothing writes ends as launched -/

/-- A buffer that no stretch writes and that is no array of either kernel holds at the end what it held at launch. -/
theorem kept_of (c : Dev nD) (r : Ref sig .tc) (h0 : r ∉ written0) (h1 : r ∉ written1) (h2 : r ∉ written2) (h3 : r ∉ written3)
    (hk0 : ∀ w, Pipeline.arrRef spec0 w ≠ r) (hk1 : ∀ w, Pipeline.arrRef spec1 w ≠ r) :
    W6 m c (Proc.devRef .tc r) = m ((c : Thread nD τ).loc r) :=
  calc W6 m c (Proc.devRef .tc r)
    _ = W5 m c (Proc.devRef .tc r) := StableHlo.after_of_writes_sub main_part2_ops1 _ writes3 h3
    _ = W4 m c (Proc.devRef .tc r) := W5_of_ne m c r hk1
    _ = W3 m c (Proc.devRef .tc r) := StableHlo.after_of_writes_sub main_part2_ops0 _ writes2 h2
    _ = W2 m c (Proc.devRef .tc r) := W3_of_ne m c r hk0
    _ = W1 m c (Proc.devRef .tc r) := StableHlo.after_of_writes_sub main_part1_ops0 _ writes1 h1
    _ = W0 m c (Proc.devRef .tc r) := StableHlo.after_of_writes_sub main_part0_ops0 _ writes0 h0
    _ = m ((c : Thread nD τ).loc r) := rfl

/-- An input operand of the first kernel (no stretch writes it, the second kernel does not touch it) likewise: the
    first kernel hands an input array back as found. -/
theorem kept_of_input0 (c : Dev nD) (w : Fin cfg0.W) (hw : (cfg0.win w).isOut = false)
    (h0 : Pipeline.arrRef spec0 w ∉ written0) (h1 : Pipeline.arrRef spec0 w ∉ written1) (h2 : Pipeline.arrRef spec0 w ∉ written2)
    (h3 : Pipeline.arrRef spec0 w ∉ written3) (hk1 : ∀ w', Pipeline.arrRef spec1 w' ≠ Pipeline.arrRef spec0 w) :
    W6 m c (Proc.devRef .tc (Pipeline.arrRef spec0 w)) = m ((c : Thread nD τ).loc (Pipeline.arrRef spec0 w)) :=
  calc W6 m c (Proc.devRef .tc (Pipeline.arrRef spec0 w))
    _ = W5 m c (Proc.devRef .tc (Pipeline.arrRef spec0 w)) := StableHlo.after_of_writes_sub main_part2_ops1 _ writes3 h3
    _ = W4 m c (Proc.devRef .tc (Pipeline.arrRef spec0 w)) := W5_of_ne m c _ hk1
    _ = W3 m c (Proc.devRef .tc (Pipeline.arrRef spec0 w)) := StableHlo.after_of_writes_sub main_part2_ops0 _ writes2 h2
    _ = W2 m c (Proc.devRef .tc (Pipeline.arrRef spec0 w)) :=
        (W3_arr m c w).trans (((Dense.dat (V2 m) c).arrAt_in w hw _).trans (Dense.A_eq (V2 m) c w))
    _ = W1 m c (Proc.devRef .tc (Pipeline.arrRef spec0 w)) := StableHlo.after_of_writes_sub main_part1_ops0 _ writes1 h1
    _ = W0 m c (Proc.devRef .tc (Pipeline.arrRef spec0 w)) := StableHlo.after_of_writes_sub main_part0_ops0 _ writes0 h0
    _ = m ((c : Thread nD τ).loc (Pipeline.arrRef spec0 w)) := rfl

/-! ## The eleven arguments -/
theorem kept_arg0 (c : Dev nD) : W6 m c (Proc.devRef .tc main_arg0) = m ((c : Thread nD τ).loc main_arg0) :=
  kept_of m c main_arg0 (by decide) (by decide) (by decide) (by decide) (by decide) (by decide)
theorem kept_arg1 (c : Dev nD) : W6 m c (Proc.devRef .tc main_arg1) = m ((c : Thread nD τ).loc main_arg1) :=
  kept_of m c main_arg1 (by decide) (by decide) (by decide) (by decide) (by decide) (by decide)
theorem kept_arg2 (c : Dev nD) : W6 m c (Proc.devRef .tc main_arg2) = m ((c : Thread nD τ).loc main_arg2) :=
  kept_of m c main_arg2 (by decide) (by decide) (by decide) (by decide) (by decide) (by decide)
theorem kept_arg3 (c : Dev nD) : W6 m c (Proc.devRef .tc main_arg3) = m ((c : Thread nD τ).loc main_arg3) :=
  kept_of m c main_arg3 (by decide) (by decide) (by decide) (by decide) (by decide) (by decide)
theorem kept_arg4 (c : Dev nD) : W6 m c (Proc.devRef .tc main_arg4) = m ((c : Thread nD τ).loc main_arg4) :=
  kept_of m c main_arg4 (by decide) (by decide) (by decide) (by decide) (by decide) (by decide)
theorem kept_arg5 (c : Dev nD) : W6 m c (Proc.devRef .tc main_arg5) = m ((c : Thread nD τ).loc main_arg5) :=
  kept_of m c main_arg5 (by decide) (by decide) (by decide) (by decide) (by decide) (by decide)
theorem kept_arg6 (c : Dev nD) : W6 m c (Proc.devRef .tc main_arg6) = m ((c : Thread nD τ).loc main_arg6) :=
  kept_of m c main_arg6 (by decide) (by decide) (by decide) (by decide) (by decide) (by decide)
theorem kept_arg7 (c : Dev nD) : W6 m c (Proc.devRef .tc main_arg7) = m ((c : Thread nD τ).loc main_arg7) :=
  kept_of_input0 m c 1 rfl (by decide) (by decide) (by decide) (by decide) (by decide)
theorem kept_arg8 (c : Dev nD) : W6 m c (Proc.devRef .tc main_arg8) = m ((c : Thread nD τ).loc main_arg8) :=
  kept_of_input0 m c 2 rfl (by decide) (by decide) (by decide) (by decide) (by decide)
theorem kept_arg9 (c : Dev nD) : W6 m c (Proc.devRef .tc main_arg9) = m ((c : Thread nD τ).loc main_arg9) :=
  kept_of m c main_arg9 (by decide) (by decide) (by decide) (by decide) (by decide) (by decide)
theorem kept_arg10 (c : Dev nD) : W6 m c (Proc.devRef .tc main_arg10) = m ((c : Thread nD τ).loc main_arg10) :=
  kept_of m c main_arg10 (by decide) (by decide) (by decide) (by decide) (by decide) (by decide)

/-! ## The frame -/

/-- From any memory with zero counters every weakly fair execution of @main terminates, nothing faulting, and every
    final state has the eleven argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (kept_arg0 m c),
      (h c _ (mem_uc main_arg1 (by decide))).trans (kept_arg1 m c),
      (h c _ (mem_uc main_arg2 (by decide))).trans (kept_arg2 m c),
      (h c _ (mem_uc main_arg3 (by decide))).trans (kept_arg3 m c),
      (h c _ (mem_uc main_arg4 (by decide))).trans (kept_arg4 m c),
      (h c _ (mem_uc main_arg5 (by decide))).trans (kept_arg5 m c),
      (h c _ (mem_uc main_arg6 (by decide))).trans (kept_arg6 m c),
      (h c _ (mem_uc main_arg7 (by decide))).trans (kept_arg7 m c),
      (h c _ (mem_uc main_arg8 (by decide))).trans (kept_arg8 m c),
      (h c _ (mem_uc main_arg9 (by decide))).trans (kept_arg9 m c),
      (h c _ (mem_uc main_arg10 (by decide))).trans (kept_arg10 m c)⟩)
    (run_all m ρ)

end Cert.Kernel.Kept

end
-- ==== Proof.KernelIdealDense.lean ====
/-
  The first kernel (the dense per-relation transform) at one grid point, for the launch.

  The grid has 25 points; point t is handed rows 6000·t … 6000·t + 5999 of the five relations' aggregated features
  (a 5×6000×64 block), and the whole of the relation weights (5×64×64), the relation biases (5×1×64), the affine
  matrix in five slabs (5×64×64) and the output bias (1×64); it writes rows 6000·t … 6000·t + 5999 of the logits.

  The body loads slab k of each operand for k = 0 … 4, computes, and stores ONE 6000×64 value over the whole of
  its output buffer. So after the body the output buffer holds that value (denseStored) of the five staged blocks,
  whatever it held before, and the input buffers hold what they held.
  This module states that as the body's triple, and packages it as the data the launch of the pipeline asks for:
  what every staging buffer holds after the body at every point, as a function of the arrays V found at the
  region's entry.
-/
import proofs.«118015_j56899726737489_1_alg».proof.Proof.Gen.KernelIdeal.Launch
import proofs.«118015_j56899726737489_1_alg».proof.Proof.Gen.KernelIdeal.Skeleton
import proofs.«118015_j56899726737489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them: core c's contents of every buffer
variable (V : (c : Dev nD) → (b : Ref sig .tc) → Buf (Elt F) ((c : Thread nD τ).loc b))

/-! ## The operands' blocks -/

/-- Operand w's block at grid point t, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input operand's current staging buffer holds its block at every point, fetched there or not (an operand
    fetched only at the first point has the same block at every point): one statement per input operand. -/
theorem before_of_0 {c : Dev nD} (dat : Dat τ (Elt F) Unit ℕ (UR sig nD τ) ℕ cfg0 c) (hA : dat.A 0 = V c (Pipeline.arrRef spec0 0))
    (hafter : ∀ t, dat.after 0 t = block V c 0 t) (t : Fin cfg0.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = block V c 1 t) (t : Fin cfg0.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = block V c 2 t) (t : Fin cfg0.N) (d) : dat.before 2 t d = block V c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = block V c 3 t) (t : Fin cfg0.N) (d) : dat.before 3 t d = block V c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before_of_4 {c : Dev nD} (dat : Dat τ (Elt F) Unit ℕ (UR sig nD τ) ℕ cfg0 c) (hA : dat.A 4 = V c (Pipeline.arrRef spec0 4))
    (hafter : ∀ t, dat.after 4 t = block V c 4 t) (t : Fin cfg0.N) (d) : dat.before 4 t d = block V c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The body's accesses: slab k of each five-slab operand, and the whole of the bias row and of the output -/

abbrev featSlab0 : Rect S5x6000x64 := Rect.unit (s := S5x6000x64) ![0, 0, 0] S1x6000x64.size inb_S5x6000x64_S1x6000x64_0_0_0
abbrev featSlab1 : Rect S5x6000x64 := Rect.unit (s := S5x6000x64) ![1, 0, 0] S1x6000x64.size inb_S5x6000x64_S1x6000x64_1_0_0
abbrev featSlab2 : Rect S5x6000x64 := Rect.unit (s := S5x6000x64) ![2, 0, 0] S1x6000x64.size inb_S5x6000x64_S1x6000x64_2_0_0
abbrev featSlab3 : Rect S5x6000x64 := Rect.unit (s := S5x6000x64) ![3, 0, 0] S1x6000x64.size inb_S5x6000x64_S1x6000x64_3_0_0
abbrev featSlab4 : Rect S5x6000x64 := Rect.unit (s := S5x6000x64) ![4, 0, 0] S1x6000x64.size inb_S5x6000x64_S1x6000x64_4_0_0
abbrev matSlab0 : Rect S5x64x64 := Rect.unit (s := S5x64x64) ![0, 0, 0] S1x64x64.size inb_S5x64x64_S1x64x64_0_0_0
abbrev matSlab1 : Rect S5x64x64 := Rect.unit (s := S5x64x64) ![1, 0, 0] S1x64x64.size inb_S5x64x64_S1x64x64_1_0_0
abbrev matSlab2 : Rect S5x64x64 := Rect.unit (s := S5x64x64) ![2, 0, 0] S1x64x64.size inb_S5x64x64_S1x64x64_2_0_0
abbrev matSlab3 : Rect S5x64x64 := Rect.unit (s := S5x64x64) ![3, 0, 0] S1x64x64.size inb_S5x64x64_S1x64x64_3_0_0
abbrev matSlab4 : Rect S5x64x64 := Rect.unit (s := S5x64x64) ![4, 0, 0] S1x64x64.size inb_S5x64x64_S1x64x64_4_0_0
abbrev biasSlab0 : Rect S5x1x64 := Rect.unit (s := S5x1x64) ![0, 0, 0] S1x1x64.size inb_S5x1x64_S1x1x64_0_0_0
abbrev biasSlab1 : Rect S5x1x64 := Rect.unit (s := S5x1x64) ![1, 0, 0] S1x1x64.size inb_S5x1x64_S1x1x64_1_0_0
abbrev biasSlab2 : Rect S5x1x64 := Rect.unit (s := S5x1x64) ![2, 0, 0] S1x1x64.size inb_S5x1x64_S1x1x64_2_0_0
abbrev biasSlab3 : Rect S5x1x64 := Rect.unit (s := S5x1x64) ![3, 0, 0] S1x1x64.size inb_S5x1x64_S1x1x64_3_0_0
abbrev biasSlab4 : Rect S5x1x64 := Rect.unit (s := S5x1x64) ![4, 0, 0] S1x1x64.size inb_S5x1x64_S1x1x64_4_0_0
abbrev rowWhole : Rect S1x64 := Rect.unit (s := S1x64) ![0, 0] S1x64.size inb_S1x64_S1x64_0_0
abbrev outWhole : Rect S6000x64 := Rect.unit (s := S6000x64) ![0, 0] S6000x64.size inb_S6000x64_S6000x64_0_0

/-! ## What the body stores -/

/-- The one value the body stores, from the five staged blocks: the five relations' contributions accumulated
    one after the other (the payloads are the body's own arithmetic), then the output bias. -/
def denseStored (x0 : Vec F S5x6000x64 .f32) (x1 : Vec F S5x64x64 .f32) (x2 : Vec F S5x1x64 .f32) (x3 : Vec F S5x64x64 .f32)
    (x4 : Vec F S1x64 .f32) : FVec F S6000x64 .f32 :=
  k0_pay1
    (k0_pay6
      (k0_pay5 (k0_pay2 (View.ld x0 featSlab0) (View.ld x1 matSlab0) (View.ld x2 biasSlab0) (View.ld x3 matSlab0))
        (k0_pay3 (View.ld x0 featSlab1) (View.ld x1 matSlab1)) (k0_pay4 (View.ld x2 biasSlab1)) (View.ld x3 matSlab1)
        (View.ld x0 featSlab2) (View.ld x1 matSlab2) (View.ld x2 biasSlab2) (View.ld x3 matSlab2))
      (View.ld x0 featSlab3) (View.ld x1 matSlab3) (View.ld x2 biasSlab3) (View.ld x3 matSlab3))
    (k0_pay7 (View.ld x0 featSlab4) (View.ld x1 matSlab4) (View.ld x2 biasSlab4))
    (k0_pay8 (View.ld x0 featSlab4) (View.ld x1 matSlab4) (View.ld x2 biasSlab4))
    (Scalar.ofBits .f32 0x3E4CCCCD#32) (View.ld x3 matSlab4) (View.ld x4 rowWhole)

/-- The output buffer after the body: its one store, over the whole buffer. -/
def outAfter (x0 : Vec F S5x6000x64 .f32) (x1 : Vec F S5x64x64 .f32) (x2 : Vec F S5x1x64 .f32) (x3 : Vec F S5x64x64 .f32)
    (x4 : Vec F S1x64 .f32) : Vec F S6000x64 .f32 :=
  View.canon [⟨outWhole, denseStored x0 x1 x2 x3 x4⟩]

/-- The one store covers the buffer. -/
theorem outCover (p0 : Vec F S6000x64 .f32) (y : S6000x64.Idx) :
    ∃ pc ∈ ([⟨outWhole, p0⟩] : List (View.Piece (Elt F) S6000x64 .f32)), y ∈ pc.1.set :=
  View.cover_of_tiled [⟨outWhole, p0⟩] S6000x64.size (by rfl) y

/-! ## The body's triple -/

set_option maxHeartbeats 4000000 in
/-- The body on whole staging buffers, the inputs' at contents x0 … x4 and the output's at anything, runs to the
    continuation with the inputs' as they were and the output's at outAfter of them. -/
theorem sound_kernel (c : Dev nD) (E : Set ℕ) (i : grid0.Coords)
    (arg1 : Memref sig .tc .vmem S5x6000x64 .f32) (harg1 : arg1.IsWhole) (arg2 : Memref sig .tc .vmem S5x64x64 .f32) (harg2 : arg2.IsWhole)
    (arg3 : Memref sig .tc .vmem S5x1x64 .f32) (harg3 : arg3.IsWhole) (arg4 : Memref sig .tc .vmem S5x64x64 .f32) (harg4 : arg4.IsWhole)
    (arg5 : Memref sig .tc .vmem S1x64 .f32) (harg5 : arg5.IsWhole) (arg6 : Memref sig .tc .vmem S6000x64 .f32) (harg6 : arg6.IsWhole)
    (x0 : Vec F S5x6000x64 .f32) (x1 : Vec F S5x64x64 .f32) (x2 : Vec F S5x1x64 .f32) (x3 : Vec F S5x64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outAfter x0 x1 x2 x3 x4)) -∗ K ⟨⟩))
      ⊢ wp frame (wpE (defs₀ (F := F)) Variants.none c none) E (cc0__dense_kernel i arg1 harg1 arg2 harg2 arg3 harg3 arg4 harg4 arg5 harg5 arg6 harg6) K := by
  simp only [cc0__dense_kernel_eq_skeleton]; unfold cc0__dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The data the launch asks for -/

/-- Pipeline 0's data on core c: the arrays as the region finds them; after the body at point t every input buffer at
    its block and the output buffer at outAfter of the five blocks; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => block V c 0 t
    | ⟨1, _⟩ => block V c 1 t
    | ⟨2, _⟩ => block V c 2 t
    | ⟨3, _⟩ => block V c 3 t
    | ⟨4, _⟩ => block V c 4 t
    | ⟨5, _⟩ => outAfter (block V c 0 t) (block V c 1 t) (block V c 2 t) (block V c 3 t) (block V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = block V c 0 t := by dsimp only [dat]
theorem after_1 (c : Dev nD) (t : Fin cfg0.N) : (dat V c).after 1 t = block V c 1 t := by dsimp only [dat]
theorem after_2 (c : Dev nD) (t : Fin cfg0.N) : (dat V c).after 2 t = block V c 2 t := by dsimp only [dat]
theorem after_3 (c : Dev nD) (t : Fin cfg0.N) : (dat V c).after 3 t = block V c 3 t := by dsimp only [dat]
theorem after_4 (c : Dev nD) (t : Fin cfg0.N) : (dat V c).after 4 t = block V c 4 t := by dsimp only [dat]
theorem after_5 (c : Dev nD) (t : Fin cfg0.N) : (dat V c).after 5 t
    = outAfter (block V c 0 t) (block V c 1 t) (block V c 2 t) (block V c 3 t) (block V c 4 t) := by dsimp only [dat]

theorem before_0 (c : Dev nD) (t : Fin cfg0.N) (d) : (dat V c).before 0 t d = block V c 0 t :=
  before_of_0 V (dat V c) (A_eq V c 0) (after_0 V c) t d
theorem before_1 (c : Dev nD) (t : Fin cfg0.N) (d) : (dat V c).before 1 t d = block V c 1 t :=
  before_of_1 V (dat V c) (A_eq V c 1) (after_1 V c) t d
theorem before_2 (c : Dev nD) (t : Fin cfg0.N) (d) : (dat V c).before 2 t d = block V c 2 t :=
  before_of_2 V (dat V c) (A_eq V c 2) (after_2 V c) t d
theorem before_3 (c : Dev nD) (t : Fin cfg0.N) (d) : (dat V c).before 3 t d = block V c 3 t :=
  before_of_3 V (dat V c) (A_eq V c 3) (after_3 V c) t d
theorem before_4 (c : Dev nD) (t : Fin cfg0.N) (d) : (dat V c).before 4 t d = block V c 4 t :=
  before_of_4 V (dat V c) (A_eq V c 4) (after_4 V c) t d

/-! ## The body obligation -/

/-- What the body is called with at point t, the operands one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the input buffers hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (block V c 0 t) (block V c 1 t) (block V c 2 t) (block V c 3 t) (block V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Dense

end
-- ==== Proof.KernelIdealScore.lean ====
/-
  The second kernel (the pair score) at one grid point, for the launch.

  The grid has 8 points; point t is handed rows 2048·t … 2048·t + 2047 of the two picked-row matrices (2048×64
  blocks) and writes rows 2048·t … 2048·t + 2047 of the column of scores. The body loads both blocks whole and
  stores ONE 2048×1 value (the row sums of their elementwise product) over the whole of its output buffer.
  This module states the body's triple and packages it as the data the launch of the pipeline asks for, as a
  function of the arrays V found at the region's entry.
-/
import proofs.«118015_j56899726737489_1_alg».proof.Proof.Gen.KernelIdeal.Launch
import proofs.«118015_j56899726737489_1_alg».proof.Proof.Gen.KernelIdeal.Skeleton
import proofs.«118015_j56899726737489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them: core c's contents of every buffer
variable (V : (c : Dev nD) → (b : Ref sig .tc) → Buf (Elt F) ((c : Thread nD τ).loc b))

/-! ## The operands' blocks -/

/-- Operand w's block at grid point t, read off its array as the region finds it. -/
def block (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input operand's current staging buffer holds its block at every point. -/
theorem before_of_0 {c : Dev nD} (dat : Dat τ (Elt F) Unit ℕ (UR sig nD τ) ℕ cfg1 c) (hA : dat.A 0 = V c (Pipeline.arrRef spec1 0))
    (hafter : ∀ t, dat.after 0 t = block V c 0 t) (t : Fin cfg1.N) (d) : dat.before 0 t d = block V c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = block V c 1 t) (t : Fin cfg1.N) (d) : dat.before 1 t d = block V c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)

/-! ## The body's accesses: each buffer whole -/

abbrev rowsWhole : Rect S2048x64 := Rect.unit (s := S2048x64) ![0, 0] S2048x64.size inb_S2048x64_S2048x64_0_0
abbrev colWhole : Rect S2048x1 := Rect.unit (s := S2048x1) ![0, 0] S2048x1.size inb_S2048x1_S2048x1_0_0

/-! ## What the body stores -/

/-- The one value the body stores, from the two staged blocks: the row sums of their elementwise product, as a column. -/
def scoreStored (x0 x1 : Vec F S2048x64 .f32) : FVec F S2048x1 .f32 :=
  k1_pay1 (View.ld x0 rowsWhole) (View.ld x1 rowsWhole)

/-- The output buffer after the body: its one store, over the whole buffer. -/
def outAfter (x0 x1 : Vec F S2048x64 .f32) : Vec F S2048x1 .f32 :=
  View.canon [⟨colWhole, scoreStored x0 x1⟩]

/-- The one store covers the buffer. -/
theorem outCover (p0 : Vec F S2048x1 .f32) (y : S2048x1.Idx) :
    ∃ pc ∈ ([⟨colWhole, p0⟩] : List (View.Piece (Elt F) S2048x1 .f32)), y ∈ pc.1.set :=
  View.cover_of_tiled [⟨colWhole, p0⟩] S2048x1.size (by rfl) y

/-! ## The body's triple -/

set_option maxHeartbeats 4000000 in
/-- The body on whole staging buffers, the inputs' at contents x0, x1 and the output's at anything, runs to the
    continuation with the inputs' as they were and the output's at outAfter of them. -/
theorem sound_kernel (c : Dev nD) (E : Set ℕ) (i : grid1.Coords)
    (arg1 : Memref sig .tc .vmem S2048x64 .f32) (harg1 : arg1.IsWhole) (arg2 : Memref sig .tc .vmem S2048x64 .f32) (harg2 : arg2.IsWhole)
    (arg3 : Memref sig .tc .vmem S2048x1 .f32) (harg3 : arg3.IsWhole)
    (x0 x1 : Vec F S2048x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outAfter x0 x1)) -∗ K ⟨⟩))
      ⊢ wp frame (wpE (defs₀ (F := F)) Variants.none c none) E (cc1__dot_reduce_kernel i arg1 harg1 arg2 harg2 arg3 harg3) K := by
  simp only [cc1__dot_reduce_kernel_eq_skeleton]; unfold cc1__dot_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The data the launch asks for -/

/-- Pipeline 1's data on core c: the arrays as the region finds them; after the body at point t every input buffer at
    its block and the output buffer at outAfter of the two blocks; the scoped rest and the generator register
    untouched; nothing owed; full shares. -/
def dat (c : Dev nD) : Dat τ (Elt F) Unit ℕ (UR sig nD τ) ℕ cfg1 c where
  A w := V c (Pipeline.arrRef spec1 w)
  after w t := match w with
    | ⟨0, _⟩ => block V c 0 t
    | ⟨1, _⟩ => block V c 1 t
    | ⟨2, _⟩ => outAfter (block V c 0 t) (block V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = block V c 0 t := by dsimp only [dat]
theorem after_1 (c : Dev nD) (t : Fin cfg1.N) : (dat V c).after 1 t = block V c 1 t := by dsimp only [dat]
theorem after_2 (c : Dev nD) (t : Fin cfg1.N) : (dat V c).after 2 t = outAfter (block V c 0 t) (block V c 1 t) := by dsimp only [dat]

theorem before_0 (c : Dev nD) (t : Fin cfg1.N) (d) : (dat V c).before 0 t d = block V c 0 t :=
  before_of_0 V (dat V c) (A_eq V c 0) (after_0 V c) t d
theorem before_1 (c : Dev nD) (t : Fin cfg1.N) (d) : (dat V c).before 1 t d = block V c 1 t :=
  before_of_1 V (dat V c) (A_eq V c 1) (after_1 V c) t d

/-! ## The body obligation -/

/-- What the body is called with at point t, the operands one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the input buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (block V c 0 t) (block V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Score

end
-- ==== Proof.KernelIdealRun.lean ====
/-
  The whole program's run: the host operations, the first kernel over its 25 grid points, more host operations,
  the second kernel over its 8 grid points, a last reshape.

  Between two items of @main every buffer of the core is held at named contents:
    W0  the launch memory;
    W1, W2  after the first and the second stretch of host operations (the node table, the five relations'
        aggregated features, their stack, the affine matrix in slabs, the bias as a row);
    W3  after the first kernel: its output array (the logits) holds what the 25 write-backs leave, every other
        buffer what it held;
    W4  after the next stretch of host operations (the two matrices of picked rows);
    W5  after the second kernel: its output array (the column of scores) holds what the 8 write-backs leave;
    W6  after the last reshape.
  The run ends with every buffer at W6; what W6 holds at the result and at each argument is read off it elsewhere.
-/
import proofs.«118015_j56899726737489_1_alg».proof.Proof.KernelIdealDense
import proofs.«118015_j56899726737489_1_alg».proof.Proof.KernelIdealScore

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- Core c's buffers at launch. -/
abbrev W0 : Dev nD → Valuation τ sig (Elt F) := fun c b => m ((c : Dev nD), b)
/-- After the first stretch of host operations. -/
abbrev W1 : Dev nD → Valuation τ sig (Elt F) := fun c => StableHlo.after main_part0_ops0 (W0 m c)
/-- After the second stretch: what the first kernel is entered from. -/
abbrev W2 : Dev nD → Valuation τ sig (Elt F) := fun c => StableHlo.after main_part1_ops0 (W1 m c)
abbrev V2 : (c : Dev nD) → (b : Ref sig .tc) → Buf (Elt F) ((c : Thread nD τ).loc b) := fun c b => W2 m c b
/-- After the first kernel: its arrays at what the pipeline leaves, every other buffer as entered. -/
def W3 (c : Dev nD) : Valuation τ sig (Elt F) :=
  Pipeline.withArrays spec0 c (W2 m c) fun w => (Dense.dat (V2 m) c).arrAt w cfg0.N
theorem W3_arr (c : Dev nD) (w : Fin cfg0.W) :
    W3 m c (Proc.devRef .tc (Pipeline.arrRef spec0 w)) = (Dense.dat (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (Dense.dat (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- After the third stretch of host operations: what the second kernel is entered from. -/
abbrev W4 : Dev nD → Valuation τ sig (Elt F) := fun c => StableHlo.after main_part2_ops0 (W3 m c)
abbrev V4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (Score.dat (V4 m) c).arrAt w cfg1.N
theorem W5_arr (c : Dev nD) (w : Fin cfg1.W) :
    W5 m c (Proc.devRef .tc (Pipeline.arrRef spec1 w)) = (Score.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Score.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- After the last host operation: the end of the run. -/
abbrev W6 : Dev nD → Valuation τ sig (Elt F) := fun c => StableHlo.after main_part2_ops1 (W5 m c)

/-! ## The pipelines' data and the thread state -/

/-- No pipeline has a prefetched table. -/
abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => Dense.dat (V2 m) c
  | ⟨1, _⟩ => fun c => Score.dat (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item: every unscoped buffer from the contents W to the contents after them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh_part0 : (main_part0_ops0 : List (HloOp τ sig (Elt F))).Forall fun op => op.fresh = ∅ := by
  simp only [List.Forall]; repeat' constructor
theorem fresh_part1 : (main_part1_ops0 : List (HloOp τ sig (Elt F))).Forall fun op => op.fresh = ∅ := by
  simp only [List.Forall]; repeat' constructor
theorem fresh_part2a : (main_part2_ops0 : List (HloOp τ sig (Elt F))).Forall fun op => op.fresh = ∅ := by
  simp only [List.Forall]; repeat' constructor
theorem fresh_part2b : (main_part2_ops1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W6 m c) ∗ ∃ r, prngReg c r)

/-! ## The two kernel regions as items -/

set_option backward.isDefEq.respectTransparency.types false in
/-- The first kernel's region: entered with every unscoped buffer at W2, left with them at W3. Its arrays are split
    out of the unscoped buffers and put back at the exit contents; the generator register goes into the pipeline's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered with every unscoped buffer at W4, left with them at W5. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Score.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

/-- @main's six items in order. -/
abbrev segs : List (Pipeline.Seg (pcfgs (F := F)) adm (pdats m) () defs₀ 𝒱₀ L lv) :=
  [ .host (hseg main_part0_ops0 main_part0_ops0_sub fresh_part0 (W0 m)),
    .host (hseg main_part1_ops0 main_part1_ops0_sub fresh_part1 (W1 m)),
    .region (reg0 m),
    .host (hseg main_part2_ops0 main_part2_ops0_sub fresh_part2a (W3 m)),
    .region (reg1 m),
    .host (hseg main_part2_ops1 main_part2_ops1_sub fresh_part2b (W5 m)) ]

/-- @main is the run of the items. -/
theorem main_run (c : Dev nD) : main (F := F) c = Pipeline.Seg.run (segs m) := (main_chain_windows c).trans (by chain_rfl)

set_option backward.isDefEq.respectTransparency.types false in
/-- From any memory with zero counters, every weakly fair execution of @main terminates, nothing faulting, and every
    final state holds every unscoped buffer of every core at W6. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c)
          ∗ ((∃ r, prngReg c r) ∗ ∃ W, owes (c : Thread nD τ) (0 : CellTallies nD τ sig Unit) W)) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.KernelIdealKept.lean ====
/-
  No item of @main writes an argument array: a stretch of host operations writes only its own results, the first
  kernel writes only the logits, the second only the column of scores; an argument a kernel reads through an
  input operand is handed back as found. So every argument array ends the run holding its launch contents — the
  frame claim — whatever the float instance.
-/
import proofs.«118015_j56899726737489_1_alg».proof.Proof.KernelIdealRun

set_option maxRecDepth 16384

noncomputable section

namespace Cert.KernelIdeal.Kept

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each stretch of host operations writes -/

abbrev written0 : List (Ref sig .tc) := [main_v0, main_v1, main_v2, main_c, main_v3, main_v4, main_c_0, main_v5, main_v6, main_v7, main_v8, main_v9, main_v10, main_v11, main_v12, main_v13, main_v14, main_v15, main_v16, main_cst, main_v17, main_v18, main_v19, main_v20, main_v21, main_c_1, main_v22, main_v23, main_c_2, main_v24, main_v25, main_v26, main_v27, main_v28, main_v29, main_v30, main_v31, main_v32, main_v33, main_v34, main_v35, main_cst_3, main_v36, main_v37, main_v38, main_v39, main_v40, main_c_4, main_v41, main_v42, main_c_5, main_v43, main_v44, main_v45, main_v46, main_v47, main_v48, main_v49, main_v50, main_v51]
abbrev written1 : List (Ref sig .tc) := [main_v52, main_v53, main_v54, main_cst_6, main_v55, main_v56, main_v57, main_v58, main_v59, main_c_7, main_v60, main_v61, main_c_8, main_v62, main_v63, main_v64, main_v65, main_v66, main_v67, main_v68, main_v69, main_v70, main_v71, main_v72, main_v73, main_cst_9, main_v74, main_v75, main_v76, main_v77, main_v78, main_c_10, main_v79, main_v80, main_c_11, main_v81, main_v82, main_v83, main_v84, main_v85, main_v86, main_v87, main_v88, main_v89, main_v90, main_v91, main_v92, main_cst_12, main_v93, main_v94, main_v95, main_v96, main_v97, main_v98, main_v99, main_v100, main_v101, main_v102, main_v103]
abbrev written2 : List (Ref sig .tc) := [main_c_13, main_v105, main_v106, main_c_14, main_v107, main_v108, main_v109, main_v110, main_v111, main_c_15, main_v112, main_v113, main_c_16, main_v114, main_v115, main_c_17, main_v116, main_v117, main_v118, main_v119, main_v120]
abbrev written3 : List (Ref sig .tc) := [main_v122]

theorem writes0 : (main_part0_ops0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes1 : (main_part1_ops0 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes2 : (main_part2_ops0 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem writes3 : (main_part2_ops1 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ)

/-! ## A buffer nothing writes ends as launched -/

/-- A buffer that no stretch writes and that is no array of either kernel holds at the end what it held at launch. -/
theorem kept_of (c : Dev nD) (r : Ref sig .tc) (h0 : r ∉ written0) (h1 : r ∉ written1) (h2 : r ∉ written2) (h3 : r ∉ written3)
    (hk0 : ∀ w, Pipeline.arrRef spec0 w ≠ r) (hk1 : ∀ w, Pipeline.arrRef spec1 w ≠ r) :
    W6 m c (Proc.devRef .tc r) = m ((c : Thread nD τ).loc r) :=
  calc W6 m c (Proc.devRef .tc r)
    _ = W5 m c (Proc.devRef .tc r) := StableHlo.after_of_writes_sub main_part2_ops1 _ writes3 h3
    _ = W4 m c (Proc.devRef .tc r) := W5_of_ne m c r hk1
    _ = W3 m c (Proc.devRef .tc r) := StableHlo.after_of_writes_sub main_part2_ops0 _ writes2 h2
    _ = W2 m c (Proc.devRef .tc r) := W3_of_ne m c r hk0
    _ = W1 m c (Proc.devRef .tc r) := StableHlo.after_of_writes_sub main_part1_ops0 _ writes1 h1
    _ = W0 m c (Proc.devRef .tc r) := StableHlo.after_of_writes_sub main_part0_ops0 _ writes0 h0
    _ = m ((c : Thread nD τ).loc r) := rfl

/-- An input operand of the first kernel (no stretch writes it, the second kernel does not touch it) likewise: the
    first kernel hands an input array back as found. -/
theorem kept_of_input0 (c : Dev nD) (w : Fin cfg0.W) (hw : (cfg0.win w).isOut = false)
    (h0 : Pipeline.arrRef spec0 w ∉ written0) (h1 : Pipeline.arrRef spec0 w ∉ written1) (h2 : Pipeline.arrRef spec0 w ∉ written2)
    (h3 : Pipeline.arrRef spec0 w ∉ written3) (hk1 : ∀ w', Pipeline.arrRef spec1 w' ≠ Pipeline.arrRef spec0 w) :
    W6 m c (Proc.devRef .tc (Pipeline.arrRef spec0 w)) = m ((c : Thread nD τ).loc (Pipeline.arrRef spec0 w)) :=
  calc W6 m c (Proc.devRef .tc (Pipeline.arrRef spec0 w))
    _ = W5 m c (Proc.devRef .tc (Pipeline.arrRef spec0 w)) := StableHlo.after_of_writes_sub main_part2_ops1 _ writes3 h3
    _ = W4 m c (Proc.devRef .tc (Pipeline.arrRef spec0 w)) := W5_of_ne m c _ hk1
    _ = W3 m c (Proc.devRef .tc (Pipeline.arrRef spec0 w)) := StableHlo.after_of_writes_sub main_part2_ops0 _ writes2 h2
    _ = W2 m c (Proc.devRef .tc (Pipeline.arrRef spec0 w)) :=
        (W3_arr m c w).trans (((Dense.dat (V2 m) c).arrAt_in w hw _).trans (Dense.A_eq (V2 m) c w))
    _ = W1 m c (Proc.devRef .tc (Pipeline.arrRef spec0 w)) := StableHlo.after_of_writes_sub main_part1_ops0 _ writes1 h1
    _ = W0 m c (Proc.devRef .tc (Pipeline.arrRef spec0 w)) := StableHlo.after_of_writes_sub main_part0_ops0 _ writes0 h0
    _ = m ((c : Thread nD τ).loc (Pipeline.arrRef spec0 w)) := rfl

/-! ## The eleven arguments -/
theorem kept_arg0 (c : Dev nD) : W6 m c (Proc.devRef .tc main_arg0) = m ((c : Thread nD τ).loc main_arg0) :=
  kept_of m c main_arg0 (by decide) (by decide) (by decide) (by decide) (by decide) (by decide)
theorem kept_arg1 (c : Dev nD) : W6 m c (Proc.devRef .tc main_arg1) = m ((c : Thread nD τ).loc main_arg1) :=
  kept_of m c main_arg1 (by decide) (by decide) (by decide) (by decide) (by decide) (by decide)
theorem kept_arg2 (c : Dev nD) : W6 m c (Proc.devRef .tc main_arg2) = m ((c : Thread nD τ).loc main_arg2) :=
  kept_of m c main_arg2 (by decide) (by decide) (by decide) (by decide) (by decide) (by decide)
theorem kept_arg3 (c : Dev nD) : W6 m c (Proc.devRef .tc main_arg3) = m ((c : Thread nD τ).loc main_arg3) :=
  kept_of m c main_arg3 (by decide) (by decide) (by decide) (by decide) (by decide) (by decide)
theorem kept_arg4 (c : Dev nD) : W6 m c (Proc.devRef .tc main_arg4) = m ((c : Thread nD τ).loc main_arg4) :=
  kept_of m c main_arg4 (by decide) (by decide) (by decide) (by decide) (by decide) (by decide)
theorem kept_arg5 (c : Dev nD) : W6 m c (Proc.devRef .tc main_arg5) = m ((c : Thread nD τ).loc main_arg5) :=
  kept_of m c main_arg5 (by decide) (by decide) (by decide) (by decide) (by decide) (by decide)
theorem kept_arg6 (c : Dev nD) : W6 m c (Proc.devRef .tc main_arg6) = m ((c : Thread nD τ).loc main_arg6) :=
  kept_of m c main_arg6 (by decide) (by decide) (by decide) (by decide) (by decide) (by decide)
theorem kept_arg7 (c : Dev nD) : W6 m c (Proc.devRef .tc main_arg7) = m ((c : Thread nD τ).loc main_arg7) :=
  kept_of_input0 m c 1 rfl (by decide) (by decide) (by decide) (by decide) (by decide)
theorem kept_arg8 (c : Dev nD) : W6 m c (Proc.devRef .tc main_arg8) = m ((c : Thread nD τ).loc main_arg8) :=
  kept_of_input0 m c 2 rfl (by decide) (by decide) (by decide) (by decide) (by decide)
theorem kept_arg9 (c : Dev nD) : W6 m c (Proc.devRef .tc main_arg9) = m ((c : Thread nD τ).loc main_arg9) :=
  kept_of m c main_arg9 (by decide) (by decide) (by decide) (by decide) (by decide) (by decide)
theorem kept_arg10 (c : Dev nD) : W6 m c (Proc.devRef .tc main_arg10) = m ((c : Thread nD τ).loc main_arg10) :=
  kept_of m c main_arg10 (by decide) (by decide) (by decide) (by decide) (by decide) (by decide)

/-! ## The frame -/

/-- From any memory with zero counters every weakly fair execution of @main terminates, nothing faulting, and every
    final state has the eleven argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (kept_arg0 m c),
      (h c _ (mem_uc main_arg1 (by decide))).trans (kept_arg1 m c),
      (h c _ (mem_uc main_arg2 (by decide))).trans (kept_arg2 m c),
      (h c _ (mem_uc main_arg3 (by decide))).trans (kept_arg3 m c),
      (h c _ (mem_uc main_arg4 (by decide))).trans (kept_arg4 m c),
      (h c _ (mem_uc main_arg5 (by decide))).trans (kept_arg5 m c),
      (h c _ (mem_uc main_arg6 (by decide))).trans (kept_arg6 m c),
      (h c _ (mem_uc main_arg7 (by decide))).trans (kept_arg7 m c),
      (h c _ (mem_uc main_arg8 (by decide))).trans (kept_arg8 m c),
      (h c _ (mem_uc main_arg9 (by decide))).trans (kept_arg9 m c),
      (h c _ (mem_uc main_arg10 (by decide))).trans (kept_arg10 m c)⟩)
    (run_all m ρ)

end Cert.KernelIdeal.Kept

end
-- ==== Proof.KernelIdealStages.lean ====
/-
  The host side of the kernel's program, stage by stage, as functions of the argument arrays.

  table, wrapped, aggregateOf, aggregate k   the node table and each relation's aggregated features: every nonzero
                  (row, column, value) adds value · table[column] into row 'row' of a zero matrix.
  stacked         the five aggregated matrices stacked along a new leading axis (what the first kernel reads).
  affineSlabs, biasRow   the affine matrix as five 64×64 slabs, the bias vector as a row (what the first kernel reads).
  wrappedBatch, shifted, rowsAt   the rows of the logits a batch of (wrapped) node numbers picks (what the second kernel reads).
  scoreVector     the second kernel's column of scores as a vector.
-/
import proofs.«118015_j56899726737489_1_alg».proof.KernelIdeal
import proofs.«118015_j56899726737489_1_alg».proof.Proof.Gen.KernelIdeal

noncomputable section

namespace Cert.KernelIdeal.Stages

open Idealize.ShloMosaic Cert.KernelIdeal Cert.KernelIdeal.Facts₀ Cert.KernelIdeal.Facts

variable {F : FTy → Type} [FloatOps F]

/-- The node table: the users' rows followed by the items' rows. -/
def table (a5 : FVec F S100000x64 .f32) (a6 : FVec F S50000x64 .f32) : FVec F S150000x64 .f32 :=
  concatenate S150000x64 0 [⟨S100000x64, a5⟩, ⟨S50000x64, a6⟩] concatenates_S100000x64_S50000x64_S150000x64_d0

/-- An index word below zero counts from the table's end. -/
def wrapped (x : IVec S2000000 32) : IVec S2000000 32 :=
  select (cmpi .slt x (broadcastInDim S2000000 ![] bcast_S_S2000000 (constantI S_ 32 0#32)))
    (addi x (broadcastInDim S2000000 ![] bcast_S_S2000000 (constantI S_ 32 150000#32))) x

/-- One relation's aggregated features from its row of column numbers, of values and of row numbers. -/
def aggregateOf (T : FVec F S150000x64 .f32) (cols : IVec S1x2000000 32) (vals : FVec F S1x2000000 .f32)
    (rows : IVec S1x2000000 32) : FVec F S150000x64 .f32 :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 (shapeCast S2000000 rows shapeCasts_S1x2000000_S2000000))
    (mulf
      (Host.gather gather_S150000x64_S2000000x1_S2000000x64_1_0_n_n_0_1_164 T
        (broadcastInDim S2000000x1 ![0] bcast_S2000000_S2000000x1_0
          (wrapped (shapeCast S2000000 cols shapeCasts_S1x2000000_S2000000))))
      (broadcastInDim S2000000x64 ![0, 1] bcast_S2000000x1_S2000000x64_0_1
        (broadcastInDim S2000000x1 ![0] bcast_S2000000_S2000000x1_0
          (shapeCast S2000000 vals shapeCasts_S1x2000000_S2000000))))

/-- Relation 0 … 4's aggregated features. -/
def aggregate0 (a2 a3 : IVec S5x2000000 32) (a4 : FVec F S5x2000000 .f32) (T : FVec F S150000x64 .f32) : FVec F S150000x64 .f32 :=
  aggregateOf T (extractStridedSlice S1x2000000 ![0, 0] a3 slices_S5x2000000_S1x2000000_0_0)
    (extractStridedSlice S1x2000000 ![0, 0] a4 slices_S5x2000000_S1x2000000_0_0)
    (extractStridedSlice S1x2000000 ![0, 0] a2 slices_S5x2000000_S1x2000000_0_0)
def aggregate1 (a2 a3 : IVec S5x2000000 32) (a4 : FVec F S5x2000000 .f32) (T : FVec F S150000x64 .f32) : FVec F S150000x64 .f32 :=
  aggregateOf T (extractStridedSlice S1x2000000 ![1, 0] a3 slices_S5x2000000_S1x2000000_1_0)
    (extractStridedSlice S1x2000000 ![1, 0] a4 slices_S5x2000000_S1x2000000_1_0)
    (extractStridedSlice S1x2000000 ![1, 0] a2 slices_S5x2000000_S1x2000000_1_0)
def aggregate2 (a2 a3 : IVec S5x2000000 32) (a4 : FVec F S5x2000000 .f32) (T : FVec F S150000x64 .f32) : FVec F S150000x64 .f32 :=
  aggregateOf T (extractStridedSlice S1x2000000 ![2, 0] a3 slices_S5x2000000_S1x2000000_2_0)
    (extractStridedSlice S1x2000000 ![2, 0] a4 slices_S5x2000000_S1x2000000_2_0)
    (extractStridedSlice S1x2000000 ![2, 0] a2 slices_S5x2000000_S1x2000000_2_0)
def aggregate3 (a2 a3 : IVec S5x2000000 32) (a4 : FVec F S5x2000000 .f32) (T : FVec F S150000x64 .f32) : FVec F S150000x64 .f32 :=
  aggregateOf T (extractStridedSlice S1x2000000 ![3, 0] a3 slices_S5x2000000_S1x2000000_3_0)
    (extractStridedSlice S1x2000000 ![3, 0] a4 slices_S5x2000000_S1x2000000_3_0)
    (extractStridedSlice S1x2000000 ![3, 0] a2 slices_S5x2000000_S1x2000000_3_0)
def aggregate4 (a2 a3 : IVec S5x2000000 32) (a4 : FVec F S5x2000000 .f32) (T : FVec F S150000x64 .f32) : FVec F S150000x64 .f32 :=
  aggregateOf T (extractStridedSlice S1x2000000 ![4, 0] a3 slices_S5x2000000_S1x2000000_4_0)
    (extractStridedSlice S1x2000000 ![4, 0] a4 slices_S5x2000000_S1x2000000_4_0)
    (extractStridedSlice S1x2000000 ![4, 0] a2 slices_S5x2000000_S1x2000000_4_0)

/-- A batch of node numbers, wrapped, as a column of index words. -/
def wrappedBatch (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 150000#32))) x)

/-- The item numbers shifted past the users. -/
def shifted (a1 : IVec S16384 32) : IVec S16384 32 :=
  addi (broadcastInDim S16384 ![] bcast_S_S16384 (constantI S_ 32 100000#32)) a1

/-- The rows of a node matrix that a column of index words picks. -/
def rowsAt (L : FVec F S150000x64 .f32) (ix : IVec S16384x1 32) : FVec F S16384x64 .f32 :=
  Host.gather gather_S150000x64_S16384x1_S16384x64_1_0_n_n_0_1_164 L ix

/-- The five relations' aggregated features stacked along a new leading axis. -/
def stacked (g0 g1 g2 g3 g4 : FVec F S150000x64 .f32) : FVec F S5x150000x64 .f32 :=
  concatenate S5x150000x64 0
    [⟨S1x150000x64, broadcastInDim S1x150000x64 ![1, 2] bcast_S150000x64_S1x150000x64_1_2 g0⟩,
     ⟨S1x150000x64, broadcastInDim S1x150000x64 ![1, 2] bcast_S150000x64_S1x150000x64_1_2 g1⟩,
     ⟨S1x150000x64, broadcastInDim S1x150000x64 ![1, 2] bcast_S150000x64_S1x150000x64_1_2 g2⟩,
     ⟨S1x150000x64, broadcastInDim S1x150000x64 ![1, 2] bcast_S150000x64_S1x150000x64_1_2 g3⟩,
     ⟨S1x150000x64, broadcastInDim S1x150000x64 ![1, 2] bcast_S150000x64_S1x150000x64_1_2 g4⟩]
    concatenates_S1x150000x64_S1x150000x64_S1x150000x64_S1x150000x64_S1x150000x64_S5x150000x64_d0

/-- The 320×64 affine matrix as five 64×64 slabs. -/
def affineSlabs (a9 : FVec F S320x64 .f32) : FVec F S5x64x64 .f32 := shapeCast S5x64x64 a9 shapeCasts_S320x64_S5x64x64

/-- The bias vector as a row. -/
def biasRow (a10 : FVec F S64 .f32) : FVec F S1x64 .f32 := shapeCast S1x64 a10 shapeCasts_S64_S1x64

/-- The column of pair scores as a vector. -/
def scoreVector (y : FVec F S16384x1 .f32) : FVec F S16384 .f32 := shapeCast S16384 y shapeCasts_S16384x1_S16384

end Cert.KernelIdeal.Stages

end
-- ==== Proof.KernelIdealHost.lean ====
/-
  What the buffers the first kernel reads hold when it is entered, as functions of the launch contents.

  The host operations before the first kernel build, in order: the node table (the users' rows followed by the
  items' rows); for each of the five relations its aggregated features (every nonzero (row, column, value) adds
  value · table[column] into row 'row' of a zero matrix); the five aggregated matrices, each given a leading unit
  axis, stacked along that axis; the affine matrix regrouped in five slabs; the bias vector as a row. No operation
  writes an argument, so the two dense-layer arguments are as launched.

  Each buffer's contents are read off the operations one by one: an operation's own result buffer holds its
  function of its operands' contents, every other buffer what it held. The stack is read in two steps: the
  stacking operation's result is the stack of its five operands' contents, and each operand is one relation's
  aggregated features with the unit axis.
-/
import proofs.«118015_j56899726737489_1_alg».proof.Proof.KernelIdealRun
import proofs.«118015_j56899726737489_1_alg».proof.Proof.KernelIdealStages
import Idealize.ShloMosaic.Lib.StableHlo.Run
import Idealize.ShloMosaic.PureOps.Ideal

set_option maxRecDepth 16384

noncomputable section

namespace Cert.KernelIdeal.HostValues

open Cert.KernelIdeal Cert.KernelIdeal.Facts₀ Cert.KernelIdeal.Facts
open Idealize.ShloMosaic Idealize.ShloMosaic.TcCoe Idealize.ShloMosaic.StableHlo

variable (m : (ℓ : Loc nD τ sig) → Buf (Elt Ideal) ℓ) (c : Dev nD)

/-! ## The affine matrix in slabs, the bias as a row, the two dense-layer arguments -/

/-- The affine matrix regrouped in five slabs. -/
theorem affineSlabs_eq :
    (Run.W2 m c (Proc.devRef .tc main_v102) : FVec Ideal S5x64x64 .f32)
      = Stages.affineSlabs (F := Ideal) (Run.W0 m c (Proc.devRef .tc main_arg9)) := by
  dsimp only [Run.W2, Run.W1, Gen.main_part1_ops0, Gen.main_part0_ops0]
  after_results_simp
  rfl

/-- The bias vector as a row. -/
theorem biasRow_eq :
    (Run.W2 m c (Proc.devRef .tc main_v103) : FVec Ideal S1x64 .f32)
      = Stages.biasRow (F := Ideal) (Run.W0 m c (Proc.devRef .tc main_arg10)) := by
  dsimp only [Run.W2, Run.W1, Gen.main_part1_ops0, Gen.main_part0_ops0]
  after_results_simp
  rfl

/-- No operation writes the dense layer's weights. -/
theorem arg7_eq : Run.W2 m c (Proc.devRef .tc main_arg7) = Run.W0 m c (Proc.devRef .tc main_arg7) := by
  dsimp only [Run.W2, Run.W1, Gen.main_part1_ops0, Gen.main_part0_ops0]
  after_results_simp

/-- No operation writes the dense layer's biases. -/
theorem arg8_eq : Run.W2 m c (Proc.devRef .tc main_arg8) = Run.W0 m c (Proc.devRef .tc main_arg8) := by
  dsimp only [Run.W2, Run.W1, Gen.main_part1_ops0, Gen.main_part0_ops0]
  after_results_simp

/-! ## The stack of the five relations' aggregated features -/

/-- The five-operand stacking operation's result, with each operand's contents at its own reference. -/
theorem stack_result {Val : EltTy → Type} (V : Valuation τ sig Val) (h : Shape.Concatenates [S1x150000x64, S1x150000x64, S1x150000x64, S1x150000x64, S1x150000x64] S5x150000x64 0) (hxs hy) :
    (StableHlo.nary (τ := τ) (Val := Val) ![main_v96, main_v97, main_v98, main_v99, main_v100] main_v101
        (fun u => concatenate S5x150000x64 0
          [⟨S1x150000x64, u 0⟩, ⟨S1x150000x64, u 1⟩, ⟨S1x150000x64, u 2⟩, ⟨S1x150000x64, u 3⟩, ⟨S1x150000x64, u 4⟩] h) hxs hy).result V
        (no_index (Proc.devRef .tc main_v101))
      = concatenate S5x150000x64 0
          [⟨S1x150000x64, V (Proc.devRef .tc main_v96)⟩, ⟨S1x150000x64, V (Proc.devRef .tc main_v97)⟩,
           ⟨S1x150000x64, V (Proc.devRef .tc main_v98)⟩, ⟨S1x150000x64, V (Proc.devRef .tc main_v99)⟩,
           ⟨S1x150000x64, V (Proc.devRef .tc main_v100)⟩] h :=
  (StableHlo.nary_result _ _ _ hxs hy V).trans rfl

/-- Stacks of equal pieces are equal. -/
theorem stack_congr {α : Type} {x0 x1 x2 x3 x4 y0 y1 y2 y3 y4 : S1x150000x64.Idx → α} (h : Shape.Concatenates [S1x150000x64, S1x150000x64, S1x150000x64, S1x150000x64, S1x150000x64] S5x150000x64 0)
    (e0 : x0 = y0) (e1 : x1 = y1) (e2 : x2 = y2) (e3 : x3 = y3) (e4 : x4 = y4) :
    concatenate S5x150000x64 0 [⟨S1x150000x64, x0⟩, ⟨S1x150000x64, x1⟩, ⟨S1x150000x64, x2⟩, ⟨S1x150000x64, x3⟩, ⟨S1x150000x64, x4⟩] h
      = concatenate S5x150000x64 0 [⟨S1x150000x64, y0⟩, ⟨S1x150000x64, y1⟩, ⟨S1x150000x64, y2⟩, ⟨S1x150000x64, y3⟩, ⟨S1x150000x64, y4⟩] h := by
  subst e0 e1 e2 e3 e4; rfl

/-- Relation 0's aggregated features, with a leading unit axis. -/
theorem piece0 :
    (Run.W2 m c (Proc.devRef .tc main_v96) : FVec Ideal S1x150000x64 .f32)
      = broadcastInDim S1x150000x64 ![1, 2] bcast_S150000x64_S1x150000x64_1_2
          (Stages.aggregate0 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  dsimp only [Run.W2, Run.W1, Gen.main_part1_ops0, Gen.main_part0_ops0]
  after_results_simp
  unfold Stages.aggregate0 Stages.aggregateOf Stages.wrapped Stages.table
  rfl

/-- Relation 1's aggregated features, with a leading unit axis. -/
theorem piece1 :
    (Run.W2 m c (Proc.devRef .tc main_v97) : FVec Ideal S1x150000x64 .f32)
      = broadcastInDim S1x150000x64 ![1, 2] bcast_S150000x64_S1x150000x64_1_2
          (Stages.aggregate1 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  dsimp only [Run.W2, Run.W1, Gen.main_part1_ops0, Gen.main_part0_ops0]
  after_results_simp
  unfold Stages.aggregate1 Stages.aggregateOf Stages.wrapped Stages.table
  rfl

/-- Relation 2's aggregated features, with a leading unit axis. -/
theorem piece2 :
    (Run.W2 m c (Proc.devRef .tc main_v98) : FVec Ideal S1x150000x64 .f32)
      = broadcastInDim S1x150000x64 ![1, 2] bcast_S150000x64_S1x150000x64_1_2
          (Stages.aggregate2 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  dsimp only [Run.W2, Run.W1, Gen.main_part1_ops0, Gen.main_part0_ops0]
  after_results_simp
  unfold Stages.aggregate2 Stages.aggregateOf Stages.wrapped Stages.table
  rfl

/-- Relation 3's aggregated features, with a leading unit axis. -/
theorem piece3 :
    (Run.W2 m c (Proc.devRef .tc main_v99) : FVec Ideal S1x150000x64 .f32)
      = broadcastInDim S1x150000x64 ![1, 2] bcast_S150000x64_S1x150000x64_1_2
          (Stages.aggregate3 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  dsimp only [Run.W2, Run.W1, Gen.main_part1_ops0, Gen.main_part0_ops0]
  after_results_simp
  unfold Stages.aggregate3 Stages.aggregateOf Stages.wrapped Stages.table
  rfl

/-- Relation 4's aggregated features, with a leading unit axis. -/
theorem piece4 :
    (Run.W2 m c (Proc.devRef .tc main_v100) : FVec Ideal S1x150000x64 .f32)
      = broadcastInDim S1x150000x64 ![1, 2] bcast_S150000x64_S1x150000x64_1_2
          (Stages.aggregate4 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  dsimp only [Run.W2, Run.W1, Gen.main_part1_ops0, Gen.main_part0_ops0]
  after_results_simp
  unfold Stages.aggregate4 Stages.aggregateOf Stages.wrapped Stages.table
  rfl

/-- The first kernel's first array: the stack of the five relations' aggregated features. -/
theorem stacked_eq :
    (Run.W2 m c (Proc.devRef .tc main_v101) : FVec Ideal S5x150000x64 .f32)
      = Stages.stacked (F := Ideal)
          (Stages.aggregate0 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6))))
          (Stages.aggregate1 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6))))
          (Stages.aggregate2 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6))))
          (Stages.aggregate3 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6))))
          (Stages.aggregate4 (F := Ideal) (Run.W0 m c (Proc.devRef .tc main_arg2)) (Run.W0 m c (Proc.devRef .tc main_arg3)) (Run.W0 m c (Proc.devRef .tc main_arg4))
            (Stages.table (F := Ideal) (Run.W0 m c (Proc.devRef .tc main_arg5)) (Run.W0 m c (Proc.devRef .tc main_arg6)))) := by
  unfold Stages.stacked
  refine Eq.trans ?_ (stack_congr _ (piece0 m c) (piece1 m c) (piece2 m c) (piece3 m c) (piece4 m c))
  dsimp only [Run.W2, Run.W1, Gen.main_part1_ops0, Gen.main_part0_ops0]
  conv_lhs => simp (disch := decide) only [after_cons, after_nil, reshape_result_ne', stack_result]
  refine stack_congr _ ?_ ?_ ?_ ?_ ?_ <;>
    simp (disch := decide) only [after_cons, after_nil, reshape_result_ne', nary_result_ne']

end Cert.KernelIdeal.HostValues

end
-- ==== Proof.KernelIdealHostTail.lean ====
/-
  The kernel program's last host operations, read back.

  Between the first kernel and the second, 21 host operations pick two batches of rows of the logits: the user
  numbers, and the item numbers shifted past the users, each wrapped (a number below zero counts from the end),
  made a column of index words, and gathered. After the second kernel one reshape turns its column of scores
  into a vector. Reading the fold of these operations back gives the stage functions of those names; the two
  index arguments are written by no earlier operation and are no array of the first kernel, so they still hold
  their launch contents when the 21 operations read them.
-/
import proofs.«118015_j56899726737489_1_alg».proof.Proof.KernelIdealRun
import proofs.«118015_j56899726737489_1_alg».proof.Proof.KernelIdealStages
import proofs.«118015_j56899726737489_1_alg».proof.Proof.KernelIdealKept
import Idealize.ShloMosaic.PureOps.Ideal

noncomputable section

namespace Cert.KernelIdeal.HostTail

open Cert.KernelIdeal Cert.KernelIdeal.Gen
open Idealize.ShloMosaic Idealize.ShloMosaic.TcCoe Idealize.SL.Sem Idealize.ShloMosaic.StableHlo

variable {F : FTy → Type} [FloatOps F]

/-- From any contents: the rows of the logits buffer that the wrapped user numbers pick. -/
theorem picked_users (V : Valuation τ sig (Elt F)) :
    after main_part2_ops0 V (Proc.devRef .tc main_v111)
      = Stages.rowsAt (V (Proc.devRef .tc main_v104)) (Stages.wrappedBatch (V (Proc.devRef .tc main_arg0))) := by
  simp only [main_part2_ops0]
  after_results_simp
  all_goals rfl

/-- From any contents: the rows of the logits buffer that the wrapped, shifted item numbers pick. -/
theorem picked_items (V : Valuation τ sig (Elt F)) :
    after main_part2_ops0 V (Proc.devRef .tc main_v120)
      = Stages.rowsAt (V (Proc.devRef .tc main_v104)) (Stages.wrappedBatch (Stages.shifted (V (Proc.devRef .tc main_arg1)))) := by
  simp only [main_part2_ops0]
  after_results_simp
  all_goals rfl

/-- From any contents: the column of scores as a vector. -/
theorem score_vector (V : Valuation τ sig (Elt F)) :
    after main_part2_ops1 V (Proc.devRef .tc main_v122) = Stages.scoreVector (V (Proc.devRef .tc main_v121)) := by
  simp only [main_part2_ops1]
  after_results_simp
  all_goals rfl

variable (m : (ℓ : Loc nD τ sig) → Buf (Elt F) ℓ)

/-- The user numbers still hold their launch contents after the first kernel. -/
theorem W3_arg0 (c : Dev nD) : Run.W3 m c (Proc.devRef .tc main_arg0) = m ((c : Thread nD τ).loc main_arg0) :=
  calc Run.W3 m c (Proc.devRef .tc main_arg0)
    _ = Run.W2 m c (Proc.devRef .tc main_arg0) := Run.W3_of_ne m c main_arg0 (by decide)
    _ = Run.W1 m c (Proc.devRef .tc main_arg0) := after_of_writes_sub main_part1_ops0 _ Kept.writes1 (by decide)
    _ = Run.W0 m c (Proc.devRef .tc main_arg0) := after_of_writes_sub main_part0_ops0 _ Kept.writes0 (by decide)
    _ = m ((c : Thread nD τ).loc main_arg0) := rfl

/-- The item numbers still hold their launch contents after the first kernel. -/
theorem W3_arg1 (c : Dev nD) : Run.W3 m c (Proc.devRef .tc main_arg1) = m ((c : Thread nD τ).loc main_arg1) :=
  calc Run.W3 m c (Proc.devRef .tc main_arg1)
    _ = Run.W2 m c (Proc.devRef .tc main_arg1) := Run.W3_of_ne m c main_arg1 (by decide)
    _ = Run.W1 m c (Proc.devRef .tc main_arg1) := after_of_writes_sub main_part1_ops0 _ Kept.writes1 (by decide)
    _ = Run.W0 m c (Proc.devRef .tc main_arg1) := after_of_writes_sub main_part0_ops0 _ Kept.writes0 (by decide)
    _ = m ((c : Thread nD τ).loc main_arg1) := rfl

end Cert.KernelIdeal.HostTail

namespace Cert.KernelIdeal.HostTail

open Cert.KernelIdeal Cert.KernelIdeal.Gen
open Idealize.ShloMosaic Idealize.ShloMosaic.TcCoe Idealize.SL.Sem Idealize.ShloMosaic.StableHlo

/-- Entering the second kernel, the first batch of picked rows: the logits' rows at the wrapped user numbers. -/
theorem W4_main_v111 (m : (ℓ : Loc nD τ sig) → Buf (Elt Ideal) ℓ) (c : Dev nD) :
    Run.W4 m c (Proc.devRef .tc main_v111)
      = Stages.rowsAt (F := Ideal) (Run.W3 m c (Proc.devRef .tc main_v104)) (Stages.wrappedBatch (m ((c : Thread nD τ).loc main_arg0))) :=
  (picked_users (Run.W3 m c)).trans (by rw [W3_arg0])

/-- Entering the second kernel, the second batch of picked rows: the logits' rows at the wrapped, shifted item numbers. -/
theorem W4_main_v120 (m : (ℓ : Loc nD τ sig) → Buf (Elt Ideal) ℓ) (c : Dev nD) :
    Run.W4 m c (Proc.devRef .tc main_v120)
      = Stages.rowsAt (F := Ideal) (Run.W3 m c (Proc.devRef .tc main_v104)) (Stages.wrappedBatch (Stages.shifted (m ((c : Thread nD τ).loc main_arg1)))) :=
  (picked_items (Run.W3 m c)).trans (by rw [W3_arg1])

/-- At the end of the run the result buffer holds the second kernel's column of scores as a vector. -/
theorem W6_main_v122 (m : (ℓ : Loc nD τ sig) → Buf (Elt Ideal) ℓ) (c : Dev nD) :
    Run.W6 m c (Proc.devRef .tc main_v122) = Stages.scoreVector (F := Ideal) (Run.W5 m c (Proc.devRef .tc main_v121)) :=
  score_vector (Run.W5 m c)

end Cert.KernelIdeal.HostTail

end
-- ==== Proof.Spec.lean ====
/-
  The mathematics both programs compute for ONE node (one row of the node table), on the extended reals.

  For a node, relation k has an aggregated feature row a k (64 numbers). Its hidden row is
      h k l = (∑ j, a k j * W k j l) + b k l,
  passed through the leaky rectifier  x ↦ x if x ≥ 0 else 0.2 · x  (the slope and the zero kept as the
  programs' own f32 words), and the node's output row is an affine map of the five rectified hidden rows:

  * one program adds the five relations' contributions one after the other onto a zero row and then adds the
    bias (rowAccumulated);
  * the other lays the five rectified rows side by side as one row of 320 numbers, multiplies by the 320×64
    matrix in one sum, and adds the bias (rowConcatenated).

  The two agree when the 320×64 matrix is read in five 64×64 slabs: a sum over 320 = 5·64 terms is the sum of
  five sums of 64 terms, and addition on the extended reals is commutative and associative (no finiteness is
  needed: no product is distributed, nothing is cancelled).
-/
import Mathlib
import Idealize.ShloMosaic.PureOps.Ideal
import Idealize.ShloMosaic.Lib.ValueIdx

noncomputable section

namespace Cert.Spec

open Idealize.ShloMosaic

/-- The f32 word of zero, as an extended real. -/
def zeroW : EReal := Ideal.ofBits .f32 0x00000000#32
/-- The f32 word nearest 0.2, as an extended real (the rectifier's slope, the same word in both programs). -/
def slopeW : EReal := Ideal.ofBits .f32 0x3E4CCCCD#32

/-- The leaky rectifier as both programs spell it: compare with the zero word, keep x or take slope · x. -/
def leaky (x : EReal) : EReal := Scalar.select (Ideal.cmp .oge x zeroW) x (slopeW * x)

/-- Relation k's hidden row of one node, before the rectifier. -/
def hidden (a : Fin 5 → Fin 64 → EReal) (W : Fin 5 → Fin 64 → Fin 64 → EReal) (b : Fin 5 → Fin 64 → EReal)
    (k : Fin 5) (l : Fin 64) : EReal :=
  (∑ j : Fin 64, a k j * W k j l) + b k l

/-- Relation k's contribution to output column d: the rectified hidden row against slab k of the affine matrix. -/
def contribution (a : Fin 5 → Fin 64 → EReal) (W : Fin 5 → Fin 64 → Fin 64 → EReal) (b : Fin 5 → Fin 64 → EReal)
    (A3 : Fin 5 → Fin 64 → Fin 64 → EReal) (k : Fin 5) (d : Fin 64) : EReal :=
  ∑ l : Fin 64, leaky (hidden a W b k l) * A3 k l d

/-- The node's output row with the five contributions added one after the other onto the zero word, then the bias. -/
def rowAccumulated (a : Fin 5 → Fin 64 → EReal) (W : Fin 5 → Fin 64 → Fin 64 → EReal) (b : Fin 5 → Fin 64 → EReal)
    (A3 : Fin 5 → Fin 64 → Fin 64 → EReal) (c : Fin 64 → EReal) (d : Fin 64) : EReal :=
  (((((zeroW + contribution a W b A3 0 d) + contribution a W b A3 1 d) + contribution a W b A3 2 d)
    + contribution a W b A3 3 d) + contribution a W b A3 4 d) + c d

/-- Column j of the five hidden rows laid side by side (j = 64·k + l). -/
def hiddenSideBySide (a : Fin 5 → Fin 64 → EReal) (W : Fin 5 → Fin 64 → Fin 64 → EReal) (b : Fin 5 → Fin 64 → EReal)
    (j : Fin 320) : EReal :=
  hidden a W b ⟨j.val / 64, by omega⟩ ⟨j.val % 64, Nat.mod_lt _ (by decide)⟩

/-- The node's output row as one sum over the 320 side-by-side columns, then the bias. -/
def rowConcatenated (a : Fin 5 → Fin 64 → EReal) (W : Fin 5 → Fin 64 → Fin 64 → EReal) (b : Fin 5 → Fin 64 → EReal)
    (A : Fin 320 → Fin 64 → EReal) (c : Fin 64 → EReal) (d : Fin 64) : EReal :=
  (∑ j : Fin 320, leaky (hiddenSideBySide a W b j) * A j d) + c d

end Cert.Spec

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.DenseRow.lean ====
/-
  What the dense kernel's body stores, read at one element, on the extended reals.

  The body reads, for each of the five relations k, a [1,6000,64] slab of aggregated features, a [1,64,64] slab of
  relation weights, a [1,1,64] slab of relation biases and a [1,64,64] slab of the affine matrix, and once the [1,64]
  output bias.  For each relation it forms the hidden rows  h = features · weights + bias  (a matrix product into a
  zero accumulator, the bias row broadcast over the 6000 rows), passes them through the leaky rectifier, multiplies by
  the affine slab, and adds the five products one after the other onto a zero row; last it adds the output bias.

  On the extended reals a format change is the identity and a matrix product into the zero accumulator is the plain
  sum over the contracted axis, so at row r and column d the stored value is exactly Spec.rowAccumulated of the
  slabs' entries: the two repeated patterns (hidden rows, one relation's contribution) are read at an entry once each,
  and the eight payloads are those patterns composed, by unfolding.

  Second part: a load of slab k of a staged block [5, …] through the unit-stride rectangle at offsets (k, 0, 0) reads,
  at (0, r, j), the block at (k, r, j).
-/
import proofs.«118015_j56899726737489_1_alg».proof.Proof.Gen.KernelIdeal.Skeleton
import proofs.«118015_j56899726737489_1_alg».proof.Proof.Spec
import proofs.«118015_j56899726737489_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DenseRow

open Cert.KernelIdeal Cert.KernelIdeal.Gen Idealize.ShloMosaic Idealize.ShloMosaic.ValueIdx

/-! ## The two repeated patterns -/

/-- A 6000×64 by 64×64 product into the zero accumulator, at (r, d): the sum over the shared axis. -/
theorem matmul_entry (A : FVec Ideal S6000x64 .bf16) (B : FVec Ideal S64x64 .bf16) (r : Fin 6000) (d : Fin 64) :
    matmul dot_S6000x64_S64x64_S6000x64_1_0_0_1_n_n none A B (constant (F := Ideal) S6000x64 .f32 0x00000000#32) (ix2 r d)
      = ∑ l : Fin 64, A (ix2 r l) * B (ix2 l d) :=
  PlainMatmul.apply_zero (M := 6000) (K := 64) (N := 64) A B r d

/-- One relation's hidden rows: features · weights into the zero accumulator, plus the bias row over every row. -/
def hid (v : Vec Ideal S1x6000x64 .f32) (w : Vec Ideal S1x64x64 .f32) (b : Vec Ideal S1x1x64 .f32) :
    FVec Ideal S6000x64 .f32 :=
  addf
    (matmul dot_S6000x64_S64x64_S6000x64_1_0_0_1_n_n none
      (truncf .bf16 (shapeCast S6000x64 v shapeCasts_S1x6000x64_S6000x64) bitsLt_bf16_f32)
      (truncf .bf16 (shapeCast S64x64 w shapeCasts_S1x64x64_S64x64) bitsLt_bf16_f32)
      (constant (F := Ideal) S6000x64 .f32 0x00000000#32))
    (broadcastTo S6000x64 (shapeCast S1x64 b shapeCasts_S1x1x64_S1x64) broadcasts_S1x64_S6000x64)

/-- The hidden rows at (r, l): Σ_j features(r, j) · weights(j, l), plus bias(l). -/
theorem hid_apply (v : Vec Ideal S1x6000x64 .f32) (w : Vec Ideal S1x64x64 .f32) (b : Vec Ideal S1x1x64 .f32)
    (r : Fin 6000) (l : Fin 64) :
    hid v w b (ix2 r l) = (∑ j : Fin 64, v (ix3 0 r j) * w (ix3 0 j l)) + b (ix3 0 0 l) := by
  unfold hid
  refine congrArg₂ (· + ·) ((matmul_entry _ _ r l).trans (Finset.sum_congr rfl fun j _ => ?_)) ?_
  · exact congrArg₂ (· * ·) (shapeCast_1ab_ab_apply v _ r j) (shapeCast_1ab_ab_apply w _ j l)
  · exact (broadcastTo_1b_ab_apply _ _ r l).trans (shapeCast_1ab_ab_apply b _ 0 l)

/-- One relation's contribution: the rectified hidden rows times the relation's slab of the affine matrix, into the
    zero accumulator. -/
def contrib (h : FVec Ideal S6000x64 .f32) (u : Vec Ideal S1x64x64 .f32) : FVec Ideal S6000x64 .f32 :=
  matmul dot_S6000x64_S64x64_S6000x64_1_0_0_1_n_n none
    (truncf .bf16
      (select (cmpf .oge h (broadcast S6000x64 (Scalar.ofBits (F := Ideal) .f32 0x00000000#32))) h
        (mulf (broadcast S6000x64 (Scalar.ofBits (F := Ideal) .f32 0x3E4CCCCD#32)) h))
      bitsLt_bf16_f32)
    (truncf .bf16 (shapeCast S64x64 u shapeCasts_S1x64x64_S64x64) bitsLt_bf16_f32)
    (constant (F := Ideal) S6000x64 .f32 0x00000000#32)

/-- The contribution at (r, d): Σ_l leaky(h(r, l)) · slab(l, d). -/
theorem contrib_apply (h : FVec Ideal S6000x64 .f32) (u : Vec Ideal S1x64x64 .f32) (r : Fin 6000) (d : Fin 64) :
    contrib h u (ix2 r d) = ∑ l : Fin 64, Cert.Spec.leaky (h (ix2 r l)) * u (ix3 0 l d) := by
  unfold contrib
  refine (matmul_entry _ _ r d).trans (Finset.sum_congr rfl fun l _ => ?_)
  exact congrArg₂ (· * ·) rfl (shapeCast_1ab_ab_apply u _ l d)

/-! ## The payloads are the patterns composed -/

theorem pay7_eq (v : Vec Ideal S1x6000x64 .f32) (w : Vec Ideal S1x64x64 .f32) (b : Vec Ideal S1x1x64 .f32) :
    k0_pay7 (F := Ideal) v w b = hid v w b := rfl

theorem pay8_eq (v : Vec Ideal S1x6000x64 .f32) (w : Vec Ideal S1x64x64 .f32) (b : Vec Ideal S1x1x64 .f32) :
    k0_pay8 (F := Ideal) v w b
      = cmpf .oge (hid v w b) (broadcast S6000x64 (Scalar.ofBits (F := Ideal) .f32 0x00000000#32)) := rfl

theorem pay2_eq (v : Vec Ideal S1x6000x64 .f32) (w : Vec Ideal S1x64x64 .f32) (b : Vec Ideal S1x1x64 .f32)
    (u : Vec Ideal S1x64x64 .f32) :
    k0_pay2 (F := Ideal) v w b u
      = addf (broadcast S6000x64 (Scalar.ofBits (F := Ideal) .f32 0x00000000#32)) (contrib (hid v w b) u) := rfl

theorem pay5_eq (acc : FVec Ideal S6000x64 .f32) (v1 : Vec Ideal S1x6000x64 .f32) (w1 : Vec Ideal S1x64x64 .f32)
    (b1 : Vec Ideal S1x1x64 .f32) (u1 : Vec Ideal S1x64x64 .f32) (v2 : Vec Ideal S1x6000x64 .f32)
    (w2 : Vec Ideal S1x64x64 .f32) (b2 : Vec Ideal S1x1x64 .f32) (u2 : Vec Ideal S1x64x64 .f32) :
    k0_pay5 (F := Ideal) acc (k0_pay3 v1 w1) (k0_pay4 b1) u1 v2 w2 b2 u2
      = addf (addf acc (contrib (hid v1 w1 b1) u1)) (contrib (hid v2 w2 b2) u2) := rfl

theorem pay6_eq (acc : FVec Ideal S6000x64 .f32) (v : Vec Ideal S1x6000x64 .f32) (w : Vec Ideal S1x64x64 .f32)
    (b : Vec Ideal S1x1x64 .f32) (u : Vec Ideal S1x64x64 .f32) :
    k0_pay6 (F := Ideal) acc v w b u = addf acc (contrib (hid v w b) u) := rfl

theorem pay1_eq (acc : FVec Ideal S6000x64 .f32) (h : FVec Ideal S6000x64 .f32) (u : Vec Ideal S1x64x64 .f32)
    (c : Vec Ideal S1x64 .f32) :
    k0_pay1 (F := Ideal) acc h (cmpf .oge h (broadcast S6000x64 (Scalar.ofBits (F := Ideal) .f32 0x00000000#32)))
        (Scalar.ofBits .f32 0x3E4CCCCD#32) u c
      = addf (addf acc (contrib h u))
          (broadcastTo S6000x64 (shapeCast S1x64 c shapeCasts_S1x64_S1x64) broadcasts_S1x64_S6000x64) := rfl

/-! ## The stored value at one element -/

/-- One relation's contribution with the hidden rows read through: at (r, d) it is
    Σ_l leaky(Σ_j features(r, j) · weights(j, l) + bias(l)) · slab(l, d). -/
theorem contrib_hid_apply (v : Vec Ideal S1x6000x64 .f32) (w : Vec Ideal S1x64x64 .f32) (b : Vec Ideal S1x1x64 .f32)
    (u : Vec Ideal S1x64x64 .f32) (r : Fin 6000) (d : Fin 64) :
    contrib (hid v w b) u (ix2 r d)
      = ∑ l : Fin 64, Cert.Spec.leaky ((∑ j : Fin 64, v (ix3 0 r j) * w (ix3 0 j l)) + b (ix3 0 0 l)) * u (ix3 0 l d) :=
  (contrib_apply _ u r d).trans (Finset.sum_congr rfl fun l _ =>
    congrArg (fun x => Cert.Spec.leaky x * u (ix3 0 l d)) (hid_apply v w b r l))

/-- The output bias row over every row, at (r, d): the bias at d. -/
theorem bias_apply (c : Vec Ideal S1x64 .f32) (r : Fin 6000) (d : Fin 64) :
    broadcastTo S6000x64 (shapeCast S1x64 c shapeCasts_S1x64_S1x64) broadcasts_S1x64_S6000x64 (ix2 r d)
      = c (ix2 0 d) :=
  (broadcastTo_1b_ab_apply _ _ r d).trans (congrFun (shapeCast_self c _) _)

/-- THE STORED VALUE: what the body stores at row r, column d, is the accumulated row of the specification over the
    loaded slabs' entries. -/
theorem stored_apply (v0 v1 v2 v3 v4 : Vec Ideal S1x6000x64 .f32) (w0 w1 w2 w3 w4 : Vec Ideal S1x64x64 .f32)
    (b0 b1 b2 b3 b4 : Vec Ideal S1x1x64 .f32) (u0 u1 u2 u3 u4 : Vec Ideal S1x64x64 .f32) (c : Vec Ideal S1x64 .f32)
    (r : Fin 6000) (d : Fin 64) :
    k0_pay1 (F := Ideal)
        (k0_pay6 (k0_pay5 (k0_pay2 v0 w0 b0 u0) (k0_pay3 v1 w1) (k0_pay4 b1) u1 v2 w2 b2 u2) v3 w3 b3 u3)
        (k0_pay7 v4 w4 b4) (k0_pay8 v4 w4 b4) (Scalar.ofBits .f32 0x3E4CCCCD#32) u4 c (ValueIdx.ix2 r d)
      = Cert.Spec.rowAccumulated (fun k j => (![v0, v1, v2, v3, v4] k) (ValueIdx.ix3 0 r j))
          (fun k j l => (![w0, w1, w2, w3, w4] k) (ValueIdx.ix3 0 j l))
          (fun k l => (![b0, b1, b2, b3, b4] k) (ValueIdx.ix3 0 0 l))
          (fun k l d => (![u0, u1, u2, u3, u4] k) (ValueIdx.ix3 0 l d)) (fun d => c (ValueIdx.ix2 0 d)) d := by
  rw [pay7_eq, pay8_eq, pay1_eq, pay6_eq, pay5_eq, pay2_eq]
  show ((((((Scalar.ofBits (F := Ideal) .f32 0x00000000#32 + contrib (hid v0 w0 b0) u0 (ix2 r d))
      + contrib (hid v1 w1 b1) u1 (ix2 r d)) + contrib (hid v2 w2 b2) u2 (ix2 r d))
      + contrib (hid v3 w3 b3) u3 (ix2 r d)) + contrib (hid v4 w4 b4) u4 (ix2 r d))
      + broadcastTo S6000x64 (shapeCast S1x64 c shapeCasts_S1x64_S1x64) broadcasts_S1x64_S6000x64 (ix2 r d)) = _
  rw [contrib_hid_apply, contrib_hid_apply, contrib_hid_apply, contrib_hid_apply, contrib_hid_apply, bias_apply]
  rfl

/-! ## A slab load reads the staged block's slab -/

/-- Slab k of a staged [5, 6000, 64] block, loaded through the unit-stride rectangle at offsets (k, 0, 0), reads at
    (0, r, j) the block at (k, r, j); that k is below 5 is the rectangle's own in-bounds fact on the first axis. -/
theorem ld_features (k : Nat) (inb : ∀ a, (![k, 0, 0] : Fin 3 → Nat) a + S1x6000x64.size a ≤ S5x6000x64.size a)
    (x : Vec Ideal S5x6000x64 .f32) (r : Fin 6000) (j : Fin 64) :
    View.ld (Val := Elt Ideal) (e' := .f32) x (Rect.unit (s := S5x6000x64) ![k, 0, 0] S1x6000x64.size inb)
        (ix3 (0 : Fin 1) r j)
      = x (ix3 (⟨k, inb 0⟩ : Fin 5) r j) := by
  show x _ = x _
  refine congrArg x (funext fun a => Fin.ext ?_)
  match a with
  | ⟨0, _⟩ => show k + 1 * 0 = k; omega
  | ⟨1, _⟩ => show 0 + 1 * r.val = r.val; omega
  | ⟨2, _⟩ => show 0 + 1 * j.val = j.val; omega

/-- Slab k of a staged [5, 64, 64] block (the relation weights, the affine matrix) likewise. -/
theorem ld_square (k : Nat) (inb : ∀ a, (![k, 0, 0] : Fin 3 → Nat) a + S1x64x64.size a ≤ S5x64x64.size a)
    (x : Vec Ideal S5x64x64 .f32) (j : Fin 64) (l : Fin 64) :
    View.ld (Val := Elt Ideal) (e' := .f32) x (Rect.unit (s := S5x64x64) ![k, 0, 0] S1x64x64.size inb)
        (ix3 (0 : Fin 1) j l)
      = x (ix3 (⟨k, inb 0⟩ : Fin 5) j l) := by
  show x _ = x _
  refine congrArg x (funext fun a => Fin.ext ?_)
  match a with
  | ⟨0, _⟩ => show k + 1 * 0 = k; omega
  | ⟨1, _⟩ => show 0 + 1 * j.val = j.val; omega
  | ⟨2, _⟩ => show 0 + 1 * l.val = l.val; omega

/-- Slab k of the staged [5, 1, 64] block of relation biases likewise. -/
theorem ld_bias (k : Nat) (inb : ∀ a, (![k, 0, 0] : Fin 3 → Nat) a + S1x1x64.size a ≤ S5x1x64.size a)
    (x : Vec Ideal S5x1x64 .f32) (l : Fin 64) :
    View.ld (Val := Elt Ideal) (e' := .f32) x (Rect.unit (s := S5x1x64) ![k, 0, 0] S1x1x64.size inb)
        (ix3 (0 : Fin 1) (0 : Fin 1) l)
      = x (ix3 (⟨k, inb 0⟩ : Fin 5) (0 : Fin 1) l) := by
  show x _ = x _
  refine congrArg x (funext fun a => Fin.ext ?_)
  match a with
  | ⟨0, _⟩ => show k + 1 * 0 = k; omega
  | ⟨1, _⟩ => show 0 + 1 * 0 = 0; omega
  | ⟨2, _⟩ => show 0 + 1 * l.val = l.val; omega

/-- The whole-block load of the [1, 64] output bias reads the block. -/
theorem ld_outBias (x : Vec Ideal S1x64 .f32) :
    View.ld (Val := Elt Ideal) (e' := .f32) x (Rect.unit (s := S1x64) ![0, 0] S1x64.size inb_S1x64_S1x64_0_0) = x :=
  View.ld_unit_zero (funext fun a => by match a with | ⟨0, _⟩ => rfl | ⟨1, _⟩ => rfl) _ x

/-! ## The stored value over the staged blocks -/

/-- Slab k of the staged features block, as the body loads it. -/
abbrev slabF (k : Nat) (inb : ∀ a, (![k, 0, 0] : Fin 3 → Nat) a + S1x6000x64.size a ≤ S5x6000x64.size a)
    (x : Vec Ideal S5x6000x64 .f32) : Vec Ideal S1x6000x64 .f32 :=
  View.ld (Val := Elt Ideal) (e' := .f32) x (Rect.unit (s := S5x6000x64) ![k, 0, 0] S1x6000x64.size inb)
/-- Slab k of a staged [5, 64, 64] block, as the body loads it. -/
abbrev slabQ (k : Nat) (inb : ∀ a, (![k, 0, 0] : Fin 3 → Nat) a + S1x64x64.size a ≤ S5x64x64.size a)
    (x : Vec Ideal S5x64x64 .f32) : Vec Ideal S1x64x64 .f32 :=
  View.ld (Val := Elt Ideal) (e' := .f32) x (Rect.unit (s := S5x64x64) ![k, 0, 0] S1x64x64.size inb)
/-- Slab k of the staged relation-bias block, as the body loads it. -/
abbrev slabB (k : Nat) (inb : ∀ a, (![k, 0, 0] : Fin 3 → Nat) a + S1x1x64.size a ≤ S5x1x64.size a)
    (x : Vec Ideal S5x1x64 .f32) : Vec Ideal S1x1x64 .f32 :=
  View.ld (Val := Elt Ideal) (e' := .f32) x (Rect.unit (s := S5x1x64) ![k, 0, 0] S1x1x64.size inb)

/-- THE STORED VALUE OVER THE STAGED BLOCKS: with every slab the body's own load of the staged block (features x1,
    relation weights x2, relation biases x3, affine matrix x4, output bias x5), the value stored at row r, column d is
    the specification's accumulated row over the blocks' entries. -/
theorem stored_of_blocks (x1 : Vec Ideal S5x6000x64 .f32) (x2 : Vec Ideal S5x64x64 .f32) (x3 : Vec Ideal S5x1x64 .f32)
    (x4 : Vec Ideal S5x64x64 .f32) (x5 : Vec Ideal S1x64 .f32) (r : Fin 6000) (d : Fin 64) :
    k0_pay1 (F := Ideal)
        (k0_pay6
          (k0_pay5
            (k0_pay2 (slabF 0 inb_S5x6000x64_S1x6000x64_0_0_0 x1) (slabQ 0 inb_S5x64x64_S1x64x64_0_0_0 x2)
              (slabB 0 inb_S5x1x64_S1x1x64_0_0_0 x3) (slabQ 0 inb_S5x64x64_S1x64x64_0_0_0 x4))
            (k0_pay3 (slabF 1 inb_S5x6000x64_S1x6000x64_1_0_0 x1) (slabQ 1 inb_S5x64x64_S1x64x64_1_0_0 x2))
            (k0_pay4 (slabB 1 inb_S5x1x64_S1x1x64_1_0_0 x3)) (slabQ 1 inb_S5x64x64_S1x64x64_1_0_0 x4)
            (slabF 2 inb_S5x6000x64_S1x6000x64_2_0_0 x1) (slabQ 2 inb_S5x64x64_S1x64x64_2_0_0 x2)
            (slabB 2 inb_S5x1x64_S1x1x64_2_0_0 x3) (slabQ 2 inb_S5x64x64_S1x64x64_2_0_0 x4))
          (slabF 3 inb_S5x6000x64_S1x6000x64_3_0_0 x1) (slabQ 3 inb_S5x64x64_S1x64x64_3_0_0 x2)
          (slabB 3 inb_S5x1x64_S1x1x64_3_0_0 x3) (slabQ 3 inb_S5x64x64_S1x64x64_3_0_0 x4))
        (k0_pay7 (slabF 4 inb_S5x6000x64_S1x6000x64_4_0_0 x1) (slabQ 4 inb_S5x64x64_S1x64x64_4_0_0 x2)
          (slabB 4 inb_S5x1x64_S1x1x64_4_0_0 x3))
        (k0_pay8 (slabF 4 inb_S5x6000x64_S1x6000x64_4_0_0 x1) (slabQ 4 inb_S5x64x64_S1x64x64_4_0_0 x2)
          (slabB 4 inb_S5x1x64_S1x1x64_4_0_0 x3))
        (Scalar.ofBits .f32 0x3E4CCCCD#32) (slabQ 4 inb_S5x64x64_S1x64x64_4_0_0 x4)
        (View.ld (Val := Elt Ideal) (e' := .f32) x5 (Rect.unit (s := S1x64) ![0, 0] S1x64.size inb_S1x64_S1x64_0_0))
        (ix2 r d)
      = Cert.Spec.rowAccumulated (fun k j => x1 (ix3 k r j)) (fun k j l => x2 (ix3 k j l))
          (fun k l => x3 (ix3 k (0 : Fin 1) l)) (fun k l d => x4 (ix3 k l d)) (fun d => x5 (ix2 (0 : Fin 1) d)) d := by
  refine (stored_apply _ _ _ _ _ _ _ _ _ _ _ _ _ _ _ _ _ _ _ _ _ r d).trans ?_
  congr 1
  · funext k j; fin_cases k <;> exact ld_features _ _ x1 r j
  · funext k j l; fin_cases k <;> exact ld_square _ _ x2 j l
  · funext k l; fin_cases k <;> exact ld_bias _ _ x3 l
  · funext k l d'; fin_cases k <;> exact ld_square _ _ x4 l d'
  · funext d'; exact congrFun (ld_outBias x5) _

end Cert.KernelIdeal.DenseRow

end
-- ==== Proof.KernelIdealDenseArray.lean ====
/-
  From the first kernel's blocks to its output array, on the extended reals.

  The pipeline has 25 grid points. Point t is handed rows 6000·t … 6000·t + 5999 of the five relations' stacked
  aggregated features (block index (0, t, 0) of a [5, 150000, 64] array in blocks of [5, 6000, 64]) and the whole of
  the relation weights, the relation biases, the affine slabs and the bias row (block index zero of whole-array
  blocks), and it writes back rows 6000·t … 6000·t + 5999 of the output (block index (t, 0) of a [150000, 64] array in
  blocks of [6000, 64]).

  What the body stores at (r, d) of its block is the specification's accumulated row over the entries of its five
  blocks; an entry (k, r, j) of point t's feature block is entry (k, 6000·t + r, j) of the array, and an entry of a
  whole-array block is the array's entry. So what point t writes back is block t of ONE function of the arrays,
  logitsArray: at node n and column d the accumulated row of node n's five feature rows. Every row n lies in the
  block of point n / 6000, and every point writes its block back; hence the output array ends holding logitsArray.
-/
import proofs.«118015_j56899726737489_1_alg».proof.Proof.KernelIdealDense
import proofs.«118015_j56899726737489_1_alg».proof.Proof.DenseRow
import proofs.«118015_j56899726737489_1_alg».proof.Proof.Spec
import Idealize.ShloMosaic.Lib.Pipeline.Value

noncomputable section

namespace Cert.KernelIdeal.DenseArray

open Cert.KernelIdeal Cert.KernelIdeal.Gen Idealize.ShloMosaic Idealize.ShloMosaic.TcCoe Idealize.SL.Sem
open Idealize.ShloMosaic.ValueIdx
open Idealize.ShloMosaic.Pipeline (Dat)

/-- Every node's output row: the five relations' contributions accumulated one after the other, then the bias — a
    function of the stacked aggregated features X, the relation weights W and biases B, the affine slabs A3 and the
    bias row C. The index's two coordinates are written as numbers below the literal extents. -/
def logitsArray (X : S5x150000x64.Idx → EReal) (W : S5x64x64.Idx → EReal) (B : S5x1x64.Idx → EReal)
    (A3 : S5x64x64.Idx → EReal) (C : S1x64.Idx → EReal) : S150000x64.Idx → EReal :=
  fun i => Cert.Spec.rowAccumulated (fun k j => X (ix3 k (⟨(i 0).val, idx2_lt0 i⟩ : Fin 150000) j)) (fun k j l => W (ix3 k j l))
    (fun k l => B (ix3 k (0 : Fin 1) l)) (fun k l d => A3 (ix3 k l d)) (fun d => C (ix2 (0 : Fin 1) d))
    (⟨(i 1).val, idx2_lt1 i⟩ : Fin 64)

/-- The output array at node n, column d. -/
theorem logitsArray_apply (X : S5x150000x64.Idx → EReal) (W : S5x64x64.Idx → EReal) (B : S5x1x64.Idx → EReal)
    (A3 : S5x64x64.Idx → EReal) (C : S1x64.Idx → EReal) (n : Fin 150000) (d : Fin 64) :
    logitsArray X W B A3 C (ix2 n d)
      = Cert.Spec.rowAccumulated (fun k j => X (ix3 k n j)) (fun k j l => W (ix3 k j l))
          (fun k l => B (ix3 k (0 : Fin 1) l)) (fun k l d => A3 (ix3 k l d)) (fun d => C (ix2 (0 : Fin 1) d)) d := rfl

-- the arrays as the pipeline finds them: each core's contents of every buffer
variable (V : (c : Dev nD) → (b : Ref sig .tc) → Buf (Elt Ideal) ((c : Thread nD τ).loc b))

/-- The whole-buffer store's offsets are zero. -/
theorem hz : (![0, 0] : Fin 2 → Nat) = fun _ => 0 := funext fun a => by fin_cases a <;> rfl

/-- The index maps, decided over the 25 points: the feature window moves along its second axis with the point, the
    output window along its first; the four whole-array windows stay at block index zero. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- A grid point's number is below 25. -/
theorem point_lt (t : Fin cfg0.N) : t.val < 25 := lt_of_lt_of_eq t.isLt N_0

/-- Row r of point t's block is row 6000·t + r of the array. -/
theorem row_lt (t : Fin cfg0.N) (r : Fin 6000) : 6000 * t.val + r.val < 150000 := by
  have := point_lt t; omega

/-- Entry (k, r, j) of point t's feature block is entry (k, 6000·t + r, j) of the stacked features. -/
theorem block0_apply (c : Dev nD) (t : Fin cfg0.N) (k : Fin 5) (r : Fin 6000) (j : Fin 64) :
    Dense.block V c 0 t (ix3 k r j)
      = V c main_v101 (ix3 k (⟨6000 * t.val + r.val, row_lt t r⟩ : Fin 150000) j) := by
  obtain ⟨⟨e0, e1, e2⟩, -⟩ := idx_facts t
  unfold Dense.block
  rw [View.read_apply]
  show V c main_v101 _ = V c main_v101 _
  congr 1
  funext a
  apply Fin.ext
  match a with
  | ⟨0, _⟩ => show win0_0.index t (0 : Fin 3) * 5 + 1 * k.val = k.val; rw [e0]; omega
  | ⟨1, _⟩ => show win0_0.index t (1 : Fin 3) * 6000 + 1 * r.val = 6000 * t.val + r.val; rw [e1]; omega
  | ⟨2, _⟩ => show win0_0.index t (2 : Fin 3) * 64 + 1 * j.val = j.val; rw [e2]; omega

/-- The relation weights' block at any point is the whole array. -/
theorem block1_apply (c : Dev nD) (t : Fin cfg0.N) (k : Fin 5) (j : Fin 64) (l : Fin 64) :
    Dense.block V c 1 t (ix3 k j l) = V c main_arg7 (ix3 k j l) := by
  obtain ⟨-, ⟨e0, e1, e2⟩, -⟩ := idx_facts t
  unfold Dense.block
  rw [View.read_apply]
  show V c main_arg7 _ = V c main_arg7 _
  congr 1
  funext a
  apply Fin.ext
  match a with
  | ⟨0, _⟩ => show win0_1.index t (0 : Fin 3) * 5 + 1 * k.val = k.val; rw [e0]; omega
  | ⟨1, _⟩ => show win0_1.index t (1 : Fin 3) * 64 + 1 * j.val = j.val; rw [e1]; omega
  | ⟨2, _⟩ => show win0_1.index t (2 : Fin 3) * 64 + 1 * l.val = l.val; rw [e2]; omega

/-- The relation biases' block at any point is the whole array. -/
theorem block2_apply (c : Dev nD) (t : Fin cfg0.N) (k : Fin 5) (l : Fin 64) :
    Dense.block V c 2 t (ix3 k (0 : Fin 1) l) = V c main_arg8 (ix3 k (0 : Fin 1) l) := by
  obtain ⟨-, -, ⟨e0, e1, e2⟩, -⟩ := idx_facts t
  unfold Dense.block
  rw [View.read_apply]
  show V c main_arg8 _ = V c main_arg8 _
  congr 1
  funext a
  apply Fin.ext
  match a with
  | ⟨0, _⟩ => show win0_2.index t (0 : Fin 3) * 5 + 1 * k.val = k.val; rw [e0]; omega
  | ⟨1, _⟩ => show win0_2.index t (1 : Fin 3) * 1 + 1 * 0 = 0; rw [e1]
  | ⟨2, _⟩ => show win0_2.index t (2 : Fin 3) * 64 + 1 * l.val = l.val; rw [e2]; omega

/-- The affine slabs' block at any point is the whole array. -/
theorem block3_apply (c : Dev nD) (t : Fin cfg0.N) (k : Fin 5) (l : Fin 64) (d : Fin 64) :
    Dense.block V c 3 t (ix3 k l d) = V c main_v102 (ix3 k l d) := by
  obtain ⟨-, -, -, ⟨e0, e1, e2⟩, -⟩ := idx_facts t
  unfold Dense.block
  rw [View.read_apply]
  show V c main_v102 _ = V c main_v102 _
  congr 1
  funext a
  apply Fin.ext
  match a with
  | ⟨0, _⟩ => show win0_3.index t (0 : Fin 3) * 5 + 1 * k.val = k.val; rw [e0]; omega
  | ⟨1, _⟩ => show win0_3.index t (1 : Fin 3) * 64 + 1 * l.val = l.val; rw [e1]; omega
  | ⟨2, _⟩ => show win0_3.index t (2 : Fin 3) * 64 + 1 * d.val = d.val; rw [e2]; omega

/-- The bias row's block at any point is the whole array. -/
theorem block4_apply (c : Dev nD) (t : Fin cfg0.N) (d : Fin 64) :
    Dense.block V c 4 t (ix2 (0 : Fin 1) d) = V c main_v103 (ix2 (0 : Fin 1) d) := by
  obtain ⟨-, -, -, -, ⟨e0, e1⟩, -⟩ := idx_facts t
  unfold Dense.block
  rw [View.read_apply]
  show V c main_v103 _ = V c main_v103 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * d.val = d.val; rw [e1]; omega

/-- Where element (r, d) of point t's output block sits in the array: row 6000·t + r, column d. -/
theorem out_emb (t : Fin cfg0.N) (r : Fin 6000) (d : Fin 64) :
    ((cfg0.win 5).blk t).view.emb (ix2 r d) = ix2 (⟨6000 * t.val + r.val, row_lt t r⟩ : Fin 150000) d := by
  obtain ⟨-, -, -, -, -, ⟨e0, e1⟩⟩ := idx_facts t
  funext a
  apply Fin.ext
  match a with
  | ⟨0, _⟩ => show win0_5.index t (0 : Fin 2) * 6000 + 1 * r.val = 6000 * t.val + r.val; rw [e0]; omega
  | ⟨1, _⟩ => show win0_5.index t (1 : Fin 2) * 64 + 1 * d.val = d.val; rw [e1]; omega

/-- WHAT POINT t WRITES BACK is block t of logitsArray of the arrays as the pipeline finds them. -/
theorem flushed_eq (c : Dev nD) (t : Fin cfg0.N) :
    (Dense.dat (F := Ideal) V c).flushed 5 t
      = ((cfg0.win 5).blk t).view.read (Elt Ideal)
          (logitsArray (V c main_v101) (V c main_arg7) (V c main_arg8) (V c main_v102) (V c main_v103)) := by
  show (cfg0.win 5).cut (grid0.coords t) ((Dense.dat V c).after 5 t) = _
  rw [Dense.after_5]
  unfold Dense.outAfter
  rw [View.canon_unit_zero hz]
  funext y
  obtain ⟨r, d, rfl⟩ : ∃ (r : Fin 6000) (d : Fin 64), y = ix2 r d := ⟨y 0, y 1, eq_ix2 y⟩
  rw [View.read_apply]
  show Dense.denseStored (Dense.block V c 0 t) (Dense.block V c 1 t) (Dense.block V c 2 t) (Dense.block V c 3 t)
      (Dense.block V c 4 t) (ix2 r d)
    = logitsArray (V c main_v101) (V c main_arg7) (V c main_arg8) (V c main_v102) (V c main_v103)
        (((cfg0.win 5).blk t).view.emb (ix2 r d))
  rw [out_emb t r d, logitsArray_apply]
  unfold Dense.denseStored
  refine (DenseRow.stored_of_blocks _ _ _ _ _ r d).trans ?_
  congr 1
  · funext k j; exact block0_apply V c t k r j
  · funext k j l; exact block1_apply V c t k j l
  · funext k l; exact block2_apply V c t k l
  · funext k l d'; exact block3_apply V c t k l d'
  · funext d'; exact block4_apply V c t d'

/-- An index of the array is in point t's block iff each coordinate is in the block's range on its axis. -/
theorem mem_blk (t : Fin cfg0.N) (i : S150000x64.Idx) :
    i ∈ ((cfg0.win 5).blk t).view.set
      ↔ ∀ a : Fin 2, win0_5.index t a * S6000x64.size a ≤ (i a).val
          ∧ (i a).val < win0_5.index t a * S6000x64.size a + S6000x64.size a := by
  show i ∈ ((View.whole main_v104).slice (win0_5.rect t)).set ↔ _
  rw [View.set_slice_whole, Rect.mem_set_unit]
  exact Iff.rfl

/-- Every row of the array is in the block of the point numbered row / 6000, which writes its block back. -/
theorem cover (i : S150000x64.Idx) :
    ∃ t : Fin cfg0.N, (cfg0.win 5).flush t = true ∧ i ∈ ((cfg0.win 5).blk t).view.set := by
  have hi0 : (i 0).val < 150000 := (i 0).isLt
  have hi1 : (i 1).val < 64 := (i 1).isLt
  have hN : cfg0.N = 25 := N_0
  refine ⟨⟨(i 0).val / 6000, by rw [hN]; omega⟩, flush0_5 _, ?_⟩
  obtain ⟨-, -, -, -, -, ⟨e0, e1⟩⟩ := idx_facts ⟨(i 0).val / 6000, by rw [hN]; omega⟩
  rw [mem_blk]
  intro a
  match a with
  | ⟨0, _⟩ =>
    show win0_5.index _ (0 : Fin 2) * 6000 ≤ (i 0).val ∧ (i 0).val < win0_5.index _ (0 : Fin 2) * 6000 + 6000
    rw [e0]; show (i 0).val / 6000 * 6000 ≤ (i 0).val ∧ (i 0).val < (i 0).val / 6000 * 6000 + 6000; omega
  | ⟨1, _⟩ =>
    show win0_5.index _ (1 : Fin 2) * 64 ≤ (i 1).val ∧ (i 1).val < win0_5.index _ (1 : Fin 2) * 64 + 64
    rw [e1]; omega

/-- THE ARRAY after the run of the first kernel's pipeline: every node's accumulated row. -/
theorem final (c : Dev nD) :
    (Dense.dat (F := Ideal) V c).arrAt 5 cfg0.N
      = logitsArray (V c main_v101) (V c main_arg7) (V c main_arg8) (V c main_v102) (V c main_v103) :=
  (Dense.dat (F := Ideal) V c).arrAt_eq_of_cover 5
    (logitsArray (V c main_v101) (V c main_arg7) (V c main_arg8) (V c main_v102) (V c main_v103))
    (fun t _ => flushed_eq V c t) cover

end Cert.KernelIdeal.DenseArray

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibColumnVector.lean ====
/-
  A column read as a vector: an [a, 1] array reshaped to [a] reads i at (i, 0). A shape cast keeps the row-major
  position, and row i of a one-column array sits at position i·1 + 0 = i.
-/
import Idealize.ShloMosaic.Lib.ValueLayout

namespace Cert.LibColumnVector

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnVector
-- ==== Proof.PairScore.lean ====
/-
  The pair score of one block of rows, on the extended reals. The second kernel multiplies two blocks of
  2048 rows by 64 columns entry by entry, adds each row's 64 products (a lane sum that starts from the zero
  word, so nothing but the products is added) and keeps the 2048 sums as a column of 2048 rows and one entry.
  Read at row r the stored column therefore holds the dot product of row r of the two blocks:
      stored (r, 0) = ∑ d, v0 (r, d) * v2 (r, d).
  After the kernel the host reads the full column of 16384 rows and one entry as a vector of 16384 entries:
  entry r of the vector is the column's entry (r, 0), because a reshape keeps the row-major position and row r
  of a one-entry-wide array sits at position r·1 + 0 = r.
-/
import proofs.«118015_j56899726737489_1_alg».proof.Proof.Gen.KernelIdeal.Skeleton
import proofs.«118015_j56899726737489_1_alg».proof.Proof.LibRowReduce
import proofs.«118015_j56899726737489_1_alg».proof.Proof.LibKeepdimsColumn
import proofs.«118015_j56899726737489_1_alg».proof.Proof.LibColumnVector

noncomputable section

namespace Cert.KernelIdeal.PairScore

open Idealize.ShloMosaic Idealize.ShloMosaic.ValueIdx Cert.KernelIdeal

/-- A lane sum over the 64 columns that starts from the zero word, at row r: the sum of row r's 64 entries.
    The hypothesis on the starting word is typed as the program prints it, an equation between two zero words. -/
theorem laneSum_zero_at (src : FVec Ideal S2048x64 .f32) (h : S2048x64.Reduces [1] S2048)
    (hφ : FKind.Formats .f32) (hacc : (0x00000000#32 : BitVec 32) = 0x00000000#32) (r : Fin 2048) :
    multiReduction (F := Ideal) .add [1] S2048 src 0x00000000#32 h hφ hacc (ix1 r) = ∑ d : Fin 64, src (ix2 r d) :=
  RowReduce.laneSum_at src 0x00000000#32 h hφ hacc r

/-- The column the second kernel stores, at row r: the dot product of row r of its two operands. -/
theorem stored_apply (v0 v2 : Vec Ideal S2048x64 .f32) (r : Fin 2048) :
    Gen.k1_pay1 (F := Ideal) v0 v2 (ix2 r (0 : Fin 1)) = ∑ d : Fin 64, v0 (ix2 r d) * v2 (ix2 r d) := by
  unfold Gen.k1_pay1
  refine (KeepdimsColumn.shapeCast_a_a1_apply _ _ r (0 : Fin 1)).trans ?_
  refine (laneSum_zero_at _ _ _ _ r).trans ?_
  refine Finset.sum_congr rfl fun d _ => ?_
  rw [mulf_apply, shapeCast_self, shapeCast_self]

/-- The same at an arbitrary index of the stored column: its second coordinate can only be 0. -/
theorem stored_apply_idx (v0 v2 : Vec Ideal S2048x64 .f32) (y : S2048x1.Idx) :
    Gen.k1_pay1 (F := Ideal) v0 v2 y = ∑ d : Fin 64, v0 (ix2 (y 0) d) * v2 (ix2 (y 0) d) := by
  obtain ⟨p, q, rfl⟩ : ∃ (p : Fin 2048) (q : Fin 1), y = ix2 p q := ⟨y 0, y 1, eq_ix2 y⟩
  obtain rfl : q = 0 := Subsingleton.elim _ _
  exact stored_apply v0 v2 p

/-- The host's reshape of the column of 16384 rows and one entry to a vector: entry r is the column's (r, 0). -/
theorem reshaped_apply {α : Type} (y : S16384x1.Idx → α) (h : S16384x1.ShapeCasts S16384) (r : Fin 16384) :
    shapeCast S16384 y h (ix1 r) = y (ix2 r (0 : Fin 1)) :=
  Cert.LibColumnVector.shapeCast_a1_a_apply y h r

end Cert.KernelIdeal.PairScore

end
-- ==== Proof.KernelIdealScoreArray.lean ====
/-
  From the second kernel's blocks to its output array, on the extended reals.

  The grid has 8 points. Point t is handed rows 2048·t … 2048·t + 2047 of the two arrays of picked rows
  (16384 rows of 64 entries each) and writes back rows 2048·t … 2048·t + 2047 of the column of scores (16384
  rows of one entry). What it writes at row r of its block is the dot product of row r of its two input
  blocks, that is of rows 2048·t + r of the two arrays. So every point writes ITS BLOCK OF ONE whole-array
  function, the column whose entry at row n is the dot product of rows n of the two arrays; row n is in the
  block of point n / 2048, the 8 blocks cover the column, and the column ends holding that function.
-/
import proofs.«118015_j56899726737489_1_alg».proof.Proof.KernelIdealScore
import proofs.«118015_j56899726737489_1_alg».proof.Proof.PairScore
import Idealize.ShloMosaic.Lib.Pipeline.Value

noncomputable section

namespace Cert.KernelIdeal.ScoreArray

open Cert.KernelIdeal Cert.KernelIdeal.Gen Idealize.ShloMosaic Idealize.ShloMosaic.TcCoe Idealize.SL.Sem
open Idealize.ShloMosaic.ValueIdx
open Idealize.ShloMosaic.Pipeline (Dat)

-- the arrays as the region finds them: core c's contents of every buffer
variable (V : (c : Dev nD) → (b : Ref sig .tc) → Buf (Elt Ideal) ((c : Thread nD τ).loc b))

/-- each pair's score: the sum over the 64 columns of the products of the two picked rows -/
def pairColumn (u i : S16384x64.Idx → EReal) : S16384x1.Idx → EReal :=
  fun y => ∑ d : Fin 64, u (ix2 (y 0) d) * i (ix2 (y 0) d)

/-- The zero offsets of a whole-buffer access, however spelt. -/
theorem zeroOffsets : (![0, 0] : Fin 2 → Nat) = fun _ => 0 := funext fun a => by fin_cases a <;> rfl

/-- The printed index maps, decided over the 8 grid points: every window's block index at point t is (t, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first operand's block at point t is rows 2048·t … 2048·t + 2047 of its array. -/
theorem block0_apply (c : Dev nD) (t : Fin cfg1.N) (x : S2048x64.Idx) (k : S16384x64.Idx)
    (hk0 : (k 0).val = 2048 * t.val + (x 0).val) (hk1 : (k 1).val = (x 1).val) :
    (Score.block V c 0 t : Vec Ideal S2048x64 .f32) x = (V c main_v111 : S16384x64.Idx → EReal) k := by
  obtain ⟨e0, e1, -⟩ := blockIndex t
  unfold Score.block
  rw [View.read_apply]
  show V c main_v111 _ = V c main_v111 _
  congr 1
  funext a
  apply Fin.ext
  match a with
  | ⟨0, _⟩ => show win1_0.index t (0 : Fin 2) * 2048 + 1 * (x 0).val = (k 0).val; rw [e0, hk0]; omega
  | ⟨1, _⟩ => show win1_0.index t (1 : Fin 2) * 64 + 1 * (x 1).val = (k 1).val; rw [e1, hk1]; omega

/-- The second operand's block at point t is rows 2048·t … 2048·t + 2047 of its array. -/
theorem block1_apply (c : Dev nD) (t : Fin cfg1.N) (x : S2048x64.Idx) (k : S16384x64.Idx)
    (hk0 : (k 0).val = 2048 * t.val + (x 0).val) (hk1 : (k 1).val = (x 1).val) :
    (Score.block V c 1 t : Vec Ideal S2048x64 .f32) x = (V c main_v120 : S16384x64.Idx → EReal) k := by
  obtain ⟨-, -, e0, e1, -⟩ := blockIndex t
  unfold Score.block
  rw [View.read_apply]
  show V c main_v120 _ = V c main_v120 _
  congr 1
  funext a
  apply Fin.ext
  match a with
  | ⟨0, _⟩ => show win1_1.index t (0 : Fin 2) * 2048 + 1 * (x 0).val = (k 0).val; rw [e0, hk0]; omega
  | ⟨1, _⟩ => show win1_1.index t (1 : Fin 2) * 64 + 1 * (x 1).val = (k 1).val; rw [e1, hk1]; omega

/-- WHAT POINT t WRITES BACK is block t of the column of pair scores of the two arrays as the region finds them. -/
theorem flushed_eq (c : Dev nD) (t : Fin cfg1.N) :
    (Score.dat (F := Ideal) V c).flushed 2 t
      = ((cfg1.win 2).blk t).view.read (Elt Ideal) (pairColumn (V c main_v111) (V c main_v120)) := by
  show (cfg1.win 2).cut (grid1.coords t) ((Score.dat (F := Ideal) V c).after 2 t) = _
  rw [Score.after_2]
  unfold Score.outAfter
  rw [View.canon_unit_zero zeroOffsets]
  unfold Score.scoreStored
  simp only [View.ld_unit_zero (S := S2048x64) zeroOffsets]
  obtain ⟨-, -, -, -, e0, -⟩ := blockIndex t
  funext y
  show k1_pay1 (F := Ideal) (Score.block V c 0 t) (Score.block V c 1 t) ((cfg1.win 2).xinj (grid1.coords t) y)
      = pairColumn (V c main_v111) (V c main_v120) (((cfg1.win 2).blk t).view.emb y)
  refine (PairScore.stored_apply_idx _ _ _).trans ?_
  unfold pairColumn
  refine Finset.sum_congr rfl fun d _ => ?_
  have hrow : ((((cfg1.win 2).blk t).view.emb y) 0).val = 2048 * t.val + (y 0).val := by
    show win1_2.index t (0 : Fin 2) * 2048 + 1 * (y 0).val = _
    rw [e0]; omega
  rw [block0_apply V c t _ (ix2 ((((cfg1.win 2).blk t).view.emb y) 0) d) hrow rfl,
    block1_apply V c t _ (ix2 ((((cfg1.win 2).blk t).view.emb y) 0) d) hrow rfl]

/-- An index of the column is in point t's block iff each coordinate is in the block's range on its axis. -/
theorem mem_block (t : Fin cfg1.N) (i : S16384x1.Idx) :
    i ∈ ((cfg1.win 2).blk t).view.set
      ↔ ∀ a : Fin 2, win1_2.index t a * S2048x1.size a ≤ (i a).val ∧ (i a).val < win1_2.index t a * S2048x1.size a + S2048x1.size a := by
  show i ∈ ((View.whole main_v121).slice (win1_2.rect t)).set ↔ _
  rw [View.set_slice_whole, Rect.mem_set_unit]
  exact Iff.rfl

/-- Every row of the column is in some point's block: row n in the block of point n / 2048. -/
theorem covered (i : S16384x1.Idx) :
    ∃ t : Fin cfg1.N, (cfg1.win 2).flush t = true ∧ i ∈ ((cfg1.win 2).blk t).view.set := by
  have hN : cfg1.N = 8 := N_1
  have hi0 : (i 0).val < 16384 := (i 0).isLt
  have hi1 : (i 1).val < 1 := (i 1).isLt
  let t : Fin cfg1.N := ⟨(i 0).val / 2048, by rw [hN]; omega⟩
  have ht : t.val = (i 0).val / 2048 := rfl
  obtain ⟨-, -, -, -, e0, e1⟩ := blockIndex t
  refine ⟨t, flush1_2 t, ?_⟩
  rw [mem_block]
  intro a
  match a with
  | ⟨0, _⟩ =>
    show win1_2.index t (0 : Fin 2) * 2048 ≤ (i 0).val ∧ (i 0).val < win1_2.index t (0 : Fin 2) * 2048 + 2048
    rw [e0, ht]; omega
  | ⟨1, _⟩ =>
    show win1_2.index t (1 : Fin 2) * 1 ≤ (i 1).val ∧ (i 1).val < win1_2.index t (1 : Fin 2) * 1 + 1
    rw [e1]; omega

/-- THE COLUMN after the run: each pair's score of the two arrays of picked rows as the region finds them. -/
theorem final (c : Dev nD) :
    (Score.dat (F := Ideal) V c).arrAt 2 cfg1.N = pairColumn (V c main_v111) (V c main_v120) :=
  (Score.dat (F := Ideal) V c).arrAt_eq_of_cover 2 (pairColumn (V c main_v111) (V c main_v120))
    (fun t _ => flushed_eq V c t) covered

end Cert.KernelIdeal.ScoreArray

end
-- ==== Proof.KernelIdealResult.lean ====
/-
  The kernel program's result as ONE function of its eleven argument arrays:
  the node table and the five relations' aggregated features (host operations), stacked; every node's output row by
  the first kernel (the five contributions accumulated, then the bias); the rows the two batches of node numbers
  pick (host operations); each pair's score by the second kernel; the column of scores as a vector.
-/
import proofs.«118015_j56899726737489_1_alg».proof.Proof.KernelIdealStages
import proofs.«118015_j56899726737489_1_alg».proof.Proof.KernelIdealDenseArray
import proofs.«118015_j56899726737489_1_alg».proof.Proof.KernelIdealScoreArray

noncomputable section

namespace Cert.KernelIdeal.Value

open Idealize.ShloMosaic Cert.KernelIdeal

/-- The logits: every node's output row, from the argument arrays. -/
def logits (a2 a3 : IVec S5x2000000 32) (a4 : FVec Ideal S5x2000000 .f32) (a5 : FVec Ideal S100000x64 .f32)
    (a6 : FVec Ideal S50000x64 .f32) (a7 : FVec Ideal S5x64x64 .f32) (a8 : FVec Ideal S5x1x64 .f32) (a9 : FVec Ideal S320x64 .f32)
    (a10 : FVec Ideal S64 .f32) : FVec Ideal S150000x64 .f32 :=
  DenseArray.logitsArray
    (Stages.stacked (Stages.aggregate0 a2 a3 a4 (Stages.table a5 a6)) (Stages.aggregate1 a2 a3 a4 (Stages.table a5 a6))
      (Stages.aggregate2 a2 a3 a4 (Stages.table a5 a6)) (Stages.aggregate3 a2 a3 a4 (Stages.table a5 a6))
      (Stages.aggregate4 a2 a3 a4 (Stages.table a5 a6)))
    a7 a8 (Stages.affineSlabs a9) (Stages.biasRow a10)

/-- The program's result. -/
def result (a0 a1 : IVec S16384 32) (a2 a3 : IVec S5x2000000 32) (a4 : FVec Ideal S5x2000000 .f32) (a5 : FVec Ideal S100000x64 .f32)
    (a6 : FVec Ideal S50000x64 .f32) (a7 : FVec Ideal S5x64x64 .f32) (a8 : FVec Ideal S5x1x64 .f32) (a9 : FVec Ideal S320x64 .f32)
    (a10 : FVec Ideal S64 .f32) : FVec Ideal S16384 .f32 :=
  Stages.scoreVector
    (ScoreArray.pairColumn (Stages.rowsAt (logits a2 a3 a4 a5 a6 a7 a8 a9 a10) (Stages.wrappedBatch a0))
      (Stages.rowsAt (logits a2 a3 a4 a5 a6 a7 a8 a9 a10) (Stages.wrappedBatch (Stages.shifted a1))))

end Cert.KernelIdeal.Value

end
-- ==== Proof.KernelIdealValue.lean ====
/-
  The kernel program's result buffer at the end of the run is ONE function of the argument arrays.

  Read backwards off the contents between the items of @main: the result is the column of scores as a vector; the
  column of scores is what the second kernel's 8 write-backs leave, each pair's sum of products of the two picked
  rows; the picked rows are rows of the logits at the (wrapped) node numbers; the logits are what the first kernel's
  25 write-backs leave, every node's output row from the stacked aggregated features, the relation weights and biases,
  the affine slabs and the bias row; and those are host operations of the arguments.
-/
import proofs.«118015_j56899726737489_1_alg».proof.Proof.KernelIdealRun
import proofs.«118015_j56899726737489_1_alg».proof.Proof.KernelIdealHost
import proofs.«118015_j56899726737489_1_alg».proof.Proof.KernelIdealHostTail
import proofs.«118015_j56899726737489_1_alg».proof.Proof.KernelIdealResult

set_option maxRecDepth 16384

noncomputable section

namespace Cert.KernelIdeal.Value

open Idealize.ShloMosaic Idealize.ShloMosaic.TcCoe Idealize.SL.Sem Cert.KernelIdeal Cert.KernelIdeal.Gen

variable (m : (ℓ : Loc nD τ sig) → Buf (Elt Ideal) ℓ) (c : Dev nD)

/-- After the first kernel its output array holds the logits of the arguments. -/
theorem logits_eq :
    Run.W3 m c (Proc.devRef .tc main_v104)
      = logits (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Run.W3_arr m c 5).trans ?_
  rw [DenseArray.final (Run.V2 m) c]
  show DenseArray.logitsArray (Run.W2 m c (Proc.devRef .tc main_v101)) (Run.W2 m c (Proc.devRef .tc main_arg7))
    (Run.W2 m c (Proc.devRef .tc main_arg8)) (Run.W2 m c (Proc.devRef .tc main_v102)) (Run.W2 m c (Proc.devRef .tc main_v103)) = _
  rw [HostValues.stacked_eq m c, HostValues.arg7_eq m c, HostValues.arg8_eq m c, HostValues.affineSlabs_eq m c, HostValues.biasRow_eq m c]
  rfl

/-- At the end of the run the result buffer holds the program's function of the arguments. -/
theorem result_eq :
    Run.W6 m c (Proc.devRef .tc main_v122)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [HostTail.W6_main_v122 m c]
  rw [show Run.W5 m c (Proc.devRef .tc main_v121) = _ from Run.W5_arr m c 2, ScoreArray.final (Run.V4 m) c]
  show Stages.scoreVector (F := Ideal) (ScoreArray.pairColumn (Run.W4 m c (Proc.devRef .tc main_v111)) (Run.W4 m c (Proc.devRef .tc main_v120))) = _
  rw [HostTail.W4_main_v111 m c, HostTail.W4_main_v120 m c, logits_eq m c]
  rfl

end Cert.KernelIdeal.Value

end
-- ==== Proof.RefStages.lean ====
/-
  The reference program's computation, stage by stage, as functions of the argument arrays.

  table           the node table: the users' rows followed by the items' rows.
  wrapped         an index word below zero is taken from the table's end (150000 is added).
  aggregateOf     one relation's aggregated features: every nonzero (row, column, value) adds value · table[column]
                  into row 'row' of a zero matrix (a gather, a product, an accumulating scatter).
  aggregate k     relation k's aggregated features, from row k of the three coordinate arrays.
  hiddenOf k      relation k's hidden matrix: aggregated features times relation k's weights, plus its bias row.
  logitsOf        the five hidden matrices side by side, the leaky rectifier, the affine map and its bias.
  rowsAt / pairScore   the rows of the logits a batch of (wrapped) node numbers picks, and for each pair of picked
                  rows the sum of their elementwise products.
  result          the whole program.
-/
import proofs.«118015_j56899726737489_1_alg».proof.ReferenceIdeal
import proofs.«118015_j56899726737489_1_alg».proof.Proof.Gen.ReferenceIdeal

noncomputable section

namespace Cert.ReferenceIdeal.Stages

open Idealize.ShloMosaic Cert.ReferenceIdeal Cert.ReferenceIdeal.Facts₀ Cert.ReferenceIdeal.Facts

variable {F : FTy → Type} [FloatOps F]

/-- The node table: the users' rows followed by the items' rows. -/
def table (a5 : FVec F S100000x64 .f32) (a6 : FVec F S50000x64 .f32) : FVec F S150000x64 .f32 :=
  concatenate S150000x64 0 [⟨S100000x64, a5⟩, ⟨S50000x64, a6⟩] concatenates_S100000x64_S50000x64_S150000x64_d0

/-- An index word below zero counts from the table's end. -/
def wrapped (x : IVec S2000000 32) : IVec S2000000 32 :=
  select (cmpi .slt x (broadcastInDim S2000000 ![] bcast_S_S2000000 (constantI S_ 32 0#32)))
    (addi x (broadcastInDim S2000000 ![] bcast_S_S2000000 (constantI S_ 32 150000#32))) x

/-- One relation's aggregated features from its row of column numbers, of values and of row numbers. -/
def aggregateOf (T : FVec F S150000x64 .f32) (cols : IVec S1x2000000 32) (vals : FVec F S1x2000000 .f32)
    (rows : IVec S1x2000000 32) : FVec F S150000x64 .f32 :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 (shapeCast S2000000 rows shapeCasts_S1x2000000_S2000000))
    (mulf
      (Host.gather gather_S150000x64_S2000000x1_S2000000x64_1_0_n_n_0_1_164 T
        (broadcastInDim S2000000x1 ![0] bcast_S2000000_S2000000x1_0
          (wrapped (shapeCast S2000000 cols shapeCasts_S1x2000000_S2000000))))
      (broadcastInDim S2000000x64 ![0, 1] bcast_S2000000x1_S2000000x64_0_1
        (broadcastInDim S2000000x1 ![0] bcast_S2000000_S2000000x1_0
          (shapeCast S2000000 vals shapeCasts_S1x2000000_S2000000))))

/-- Relation 0 … 4's aggregated features. -/
def aggregate0 (a2 a3 : IVec S5x2000000 32) (a4 : FVec F S5x2000000 .f32) (T : FVec F S150000x64 .f32) : FVec F S150000x64 .f32 :=
  aggregateOf T (extractStridedSlice S1x2000000 ![0, 0] a3 slices_S5x2000000_S1x2000000_0_0)
    (extractStridedSlice S1x2000000 ![0, 0] a4 slices_S5x2000000_S1x2000000_0_0)
    (extractStridedSlice S1x2000000 ![0, 0] a2 slices_S5x2000000_S1x2000000_0_0)
def aggregate1 (a2 a3 : IVec S5x2000000 32) (a4 : FVec F S5x2000000 .f32) (T : FVec F S150000x64 .f32) : FVec F S150000x64 .f32 :=
  aggregateOf T (extractStridedSlice S1x2000000 ![1, 0] a3 slices_S5x2000000_S1x2000000_1_0)
    (extractStridedSlice S1x2000000 ![1, 0] a4 slices_S5x2000000_S1x2000000_1_0)
    (extractStridedSlice S1x2000000 ![1, 0] a2 slices_S5x2000000_S1x2000000_1_0)
def aggregate2 (a2 a3 : IVec S5x2000000 32) (a4 : FVec F S5x2000000 .f32) (T : FVec F S150000x64 .f32) : FVec F S150000x64 .f32 :=
  aggregateOf T (extractStridedSlice S1x2000000 ![2, 0] a3 slices_S5x2000000_S1x2000000_2_0)
    (extractStridedSlice S1x2000000 ![2, 0] a4 slices_S5x2000000_S1x2000000_2_0)
    (extractStridedSlice S1x2000000 ![2, 0] a2 slices_S5x2000000_S1x2000000_2_0)
def aggregate3 (a2 a3 : IVec S5x2000000 32) (a4 : FVec F S5x2000000 .f32) (T : FVec F S150000x64 .f32) : FVec F S150000x64 .f32 :=
  aggregateOf T (extractStridedSlice S1x2000000 ![3, 0] a3 slices_S5x2000000_S1x2000000_3_0)
    (extractStridedSlice S1x2000000 ![3, 0] a4 slices_S5x2000000_S1x2000000_3_0)
    (extractStridedSlice S1x2000000 ![3, 0] a2 slices_S5x2000000_S1x2000000_3_0)
def aggregate4 (a2 a3 : IVec S5x2000000 32) (a4 : FVec F S5x2000000 .f32) (T : FVec F S150000x64 .f32) : FVec F S150000x64 .f32 :=
  aggregateOf T (extractStridedSlice S1x2000000 ![4, 0] a3 slices_S5x2000000_S1x2000000_4_0)
    (extractStridedSlice S1x2000000 ![4, 0] a4 slices_S5x2000000_S1x2000000_4_0)
    (extractStridedSlice S1x2000000 ![4, 0] a2 slices_S5x2000000_S1x2000000_4_0)

/-- A relation's hidden matrix from its aggregated features, its 1×64×64 slab of weights and its 1×1×64 slab of biases. -/
def hiddenOf (g : FVec F S150000x64 .f32) (w : FVec F S1x64x64 .f32) (b : FVec F S1x1x64 .f32) : FVec F S150000x64 .f32 :=
  addf (Host.dotGeneral dot_S150000x64_S64x64_S150000x64_1_0_0_1_n_n none g (shapeCast S64x64 w shapeCasts_S1x64x64_S64x64))
    (broadcastInDim S150000x64 ![0, 1] bcast_S1x64_S150000x64_0_1 (shapeCast S1x64 b shapeCasts_S1x1x64_S1x64))

def hidden0 (g : FVec F S150000x64 .f32) (a7 : FVec F S5x64x64 .f32) (a8 : FVec F S5x1x64 .f32) : FVec F S150000x64 .f32 :=
  hiddenOf g (extractStridedSlice S1x64x64 ![0, 0, 0] a7 slices_S5x64x64_S1x64x64_0_0_0) (extractStridedSlice S1x1x64 ![0, 0, 0] a8 slices_S5x1x64_S1x1x64_0_0_0)
def hidden1 (g : FVec F S150000x64 .f32) (a7 : FVec F S5x64x64 .f32) (a8 : FVec F S5x1x64 .f32) : FVec F S150000x64 .f32 :=
  hiddenOf g (extractStridedSlice S1x64x64 ![1, 0, 0] a7 slices_S5x64x64_S1x64x64_1_0_0) (extractStridedSlice S1x1x64 ![1, 0, 0] a8 slices_S5x1x64_S1x1x64_1_0_0)
def hidden2 (g : FVec F S150000x64 .f32) (a7 : FVec F S5x64x64 .f32) (a8 : FVec F S5x1x64 .f32) : FVec F S150000x64 .f32 :=
  hiddenOf g (extractStridedSlice S1x64x64 ![2, 0, 0] a7 slices_S5x64x64_S1x64x64_2_0_0) (extractStridedSlice S1x1x64 ![2, 0, 0] a8 slices_S5x1x64_S1x1x64_2_0_0)
def hidden3 (g : FVec F S150000x64 .f32) (a7 : FVec F S5x64x64 .f32) (a8 : FVec F S5x1x64 .f32) : FVec F S150000x64 .f32 :=
  hiddenOf g (extractStridedSlice S1x64x64 ![3, 0, 0] a7 slices_S5x64x64_S1x64x64_3_0_0) (extractStridedSlice S1x1x64 ![3, 0, 0] a8 slices_S5x1x64_S1x1x64_3_0_0)
def hidden4 (g : FVec F S150000x64 .f32) (a7 : FVec F S5x64x64 .f32) (a8 : FVec F S5x1x64 .f32) : FVec F S150000x64 .f32 :=
  hiddenOf g (extractStridedSlice S1x64x64 ![4, 0, 0] a7 slices_S5x64x64_S1x64x64_4_0_0) (extractStridedSlice S1x1x64 ![4, 0, 0] a8 slices_S5x1x64_S1x1x64_4_0_0)

/-- The leaky rectifier on the side-by-side hidden matrix, as the program's two outlined functions spell it. -/
def rectified (x : FVec F S150000x320 .f32) : FVec F S150000x320 .f32 :=
  select (cmpf .oge x (broadcastInDim S150000x320 ![] bcast_S_S150000x320 (constant S_ .f32 0x00000000#32))) x
    (mulf (broadcastInDim S150000x320 ![] bcast_S_S150000x320 (id (constant S_ .f32 0x3E4CCCCD#32))) x)

/-- The logits from the five hidden matrices, the affine matrix and the bias vector. -/
def logitsOf (h0 h1 h2 h3 h4 : FVec F S150000x64 .f32) (a9 : FVec F S320x64 .f32) (a10 : FVec F S64 .f32) : FVec F S150000x64 .f32 :=
  addf
    (Host.dotGeneral dot_S150000x320_S320x64_S150000x64_1_0_0_1_n_n none
      (rectified (concatenate S150000x320 1 [⟨S150000x64, h0⟩, ⟨S150000x64, h1⟩, ⟨S150000x64, h2⟩, ⟨S150000x64, h3⟩, ⟨S150000x64, h4⟩]
        concatenates_S150000x64_S150000x64_S150000x64_S150000x64_S150000x64_S150000x320_d1)) a9)
    (broadcastInDim S150000x64 ![0, 1] bcast_S1x64_S150000x64_0_1 (broadcastInDim S1x64 ![1] bcast_S64_S1x64_1 a10))

/-- A batch of node numbers, wrapped, as a column of index words. -/
def wrappedBatch (x : IVec S16384 32) : IVec S16384x1 32 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 150000#32))) x)

/-- The item numbers shifted past the users. -/
def shifted (a1 : IVec S16384 32) : IVec S16384 32 :=
  addi (broadcastInDim S16384 ![] bcast_S_S16384 (constantI S_ 32 100000#32)) a1

/-- The rows of a node matrix that a column of index words picks. -/
def rowsAt (L : FVec F S150000x64 .f32) (ix : IVec S16384x1 32) : FVec F S16384x64 .f32 :=
  Host.gather gather_S150000x64_S16384x1_S16384x64_1_0_n_n_0_1_164 L ix

/-- For each pair of rows, the sum of their elementwise products. -/
def pairScore (u i : FVec F S16384x64 .f32) : FVec F S16384 .f32 :=
  Host.reduceAdd (mulf u i) (constant S_ .f32 0x00000000#32) reducesTo_S16384x64_S16384_d1 h_S_

/-- The whole reference program as one function of its eleven argument arrays. -/
def result (a0 a1 : IVec S16384 32) (a2 a3 : IVec S5x2000000 32) (a4 : FVec F S5x2000000 .f32) (a5 : FVec F S100000x64 .f32)
    (a6 : FVec F S50000x64 .f32) (a7 : FVec F S5x64x64 .f32) (a8 : FVec F S5x1x64 .f32) (a9 : FVec F S320x64 .f32)
    (a10 : FVec F S64 .f32) : FVec F S16384 .f32 :=
  let T := table a5 a6
  let L := logitsOf (hidden0 (aggregate0 a2 a3 a4 T) a7 a8) (hidden1 (aggregate1 a2 a3 a4 T) a7 a8)
    (hidden2 (aggregate2 a2 a3 a4 T) a7 a8) (hidden3 (aggregate3 a2 a3 a4 T) a7 a8) (hidden4 (aggregate4 a2 a3 a4 T) a7 a8) a9 a10
  pairScore (rowsAt L (wrappedBatch a0)) (rowsAt L (wrappedBatch (shifted a1)))

end Cert.ReferenceIdeal.Stages

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.RefRunOps.lean ====
/-
  The reference program's @main as three consecutive lists of host operations, in the order the program
  runs them: the first two lists are the program's first 60 and next 60 statements, the third its last
  57 with the leaky rectifier's two outlined functions written out at their call (six operations of the
  rectifier, then the one select of the function it calls), over that call's own buffers.

  The program is the three lists run one after another (`main_eq`); every operation touches TensorCore
  buffers only and determines its result; hence (`run_main`) every weakly fair execution terminates
  with every buffer at the fold of the operations' results over the launch contents.
-/
import proofs.«118015_j56899726737489_1_alg».proof.Proof.RefStages
import proofs.«118015_j56899726737489_1_alg».proof.Proof.LibFoldAppend
import Idealize.ShloMosaic.Lib.StableHlo.Run
import Idealize.ShloMosaic.Adequacy
import Idealize.ShloMosaic.Init

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Statements 1 … 60: the node table, relations 0 and 1 entirely, and relation 2's first slice. -/
abbrev ops0 : List (HloOp τ sig (Elt F)) :=
  [ StableHlo.binary main_arg5 main_arg6 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    StableHlo.unary main_arg3 main_v1 ((extractStridedSlice S1x2000000 ![0, 0] · slices_S5x2000000_S1x2000000_0_0) : (⟨S5x2000000, .i32⟩ : BufTy).Contents (Elt F) → (⟨S1x2000000, .i32⟩ : BufTy).Contents (Elt F)),
    StableHlo.reshape main_v1 main_v2 rfl shapeCasts_S1x2000000_S2000000,
    StableHlo.nullary main_c (constantI S_ 32 0#32),
    StableHlo.unary main_c main_v3 (broadcastInDim S2000000 ![] bcast_S_S2000000 : (⟨S_, .i32⟩ : BufTy).Contents (Elt F) → (⟨S2000000, .i32⟩ : BufTy).Contents (Elt F)),
    StableHlo.binary main_v2 main_v3 main_v4 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 150000#32),
    StableHlo.unary main_c_0 main_v5 (broadcastInDim S2000000 ![] bcast_S_S2000000 : (⟨S_, .i32⟩ : BufTy).Contents (Elt F) → (⟨S2000000, .i32⟩ : BufTy).Contents (Elt F)),
    StableHlo.binary main_v2 main_v5 main_v6 (addi : (⟨S2000000, .i32⟩ : BufTy).Contents (Elt F) → (⟨S2000000, .i32⟩ : BufTy).Contents (Elt F) → (⟨S2000000, .i32⟩ : BufTy).Contents (Elt F)),
    StableHlo.ternary main_v4 main_v6 main_v2 main_v7 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v7 main_v8 (broadcastInDim S2000000x1 ![0] bcast_S2000000_S2000000x1_0 : (⟨S2000000, .i32⟩ : BufTy).Contents (Elt F) → (⟨S2000000x1, .i32⟩ : BufTy).Contents (Elt F)),
    StableHlo.binary main_v0 main_v8 main_v9 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v10 ((extractStridedSlice S1x2000000 ![0, 0] · slices_S5x2000000_S1x2000000_0_0) : (⟨S5x2000000, .f32⟩ : BufTy).Contents (Elt F) → (⟨S1x2000000, .f32⟩ : BufTy).Contents (Elt F)),
    StableHlo.reshape main_v10 main_v11 rfl shapeCasts_S1x2000000_S2000000,
    StableHlo.unary main_v11 main_v12 (broadcastInDim S2000000x1 ![0] bcast_S2000000_S2000000x1_0 : (⟨S2000000, .f32⟩ : BufTy).Contents (Elt F) → (⟨S2000000x1, .f32⟩ : BufTy).Contents (Elt F)),
    StableHlo.unary main_v12 main_v13 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v9 main_v13 main_v14 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v15 ((extractStridedSlice S1x2000000 ![0, 0] · slices_S5x2000000_S1x2000000_0_0) : (⟨S5x2000000, .i32⟩ : BufTy).Contents (Elt F) → (⟨S1x2000000, .i32⟩ : BufTy).Contents (Elt F)),
    StableHlo.reshape main_v15 main_v16 rfl shapeCasts_S1x2000000_S2000000,
    StableHlo.nullary main_cst (constant S_ .f32 0x00000000#32),
    StableHlo.unary main_cst main_v17 (broadcastInDim S150000x64 ![] bcast_S_S150000x64 : (⟨S_, .f32⟩ : BufTy).Contents (Elt F) → (⟨S150000x64, .f32⟩ : BufTy).Contents (Elt F)),
    StableHlo.unary main_v16 main_v18 (broadcastInDim S2000000x1 ![0] bcast_S2000000_S2000000x1_0 : (⟨S2000000, .i32⟩ : BufTy).Contents (Elt F) → (⟨S2000000x1, .i32⟩ : BufTy).Contents (Elt F)),
    StableHlo.ternary main_v17 main_v18 main_v14 main_v19 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v20 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v20 main_v21 rfl shapeCasts_S1x64x64_S64x64,
    StableHlo.binary main_v19 main_v21 main_v22 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v23 ((extractStridedSlice S1x1x64 ![0, 0, 0] · slices_S5x1x64_S1x1x64_0_0_0) : (⟨S5x1x64, .f32⟩ : BufTy).Contents (Elt F) → (⟨S1x1x64, .f32⟩ : BufTy).Contents (Elt F)),
    StableHlo.reshape main_v23 main_v24 rfl shapeCasts_S1x1x64_S1x64,
    StableHlo.unary main_v24 main_v25 (broadcastInDim S150000x64 ![0, 1] bcast_S1x64_S150000x64_0_1 : (⟨S1x64, .f32⟩ : BufTy).Contents (Elt F) → (⟨S150000x64, .f32⟩ : BufTy).Contents (Elt F)),
    StableHlo.binary main_v22 main_v25 main_v26 (addf : (⟨S150000x64, .f32⟩ : BufTy).Contents (Elt F) → (⟨S150000x64, .f32⟩ : BufTy).Contents (Elt F) → (⟨S150000x64, .f32⟩ : BufTy).Contents (Elt F)),
    StableHlo.unary main_arg3 main_v27 ((extractStridedSlice S1x2000000 ![1, 0] · slices_S5x2000000_S1x2000000_1_0) : (⟨S5x2000000, .i32⟩ : BufTy).Contents (Elt F) → (⟨S1x2000000, .i32⟩ : BufTy).Contents (Elt F)),
    StableHlo.reshape main_v27 main_v28 rfl shapeCasts_S1x2000000_S2000000,
    StableHlo.nullary main_c_1 (constantI S_ 32 0#32),
    StableHlo.unary main_c_1 main_v29 (broadcastInDim S2000000 ![] bcast_S_S2000000 : (⟨S_, .i32⟩ : BufTy).Contents (Elt F) → (⟨S2000000, .i32⟩ : BufTy).Contents (Elt F)),
    StableHlo.binary main_v28 main_v29 main_v30 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 150000#32),
    StableHlo.unary main_c_2 main_v31 (broadcastInDim S2000000 ![] bcast_S_S2000000 : (⟨S_, .i32⟩ : BufTy).Contents (Elt F) → (⟨S2000000, .i32⟩ : BufTy).Contents (Elt F)),
    StableHlo.binary main_v28 main_v31 main_v32 (addi : (⟨S2000000, .i32⟩ : BufTy).Contents (Elt F) → (⟨S2000000, .i32⟩ : BufTy).Contents (Elt F) → (⟨S2000000, .i32⟩ : BufTy).Contents (Elt F)),
    StableHlo.ternary main_v30 main_v32 main_v28 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v33 main_v34 (broadcastInDim S2000000x1 ![0] bcast_S2000000_S2000000x1_0 : (⟨S2000000, .i32⟩ : BufTy).Contents (Elt F) → (⟨S2000000x1, .i32⟩ : BufTy).Contents (Elt F)),
    StableHlo.binary main_v0 main_v34 main_v35 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v36 ((extractStridedSlice S1x2000000 ![1, 0] · slices_S5x2000000_S1x2000000_1_0) : (⟨S5x2000000, .f32⟩ : BufTy).Contents (Elt F) → (⟨S1x2000000, .f32⟩ : BufTy).Contents (Elt F)),
    StableHlo.reshape main_v36 main_v37 rfl shapeCasts_S1x2000000_S2000000,
    StableHlo.unary main_v37 main_v38 (broadcastInDim S2000000x1 ![0] bcast_S2000000_S2000000x1_0 : (⟨S2000000, .f32⟩ : BufTy).Contents (Elt F) → (⟨S2000000x1, .f32⟩ : BufTy).Contents (Elt F)),
    StableHlo.unary main_v38 main_v39 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v35 main_v39 main_v40 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v41 ((extractStridedSlice S1x2000000 ![1, 0] · slices_S5x2000000_S1x2000000_1_0) : (⟨S5x2000000, .i32⟩ : BufTy).Contents (Elt F) → (⟨S1x2000000, .i32⟩ : BufTy).Contents (Elt F)),
    StableHlo.reshape main_v41 main_v42 rfl shapeCasts_S1x2000000_S2000000,
    StableHlo.nullary main_cst_3 (constant S_ .f32 0x00000000#32),
    StableHlo.unary main_cst_3 main_v43 (broadcastInDim S150000x64 ![] bcast_S_S150000x64 : (⟨S_, .f32⟩ : BufTy).Contents (Elt F) → (⟨S150000x64, .f32⟩ : BufTy).Contents (Elt F)),
    StableHlo.unary main_v42 main_v44 (broadcastInDim S2000000x1 ![0] bcast_S2000000_S2000000x1_0 : (⟨S2000000, .i32⟩ : BufTy).Contents (Elt F) → (⟨S2000000x1, .i32⟩ : BufTy).Contents (Elt F)),
    StableHlo.ternary main_v43 main_v44 main_v40 main_v45 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v46 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v46 main_v47 rfl shapeCasts_S1x64x64_S64x64,
    StableHlo.binary main_v45 main_v47 main_v48 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v49 ((extractStridedSlice S1x1x64 ![1, 0, 0] · slices_S5x1x64_S1x1x64_1_0_0) : (⟨S5x1x64, .f32⟩ : BufTy).Contents (Elt F) → (⟨S1x1x64, .f32⟩ : BufTy).Contents (Elt F)),
    StableHlo.reshape main_v49 main_v50 rfl shapeCasts_S1x1x64_S1x64,
    StableHlo.unary main_v50 main_v51 (broadcastInDim S150000x64 ![0, 1] bcast_S1x64_S150000x64_0_1 : (⟨S1x64, .f32⟩ : BufTy).Contents (Elt F) → (⟨S150000x64, .f32⟩ : BufTy).Contents (Elt F)),
    StableHlo.binary main_v48 main_v51 main_v52 (addf : (⟨S150000x64, .f32⟩ : BufTy).Contents (Elt F) → (⟨S150000x64, .f32⟩ : BufTy).Contents (Elt F) → (⟨S150000x64, .f32⟩ : BufTy).Contents (Elt F)),
    StableHlo.unary main_arg3 main_v53 ((extractStridedSlice S1x2000000 ![2, 0] · slices_S5x2000000_S1x2000000_2_0) : (⟨S5x2000000, .i32⟩ : BufTy).Contents (Elt F) → (⟨S1x2000000, .i32⟩ : BufTy).Contents (Elt F)) ]

/-- Statements 61 … 120: relations 2 and 3, and the start of relation 4's index wrap. -/
abbrev ops1 : List (HloOp τ sig (Elt F)) :=
  [ StableHlo.reshape main_v53 main_v54 rfl shapeCasts_S1x2000000_S2000000,
    StableHlo.nullary main_c_4 (constantI S_ 32 0#32),
    StableHlo.unary main_c_4 main_v55 (broadcastInDim S2000000 ![] bcast_S_S2000000 : (⟨S_, .i32⟩ : BufTy).Contents (Elt F) → (⟨S2000000, .i32⟩ : BufTy).Contents (Elt F)),
    StableHlo.binary main_v54 main_v55 main_v56 (cmpi .slt : (⟨S2000000, .i32⟩ : BufTy).Contents (Elt F) → (⟨S2000000, .i32⟩ : BufTy).Contents (Elt F) → (⟨S2000000, .i1⟩ : BufTy).Contents (Elt F)),
    StableHlo.nullary main_c_5 (constantI S_ 32 150000#32),
    StableHlo.unary main_c_5 main_v57 (broadcastInDim S2000000 ![] bcast_S_S2000000 : (⟨S_, .i32⟩ : BufTy).Contents (Elt F) → (⟨S2000000, .i32⟩ : BufTy).Contents (Elt F)),
    StableHlo.binary main_v54 main_v57 main_v58 (addi : (⟨S2000000, .i32⟩ : BufTy).Contents (Elt F) → (⟨S2000000, .i32⟩ : BufTy).Contents (Elt F) → (⟨S2000000, .i32⟩ : BufTy).Contents (Elt F)),
    StableHlo.ternary main_v56 main_v58 main_v54 main_v59 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v59 main_v60 (broadcastInDim S2000000x1 ![0] bcast_S2000000_S2000000x1_0 : (⟨S2000000, .i32⟩ : BufTy).Contents (Elt F) → (⟨S2000000x1, .i32⟩ : BufTy).Contents (Elt F)),
    StableHlo.binary main_v0 main_v60 main_v61 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v62 ((extractStridedSlice S1x2000000 ![2, 0] · slices_S5x2000000_S1x2000000_2_0) : (⟨S5x2000000, .f32⟩ : BufTy).Contents (Elt F) → (⟨S1x2000000, .f32⟩ : BufTy).Contents (Elt F)),
    StableHlo.reshape main_v62 main_v63 rfl shapeCasts_S1x2000000_S2000000,
    StableHlo.unary main_v63 main_v64 (broadcastInDim S2000000x1 ![0] bcast_S2000000_S2000000x1_0 : (⟨S2000000, .f32⟩ : BufTy).Contents (Elt F) → (⟨S2000000x1, .f32⟩ : BufTy).Contents (Elt F)),
    StableHlo.unary main_v64 main_v65 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v61 main_v65 main_v66 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v67 ((extractStridedSlice S1x2000000 ![2, 0] · slices_S5x2000000_S1x2000000_2_0) : (⟨S5x2000000, .i32⟩ : BufTy).Contents (Elt F) → (⟨S1x2000000, .i32⟩ : BufTy).Contents (Elt F)),
    StableHlo.reshape main_v67 main_v68 rfl shapeCasts_S1x2000000_S2000000,
    StableHlo.nullary main_cst_6 (constant S_ .f32 0x00000000#32),
    StableHlo.unary main_cst_6 main_v69 (broadcastInDim S150000x64 ![] bcast_S_S150000x64 : (⟨S_, .f32⟩ : BufTy).Contents (Elt F) → (⟨S150000x64, .f32⟩ : BufTy).Contents (Elt F)),
    StableHlo.unary main_v68 main_v70 (broadcastInDim S2000000x1 ![0] bcast_S2000000_S2000000x1_0 : (⟨S2000000, .i32⟩ : BufTy).Contents (Elt F) → (⟨S2000000x1, .i32⟩ : BufTy).Contents (Elt F)),
    StableHlo.ternary main_v69 main_v70 main_v66 main_v71 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v72 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v72 main_v73 rfl shapeCasts_S1x64x64_S64x64,
    StableHlo.binary main_v71 main_v73 main_v74 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v75 ((extractStridedSlice S1x1x64 ![2, 0, 0] · slices_S5x1x64_S1x1x64_2_0_0) : (⟨S5x1x64, .f32⟩ : BufTy).Contents (Elt F) → (⟨S1x1x64, .f32⟩ : BufTy).Contents (Elt F)),
    StableHlo.reshape main_v75 main_v76 rfl shapeCasts_S1x1x64_S1x64,
    StableHlo.unary main_v76 main_v77 (broadcastInDim S150000x64 ![0, 1] bcast_S1x64_S150000x64_0_1 : (⟨S1x64, .f32⟩ : BufTy).Contents (Elt F) → (⟨S150000x64, .f32⟩ : BufTy).Contents (Elt F)),
    StableHlo.binary main_v74 main_v77 main_v78 (addf : (⟨S150000x64, .f32⟩ : BufTy).Contents (Elt F) → (⟨S150000x64, .f32⟩ : BufTy).Contents (Elt F) → (⟨S150000x64, .f32⟩ : BufTy).Contents (Elt F)),
    StableHlo.unary main_arg3 main_v79 ((extractStridedSlice S1x2000000 ![3, 0] · slices_S5x2000000_S1x2000000_3_0) : (⟨S5x2000000, .i32⟩ : BufTy).Contents (Elt F) → (⟨S1x2000000, .i32⟩ : BufTy).Contents (Elt F)),
    StableHlo.reshape main_v79 main_v80 rfl shapeCasts_S1x2000000_S2000000,
    StableHlo.nullary main_c_7 (constantI S_ 32 0#32),
    StableHlo.unary main_c_7 main_v81 (broadcastInDim S2000000 ![] bcast_S_S2000000 : (⟨S_, .i32⟩ : BufTy).Contents (Elt F) → (⟨S2000000, .i32⟩ : BufTy).Contents (Elt F)),
    StableHlo.binary main_v80 main_v81 main_v82 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 150000#32),
    StableHlo.unary main_c_8 main_v83 (broadcastInDim S2000000 ![] bcast_S_S2000000 : (⟨S_, .i32⟩ : BufTy).Contents (Elt F) → (⟨S2000000, .i32⟩ : BufTy).Contents (Elt F)),
    StableHlo.binary main_v80 main_v83 main_v84 (addi : (⟨S2000000, .i32⟩ : BufTy).Contents (Elt F) → (⟨S2000000, .i32⟩ : BufTy).Contents (Elt F) → (⟨S2000000, .i32⟩ : BufTy).Contents (Elt F)),
    StableHlo.ternary main_v82 main_v84 main_v80 main_v85 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v85 main_v86 (broadcastInDim S2000000x1 ![0] bcast_S2000000_S2000000x1_0 : (⟨S2000000, .i32⟩ : BufTy).Contents (Elt F) → (⟨S2000000x1, .i32⟩ : BufTy).Contents (Elt F)),
    StableHlo.binary main_v0 main_v86 main_v87 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v88 ((extractStridedSlice S1x2000000 ![3, 0] · slices_S5x2000000_S1x2000000_3_0) : (⟨S5x2000000, .f32⟩ : BufTy).Contents (Elt F) → (⟨S1x2000000, .f32⟩ : BufTy).Contents (Elt F)),
    StableHlo.reshape main_v88 main_v89 rfl shapeCasts_S1x2000000_S2000000,
    StableHlo.unary main_v89 main_v90 (broadcastInDim S2000000x1 ![0] bcast_S2000000_S2000000x1_0 : (⟨S2000000, .f32⟩ : BufTy).Contents (Elt F) → (⟨S2000000x1, .f32⟩ : BufTy).Contents (Elt F)),
    StableHlo.unary main_v90 main_v91 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v87 main_v91 main_v92 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v93 ((extractStridedSlice S1x2000000 ![3, 0] · slices_S5x2000000_S1x2000000_3_0) : (⟨S5x2000000, .i32⟩ : BufTy).Contents (Elt F) → (⟨S1x2000000, .i32⟩ : BufTy).Contents (Elt F)),
    StableHlo.reshape main_v93 main_v94 rfl shapeCasts_S1x2000000_S2000000,
    StableHlo.nullary main_cst_9 (constant S_ .f32 0x00000000#32),
    StableHlo.unary main_cst_9 main_v95 (broadcastInDim S150000x64 ![] bcast_S_S150000x64 : (⟨S_, .f32⟩ : BufTy).Contents (Elt F) → (⟨S150000x64, .f32⟩ : BufTy).Contents (Elt F)),
    StableHlo.unary main_v94 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v92 main_v97 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v98 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v98 main_v99 rfl shapeCasts_S1x64x64_S64x64,
    StableHlo.binary main_v97 main_v99 main_v100 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v101 ((extractStridedSlice S1x1x64 ![3, 0, 0] · slices_S5x1x64_S1x1x64_3_0_0) : (⟨S5x1x64, .f32⟩ : BufTy).Contents (Elt F) → (⟨S1x1x64, .f32⟩ : BufTy).Contents (Elt F)),
    StableHlo.reshape main_v101 main_v102 rfl shapeCasts_S1x1x64_S1x64,
    StableHlo.unary main_v102 main_v103 (broadcastInDim S150000x64 ![0, 1] bcast_S1x64_S150000x64_0_1 : (⟨S1x64, .f32⟩ : BufTy).Contents (Elt F) → (⟨S150000x64, .f32⟩ : BufTy).Contents (Elt F)),
    StableHlo.binary main_v100 main_v103 main_v104 (addf : (⟨S150000x64, .f32⟩ : BufTy).Contents (Elt F) → (⟨S150000x64, .f32⟩ : BufTy).Contents (Elt F) → (⟨S150000x64, .f32⟩ : BufTy).Contents (Elt F)),
    StableHlo.unary main_arg3 main_v105 ((extractStridedSlice S1x2000000 ![4, 0] · slices_S5x2000000_S1x2000000_4_0) : (⟨S5x2000000, .i32⟩ : BufTy).Contents (Elt F) → (⟨S1x2000000, .i32⟩ : BufTy).Contents (Elt F)),
    StableHlo.reshape main_v105 main_v106 rfl shapeCasts_S1x2000000_S2000000,
    StableHlo.nullary main_c_10 (constantI S_ 32 0#32) ]

/-- Statements 121 … 178: relation 4, the side-by-side matrix, the leaky rectifier (its two outlined functions
    written out), the affine map, the two row gathers and the row sums of products. -/
abbrev ops2 : List (HloOp τ sig (Elt F)) :=
  [ StableHlo.unary main_c_10 main_v107 (broadcastInDim S2000000 ![] bcast_S_S2000000 : (⟨S_, .i32⟩ : BufTy).Contents (Elt F) → (⟨S2000000, .i32⟩ : BufTy).Contents (Elt F)),
    StableHlo.binary main_v106 main_v107 main_v108 (cmpi .slt : (⟨S2000000, .i32⟩ : BufTy).Contents (Elt F) → (⟨S2000000, .i32⟩ : BufTy).Contents (Elt F) → (⟨S2000000, .i1⟩ : BufTy).Contents (Elt F)),
    StableHlo.nullary main_c_11 (constantI S_ 32 150000#32),
    StableHlo.unary main_c_11 main_v109 (broadcastInDim S2000000 ![] bcast_S_S2000000 : (⟨S_, .i32⟩ : BufTy).Contents (Elt F) → (⟨S2000000, .i32⟩ : BufTy).Contents (Elt F)),
    StableHlo.binary main_v106 main_v109 main_v110 (addi : (⟨S2000000, .i32⟩ : BufTy).Contents (Elt F) → (⟨S2000000, .i32⟩ : BufTy).Contents (Elt F) → (⟨S2000000, .i32⟩ : BufTy).Contents (Elt F)),
    StableHlo.ternary main_v108 main_v110 main_v106 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v111 main_v112 (broadcastInDim S2000000x1 ![0] bcast_S2000000_S2000000x1_0 : (⟨S2000000, .i32⟩ : BufTy).Contents (Elt F) → (⟨S2000000x1, .i32⟩ : BufTy).Contents (Elt F)),
    StableHlo.binary main_v0 main_v112 main_v113 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v114 ((extractStridedSlice S1x2000000 ![4, 0] · slices_S5x2000000_S1x2000000_4_0) : (⟨S5x2000000, .f32⟩ : BufTy).Contents (Elt F) → (⟨S1x2000000, .f32⟩ : BufTy).Contents (Elt F)),
    StableHlo.reshape main_v114 main_v115 rfl shapeCasts_S1x2000000_S2000000,
    StableHlo.unary main_v115 main_v116 (broadcastInDim S2000000x1 ![0] bcast_S2000000_S2000000x1_0 : (⟨S2000000, .f32⟩ : BufTy).Contents (Elt F) → (⟨S2000000x1, .f32⟩ : BufTy).Contents (Elt F)),
    StableHlo.unary main_v116 main_v117 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v113 main_v117 main_v118 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v119 ((extractStridedSlice S1x2000000 ![4, 0] · slices_S5x2000000_S1x2000000_4_0) : (⟨S5x2000000, .i32⟩ : BufTy).Contents (Elt F) → (⟨S1x2000000, .i32⟩ : BufTy).Contents (Elt F)),
    StableHlo.reshape main_v119 main_v120 rfl shapeCasts_S1x2000000_S2000000,
    StableHlo.nullary main_cst_12 (constant S_ .f32 0x00000000#32),
    StableHlo.unary main_cst_12 main_v121 (broadcastInDim S150000x64 ![] bcast_S_S150000x64 : (⟨S_, .f32⟩ : BufTy).Contents (Elt F) → (⟨S150000x64, .f32⟩ : BufTy).Contents (Elt F)),
    StableHlo.unary main_v120 main_v122 (broadcastInDim S2000000x1 ![0] bcast_S2000000_S2000000x1_0 : (⟨S2000000, .i32⟩ : BufTy).Contents (Elt F) → (⟨S2000000x1, .i32⟩ : BufTy).Contents (Elt F)),
    StableHlo.ternary main_v121 main_v122 main_v118 main_v123 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v124 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v124 main_v125 rfl shapeCasts_S1x64x64_S64x64,
    StableHlo.binary main_v123 main_v125 main_v126 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v127 ((extractStridedSlice S1x1x64 ![4, 0, 0] · slices_S5x1x64_S1x1x64_4_0_0) : (⟨S5x1x64, .f32⟩ : BufTy).Contents (Elt F) → (⟨S1x1x64, .f32⟩ : BufTy).Contents (Elt F)),
    StableHlo.reshape main_v127 main_v128 rfl shapeCasts_S1x1x64_S1x64,
    StableHlo.unary main_v128 main_v129 (broadcastInDim S150000x64 ![0, 1] bcast_S1x64_S150000x64_0_1 : (⟨S1x64, .f32⟩ : BufTy).Contents (Elt F) → (⟨S150000x64, .f32⟩ : BufTy).Contents (Elt F)),
    StableHlo.binary main_v126 main_v129 main_v130 (addf : (⟨S150000x64, .f32⟩ : BufTy).Contents (Elt F) → (⟨S150000x64, .f32⟩ : BufTy).Contents (Elt F) → (⟨S150000x64, .f32⟩ : BufTy).Contents (Elt F)),
    StableHlo.nary ![main_v26, main_v52, main_v78, main_v104, main_v130] main_v131 (fun u => concatenate S150000x320 1 [⟨S150000x64, u 0⟩, ⟨S150000x64, u 1⟩, ⟨S150000x64, u 2⟩, ⟨S150000x64, u 3⟩, ⟨S150000x64, u 4⟩] concatenates_S150000x64_S150000x64_S150000x64_S150000x64_S150000x64_S150000x320_d1),
    StableHlo.nullary main_cst_13 (constant S_ .f32 0x3E4CCCCD#32),
    StableHlo.TRef.nullary main_call0.cst (constant S_ .f32 0x00000000#32),
    StableHlo.TRef.unary main_call0.cst main_call0.v0 (broadcastInDim S150000x320 ![] bcast_S_S150000x320),
    StableHlo.TRef.binary (.of main_v131) main_call0.v0 main_call0.v1 (cmpf .oge),
    StableHlo.TRef.unary (.of main_cst_13) main_call0.v2 id,
    StableHlo.TRef.unary main_call0.v2 main_call0.v3 (broadcastInDim S150000x320 ![] bcast_S_S150000x320),
    StableHlo.TRef.binary main_call0.v3 (.of main_v131) main_call0.v4 mulf,
    StableHlo.TRef.ternary main_call0.v1 (.of main_v131) main_call0.v4 main_call0.call0.v0 select,
    StableHlo.binary main_v132 main_arg9 main_v133 ((fun l r => Host.dotGeneral dot_S150000x320_S320x64_S150000x64_1_0_0_1_n_n none l r) : (⟨S150000x320, .f32⟩ : BufTy).Contents (Elt F) → (⟨S320x64, .f32⟩ : BufTy).Contents (Elt F) → (⟨S150000x64, .f32⟩ : BufTy).Contents (Elt F)),
    StableHlo.unary main_arg10 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S150000x64 ![0, 1] bcast_S1x64_S150000x64_0_1 : (⟨S1x64, .f32⟩ : BufTy).Contents (Elt F) → (⟨S150000x64, .f32⟩ : BufTy).Contents (Elt F)),
    StableHlo.binary main_v133 main_v135 main_v136 (addf : (⟨S150000x64, .f32⟩ : BufTy).Contents (Elt F) → (⟨S150000x64, .f32⟩ : BufTy).Contents (Elt F) → (⟨S150000x64, .f32⟩ : BufTy).Contents (Elt F)),
    StableHlo.nullary main_c_14 (constantI S_ 32 0#32),
    StableHlo.unary main_c_14 main_v137 (broadcastInDim S16384 ![] bcast_S_S16384 : (⟨S_, .i32⟩ : BufTy).Contents (Elt F) → (⟨S16384, .i32⟩ : BufTy).Contents (Elt F)),
    StableHlo.binary main_arg0 main_v137 main_v138 (cmpi .slt : (⟨S16384, .i32⟩ : BufTy).Contents (Elt F) → (⟨S16384, .i32⟩ : BufTy).Contents (Elt F) → (⟨S16384, .i1⟩ : BufTy).Contents (Elt F)),
    StableHlo.nullary main_c_15 (constantI S_ 32 150000#32),
    StableHlo.unary main_c_15 main_v139 (broadcastInDim S16384 ![] bcast_S_S16384 : (⟨S_, .i32⟩ : BufTy).Contents (Elt F) → (⟨S16384, .i32⟩ : BufTy).Contents (Elt F)),
    StableHlo.binary main_arg0 main_v139 main_v140 (addi : (⟨S16384, .i32⟩ : BufTy).Contents (Elt F) → (⟨S16384, .i32⟩ : BufTy).Contents (Elt F) → (⟨S16384, .i32⟩ : BufTy).Contents (Elt F)),
    StableHlo.ternary main_v138 main_v140 main_arg0 main_v141 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v141 main_v142 (broadcastInDim S16384x1 ![0] bcast_S16384_S16384x1_0 : (⟨S16384, .i32⟩ : BufTy).Contents (Elt F) → (⟨S16384x1, .i32⟩ : BufTy).Contents (Elt F)),
    StableHlo.binary main_v136 main_v142 main_v143 ((fun x i => Host.gather gather_S150000x64_S16384x1_S16384x64_1_0_n_n_0_1_164 x i) : (⟨S150000x64, .f32⟩ : BufTy).Contents (Elt F) → (⟨S16384x1, .i32⟩ : BufTy).Contents (Elt F) → (⟨S16384x64, .f32⟩ : BufTy).Contents (Elt F)),
    StableHlo.nullary main_c_16 (constantI S_ 32 100000#32),
    StableHlo.unary main_c_16 main_v144 (broadcastInDim S16384 ![] bcast_S_S16384 : (⟨S_, .i32⟩ : BufTy).Contents (Elt F) → (⟨S16384, .i32⟩ : BufTy).Contents (Elt F)),
    StableHlo.binary main_v144 main_arg1 main_v145 (addi : (⟨S16384, .i32⟩ : BufTy).Contents (Elt F) → (⟨S16384, .i32⟩ : BufTy).Contents (Elt F) → (⟨S16384, .i32⟩ : BufTy).Contents (Elt F)),
    StableHlo.nullary main_c_17 (constantI S_ 32 0#32),
    StableHlo.unary main_c_17 main_v146 (broadcastInDim S16384 ![] bcast_S_S16384 : (⟨S_, .i32⟩ : BufTy).Contents (Elt F) → (⟨S16384, .i32⟩ : BufTy).Contents (Elt F)),
    StableHlo.binary main_v145 main_v146 main_v147 (cmpi .slt : (⟨S16384, .i32⟩ : BufTy).Contents (Elt F) → (⟨S16384, .i32⟩ : BufTy).Contents (Elt F) → (⟨S16384, .i1⟩ : BufTy).Contents (Elt F)),
    StableHlo.nullary main_c_18 (constantI S_ 32 150000#32),
    StableHlo.unary main_c_18 main_v148 (broadcastInDim S16384 ![] bcast_S_S16384 : (⟨S_, .i32⟩ : BufTy).Contents (Elt F) → (⟨S16384, .i32⟩ : BufTy).Contents (Elt F)),
    StableHlo.binary main_v145 main_v148 main_v149 (addi : (⟨S16384, .i32⟩ : BufTy).Contents (Elt F) → (⟨S16384, .i32⟩ : BufTy).Contents (Elt F) → (⟨S16384, .i32⟩ : BufTy).Contents (Elt F)),
    StableHlo.ternary main_v147 main_v149 main_v145 main_v150 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v150 main_v151 (broadcastInDim S16384x1 ![0] bcast_S16384_S16384x1_0 : (⟨S16384, .i32⟩ : BufTy).Contents (Elt F) → (⟨S16384x1, .i32⟩ : BufTy).Contents (Elt F)),
    StableHlo.binary main_v136 main_v151 main_v152 ((fun x i => Host.gather gather_S150000x64_S16384x1_S16384x64_1_0_n_n_0_1_164 x i) : (⟨S150000x64, .f32⟩ : BufTy).Contents (Elt F) → (⟨S16384x1, .i32⟩ : BufTy).Contents (Elt F) → (⟨S16384x64, .f32⟩ : BufTy).Contents (Elt F)),
    StableHlo.binary main_v143 main_v152 main_v153 (mulf : (⟨S16384x64, .f32⟩ : BufTy).Contents (Elt F) → (⟨S16384x64, .f32⟩ : BufTy).Contents (Elt F) → (⟨S16384x64, .f32⟩ : BufTy).Contents (Elt F)),
    StableHlo.nullary main_cst_19 (constant S_ .f32 0x00000000#32),
    StableHlo.binary main_v153 main_cst_19 main_v154 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

/-- All of @main's operations, in order. -/
abbrev ops : List (HloOp τ sig (Elt F)) := ops0 ++ (ops1 ++ ops2)

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
/-- The third window is a straight line once the two outlined functions are unfolded at their calls and
    sequencing is reassociated. -/
theorem main_part2_eq (c : Dev nD) : main_part2 (F := F) c = seq ops2 := by
  simp only [main_part2, fn_leaky_relu.body, fn_where.body, seq, bind_assoc, pure_bind]

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., unary_bufs_sub ..⟩
set_option maxRecDepth 8192 in
theorem ops1_sub : (ops1 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., unary_bufs_sub .., reshape_bufs_sub .., nullary_bufs_sub ..⟩
set_option maxRecDepth 8192 in
theorem ops2_sub : (ops2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., nary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation allocates: each determines its results. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-- From any memory with zero counters: every weakly fair execution of @main terminates, and every final state
    has each TensorCore buffer at the fold of the operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunSegs.lean ====
/-
  @main's operations cut at the stages of the computation: the node table (one operation), the five relations
  (29 operations each) and the tail (37 operations). The cut is the same list (`ops_cut`), so the fold of the
  whole line is the folds of the stretches composed. For each stretch: the buffers it writes, and that a buffer
  it does not write keeps its contents through it.
-/
import proofs.«118015_j56899726737489_1_alg».proof.Proof.RefRunOps

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The node table: the users' rows followed by the items' rows. -/
abbrev segT : List (HloOp τ sig (Elt F)) :=
  [ StableHlo.binary main_arg5 main_arg6 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)) ]

/-- Relation 0: its wrapped column numbers, the gather, the product with the values, the accumulating scatter by row numbers, the product with the relation's weights and its bias row. -/
abbrev segR0 : List (HloOp τ sig (Elt F)) :=
  [ StableHlo.unary main_arg3 main_v1 ((extractStridedSlice S1x2000000 ![0, 0] · slices_S5x2000000_S1x2000000_0_0) : (⟨S5x2000000, .i32⟩ : BufTy).Contents (Elt F) → (⟨S1x2000000, .i32⟩ : BufTy).Contents (Elt F)),
    StableHlo.reshape main_v1 main_v2 rfl shapeCasts_S1x2000000_S2000000,
    StableHlo.nullary main_c (constantI S_ 32 0#32),
    StableHlo.unary main_c main_v3 (broadcastInDim S2000000 ![] bcast_S_S2000000 : (⟨S_, .i32⟩ : BufTy).Contents (Elt F) → (⟨S2000000, .i32⟩ : BufTy).Contents (Elt F)),
    StableHlo.binary main_v2 main_v3 main_v4 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 150000#32),
    StableHlo.unary main_c_0 main_v5 (broadcastInDim S2000000 ![] bcast_S_S2000000 : (⟨S_, .i32⟩ : BufTy).Contents (Elt F) → (⟨S2000000, .i32⟩ : BufTy).Contents (Elt F)),
    StableHlo.binary main_v2 main_v5 main_v6 (addi : (⟨S2000000, .i32⟩ : BufTy).Contents (Elt F) → (⟨S2000000, .i32⟩ : BufTy).Contents (Elt F) → (⟨S2000000, .i32⟩ : BufTy).Contents (Elt F)),
    StableHlo.ternary main_v4 main_v6 main_v2 main_v7 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v7 main_v8 (broadcastInDim S2000000x1 ![0] bcast_S2000000_S2000000x1_0 : (⟨S2000000, .i32⟩ : BufTy).Contents (Elt F) → (⟨S2000000x1, .i32⟩ : BufTy).Contents (Elt F)),
    StableHlo.binary main_v0 main_v8 main_v9 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v10 ((extractStridedSlice S1x2000000 ![0, 0] · slices_S5x2000000_S1x2000000_0_0) : (⟨S5x2000000, .f32⟩ : BufTy).Contents (Elt F) → (⟨S1x2000000, .f32⟩ : BufTy).Contents (Elt F)),
    StableHlo.reshape main_v10 main_v11 rfl shapeCasts_S1x2000000_S2000000,
    StableHlo.unary main_v11 main_v12 (broadcastInDim S2000000x1 ![0] bcast_S2000000_S2000000x1_0 : (⟨S2000000, .f32⟩ : BufTy).Contents (Elt F) → (⟨S2000000x1, .f32⟩ : BufTy).Contents (Elt F)),
    StableHlo.unary main_v12 main_v13 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v9 main_v13 main_v14 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v15 ((extractStridedSlice S1x2000000 ![0, 0] · slices_S5x2000000_S1x2000000_0_0) : (⟨S5x2000000, .i32⟩ : BufTy).Contents (Elt F) → (⟨S1x2000000, .i32⟩ : BufTy).Contents (Elt F)),
    StableHlo.reshape main_v15 main_v16 rfl shapeCasts_S1x2000000_S2000000,
    StableHlo.nullary main_cst (constant S_ .f32 0x00000000#32),
    StableHlo.unary main_cst main_v17 (broadcastInDim S150000x64 ![] bcast_S_S150000x64 : (⟨S_, .f32⟩ : BufTy).Contents (Elt F) → (⟨S150000x64, .f32⟩ : BufTy).Contents (Elt F)),
    StableHlo.unary main_v16 main_v18 (broadcastInDim S2000000x1 ![0] bcast_S2000000_S2000000x1_0 : (⟨S2000000, .i32⟩ : BufTy).Contents (Elt F) → (⟨S2000000x1, .i32⟩ : BufTy).Contents (Elt F)),
    StableHlo.ternary main_v17 main_v18 main_v14 main_v19 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v20 ((extractStridedSlice S1x64x64 ![0, 0, 0] · slices_S5x64x64_S1x64x64_0_0_0) : (⟨S5x64x64, .f32⟩ : BufTy).Contents (Elt F) → (⟨S1x64x64, .f32⟩ : BufTy).Contents (Elt F)),
    StableHlo.reshape main_v20 main_v21 rfl shapeCasts_S1x64x64_S64x64,
    StableHlo.binary main_v19 main_v21 main_v22 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v23 ((extractStridedSlice S1x1x64 ![0, 0, 0] · slices_S5x1x64_S1x1x64_0_0_0) : (⟨S5x1x64, .f32⟩ : BufTy).Contents (Elt F) → (⟨S1x1x64, .f32⟩ : BufTy).Contents (Elt F)),
    StableHlo.reshape main_v23 main_v24 rfl shapeCasts_S1x1x64_S1x64,
    StableHlo.unary main_v24 main_v25 (broadcastInDim S150000x64 ![0, 1] bcast_S1x64_S150000x64_0_1 : (⟨S1x64, .f32⟩ : BufTy).Contents (Elt F) → (⟨S150000x64, .f32⟩ : BufTy).Contents (Elt F)),
    StableHlo.binary main_v22 main_v25 main_v26 (addf : (⟨S150000x64, .f32⟩ : BufTy).Contents (Elt F) → (⟨S150000x64, .f32⟩ : BufTy).Contents (Elt F) → (⟨S150000x64, .f32⟩ : BufTy).Contents (Elt F)) ]

/-- Relation 1, likewise. -/
abbrev segR1 : List (HloOp τ sig (Elt F)) :=
  [ StableHlo.unary main_arg3 main_v27 ((extractStridedSlice S1x2000000 ![1, 0] · slices_S5x2000000_S1x2000000_1_0) : (⟨S5x2000000, .i32⟩ : BufTy).Contents (Elt F) → (⟨S1x2000000, .i32⟩ : BufTy).Contents (Elt F)),
    StableHlo.reshape main_v27 main_v28 rfl shapeCasts_S1x2000000_S2000000,
    StableHlo.nullary main_c_1 (constantI S_ 32 0#32),
    StableHlo.unary main_c_1 main_v29 (broadcastInDim S2000000 ![] bcast_S_S2000000 : (⟨S_, .i32⟩ : BufTy).Contents (Elt F) → (⟨S2000000, .i32⟩ : BufTy).Contents (Elt F)),
    StableHlo.binary main_v28 main_v29 main_v30 (cmpi .slt : (⟨S2000000, .i32⟩ : BufTy).Contents (Elt F) → (⟨S2000000, .i32⟩ : BufTy).Contents (Elt F) → (⟨S2000000, .i1⟩ : BufTy).Contents (Elt F)),
    StableHlo.nullary main_c_2 (constantI S_ 32 150000#32),
    StableHlo.unary main_c_2 main_v31 (broadcastInDim S2000000 ![] bcast_S_S2000000 : (⟨S_, .i32⟩ : BufTy).Contents (Elt F) → (⟨S2000000, .i32⟩ : BufTy).Contents (Elt F)),
    StableHlo.binary main_v28 main_v31 main_v32 (addi : (⟨S2000000, .i32⟩ : BufTy).Contents (Elt F) → (⟨S2000000, .i32⟩ : BufTy).Contents (Elt F) → (⟨S2000000, .i32⟩ : BufTy).Contents (Elt F)),
    StableHlo.ternary main_v30 main_v32 main_v28 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v33 main_v34 (broadcastInDim S2000000x1 ![0] bcast_S2000000_S2000000x1_0 : (⟨S2000000, .i32⟩ : BufTy).Contents (Elt F) → (⟨S2000000x1, .i32⟩ : BufTy).Contents (Elt F)),
    StableHlo.binary main_v0 main_v34 main_v35 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v36 ((extractStridedSlice S1x2000000 ![1, 0] · slices_S5x2000000_S1x2000000_1_0) : (⟨S5x2000000, .f32⟩ : BufTy).Contents (Elt F) → (⟨S1x2000000, .f32⟩ : BufTy).Contents (Elt F)),
    StableHlo.reshape main_v36 main_v37 rfl shapeCasts_S1x2000000_S2000000,
    StableHlo.unary main_v37 main_v38 (broadcastInDim S2000000x1 ![0] bcast_S2000000_S2000000x1_0 : (⟨S2000000, .f32⟩ : BufTy).Contents (Elt F) → (⟨S2000000x1, .f32⟩ : BufTy).Contents (Elt F)),
    StableHlo.unary main_v38 main_v39 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v35 main_v39 main_v40 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v41 ((extractStridedSlice S1x2000000 ![1, 0] · slices_S5x2000000_S1x2000000_1_0) : (⟨S5x2000000, .i32⟩ : BufTy).Contents (Elt F) → (⟨S1x2000000, .i32⟩ : BufTy).Contents (Elt F)),
    StableHlo.reshape main_v41 main_v42 rfl shapeCasts_S1x2000000_S2000000,
    StableHlo.nullary main_cst_3 (constant S_ .f32 0x00000000#32),
    StableHlo.unary main_cst_3 main_v43 (broadcastInDim S150000x64 ![] bcast_S_S150000x64 : (⟨S_, .f32⟩ : BufTy).Contents (Elt F) → (⟨S150000x64, .f32⟩ : BufTy).Contents (Elt F)),
    StableHlo.unary main_v42 main_v44 (broadcastInDim S2000000x1 ![0] bcast_S2000000_S2000000x1_0 : (⟨S2000000, .i32⟩ : BufTy).Contents (Elt F) → (⟨S2000000x1, .i32⟩ : BufTy).Contents (Elt F)),
    StableHlo.ternary main_v43 main_v44 main_v40 main_v45 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v46 ((extractStridedSlice S1x64x64 ![1, 0, 0] · slices_S5x64x64_S1x64x64_1_0_0) : (⟨S5x64x64, .f32⟩ : BufTy).Contents (Elt F) → (⟨S1x64x64, .f32⟩ : BufTy).Contents (Elt F)),
    StableHlo.reshape main_v46 main_v47 rfl shapeCasts_S1x64x64_S64x64,
    StableHlo.binary main_v45 main_v47 main_v48 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v49 ((extractStridedSlice S1x1x64 ![1, 0, 0] · slices_S5x1x64_S1x1x64_1_0_0) : (⟨S5x1x64, .f32⟩ : BufTy).Contents (Elt F) → (⟨S1x1x64, .f32⟩ : BufTy).Contents (Elt F)),
    StableHlo.reshape main_v49 main_v50 rfl shapeCasts_S1x1x64_S1x64,
    StableHlo.unary main_v50 main_v51 (broadcastInDim S150000x64 ![0, 1] bcast_S1x64_S150000x64_0_1 : (⟨S1x64, .f32⟩ : BufTy).Contents (Elt F) → (⟨S150000x64, .f32⟩ : BufTy).Contents (Elt F)),
    StableHlo.binary main_v48 main_v51 main_v52 (addf : (⟨S150000x64, .f32⟩ : BufTy).Contents (Elt F) → (⟨S150000x64, .f32⟩ : BufTy).Contents (Elt F) → (⟨S150000x64, .f32⟩ : BufTy).Contents (Elt F)) ]

/-- Relation 2, likewise. -/
abbrev segR2 : List (HloOp τ sig (Elt F)) :=
  [ StableHlo.unary main_arg3 main_v53 ((extractStridedSlice S1x2000000 ![2, 0] · slices_S5x2000000_S1x2000000_2_0) : (⟨S5x2000000, .i32⟩ : BufTy).Contents (Elt F) → (⟨S1x2000000, .i32⟩ : BufTy).Contents (Elt F)),
    StableHlo.reshape main_v53 main_v54 rfl shapeCasts_S1x2000000_S2000000,
    StableHlo.nullary main_c_4 (constantI S_ 32 0#32),
    StableHlo.unary main_c_4 main_v55 (broadcastInDim S2000000 ![] bcast_S_S2000000 : (⟨S_, .i32⟩ : BufTy).Contents (Elt F) → (⟨S2000000, .i32⟩ : BufTy).Contents (Elt F)),
    StableHlo.binary main_v54 main_v55 main_v56 (cmpi .slt : (⟨S2000000, .i32⟩ : BufTy).Contents (Elt F) → (⟨S2000000, .i32⟩ : BufTy).Contents (Elt F) → (⟨S2000000, .i1⟩ : BufTy).Contents (Elt F)),
    StableHlo.nullary main_c_5 (constantI S_ 32 150000#32),
    StableHlo.unary main_c_5 main_v57 (broadcastInDim S2000000 ![] bcast_S_S2000000 : (⟨S_, .i32⟩ : BufTy).Contents (Elt F) → (⟨S2000000, .i32⟩ : BufTy).Contents (Elt F)),
    StableHlo.binary main_v54 main_v57 main_v58 (addi : (⟨S2000000, .i32⟩ : BufTy).Contents (Elt F) → (⟨S2000000, .i32⟩ : BufTy).Contents (Elt F) → (⟨S2000000, .i32⟩ : BufTy).Contents (Elt F)),
    StableHlo.ternary main_v56 main_v58 main_v54 main_v59 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v59 main_v60 (broadcastInDim S2000000x1 ![0] bcast_S2000000_S2000000x1_0 : (⟨S2000000, .i32⟩ : BufTy).Contents (Elt F) → (⟨S2000000x1, .i32⟩ : BufTy).Contents (Elt F)),
    StableHlo.binary main_v0 main_v60 main_v61 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v62 ((extractStridedSlice S1x2000000 ![2, 0] · slices_S5x2000000_S1x2000000_2_0) : (⟨S5x2000000, .f32⟩ : BufTy).Contents (Elt F) → (⟨S1x2000000, .f32⟩ : BufTy).Contents (Elt F)),
    StableHlo.reshape main_v62 main_v63 rfl shapeCasts_S1x2000000_S2000000,
    StableHlo.unary main_v63 main_v64 (broadcastInDim S2000000x1 ![0] bcast_S2000000_S2000000x1_0 : (⟨S2000000, .f32⟩ : BufTy).Contents (Elt F) → (⟨S2000000x1, .f32⟩ : BufTy).Contents (Elt F)),
    StableHlo.unary main_v64 main_v65 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v61 main_v65 main_v66 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v67 ((extractStridedSlice S1x2000000 ![2, 0] · slices_S5x2000000_S1x2000000_2_0) : (⟨S5x2000000, .i32⟩ : BufTy).Contents (Elt F) → (⟨S1x2000000, .i32⟩ : BufTy).Contents (Elt F)),
    StableHlo.reshape main_v67 main_v68 rfl shapeCasts_S1x2000000_S2000000,
    StableHlo.nullary main_cst_6 (constant S_ .f32 0x00000000#32),
    StableHlo.unary main_cst_6 main_v69 (broadcastInDim S150000x64 ![] bcast_S_S150000x64 : (⟨S_, .f32⟩ : BufTy).Contents (Elt F) → (⟨S150000x64, .f32⟩ : BufTy).Contents (Elt F)),
    StableHlo.unary main_v68 main_v70 (broadcastInDim S2000000x1 ![0] bcast_S2000000_S2000000x1_0 : (⟨S2000000, .i32⟩ : BufTy).Contents (Elt F) → (⟨S2000000x1, .i32⟩ : BufTy).Contents (Elt F)),
    StableHlo.ternary main_v69 main_v70 main_v66 main_v71 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v72 ((extractStridedSlice S1x64x64 ![2, 0, 0] · slices_S5x64x64_S1x64x64_2_0_0) : (⟨S5x64x64, .f32⟩ : BufTy).Contents (Elt F) → (⟨S1x64x64, .f32⟩ : BufTy).Contents (Elt F)),
    StableHlo.reshape main_v72 main_v73 rfl shapeCasts_S1x64x64_S64x64,
    StableHlo.binary main_v71 main_v73 main_v74 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v75 ((extractStridedSlice S1x1x64 ![2, 0, 0] · slices_S5x1x64_S1x1x64_2_0_0) : (⟨S5x1x64, .f32⟩ : BufTy).Contents (Elt F) → (⟨S1x1x64, .f32⟩ : BufTy).Contents (Elt F)),
    StableHlo.reshape main_v75 main_v76 rfl shapeCasts_S1x1x64_S1x64,
    StableHlo.unary main_v76 main_v77 (broadcastInDim S150000x64 ![0, 1] bcast_S1x64_S150000x64_0_1 : (⟨S1x64, .f32⟩ : BufTy).Contents (Elt F) → (⟨S150000x64, .f32⟩ : BufTy).Contents (Elt F)),
    StableHlo.binary main_v74 main_v77 main_v78 (addf : (⟨S150000x64, .f32⟩ : BufTy).Contents (Elt F) → (⟨S150000x64, .f32⟩ : BufTy).Contents (Elt F) → (⟨S150000x64, .f32⟩ : BufTy).Contents (Elt F)) ]

/-- Relation 3, likewise. -/
abbrev segR3 : List (HloOp τ sig (Elt F)) :=
  [ StableHlo.unary main_arg3 main_v79 ((extractStridedSlice S1x2000000 ![3, 0] · slices_S5x2000000_S1x2000000_3_0) : (⟨S5x2000000, .i32⟩ : BufTy).Contents (Elt F) → (⟨S1x2000000, .i32⟩ : BufTy).Contents (Elt F)),
    StableHlo.reshape main_v79 main_v80 rfl shapeCasts_S1x2000000_S2000000,
    StableHlo.nullary main_c_7 (constantI S_ 32 0#32),
    StableHlo.unary main_c_7 main_v81 (broadcastInDim S2000000 ![] bcast_S_S2000000 : (⟨S_, .i32⟩ : BufTy).Contents (Elt F) → (⟨S2000000, .i32⟩ : BufTy).Contents (Elt F)),
    StableHlo.binary main_v80 main_v81 main_v82 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 150000#32),
    StableHlo.unary main_c_8 main_v83 (broadcastInDim S2000000 ![] bcast_S_S2000000 : (⟨S_, .i32⟩ : BufTy).Contents (Elt F) → (⟨S2000000, .i32⟩ : BufTy).Contents (Elt F)),
    StableHlo.binary main_v80 main_v83 main_v84 (addi : (⟨S2000000, .i32⟩ : BufTy).Contents (Elt F) → (⟨S2000000, .i32⟩ : BufTy).Contents (Elt F) → (⟨S2000000, .i32⟩ : BufTy).Contents (Elt F)),
    StableHlo.ternary main_v82 main_v84 main_v80 main_v85 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v85 main_v86 (broadcastInDim S2000000x1 ![0] bcast_S2000000_S2000000x1_0 : (⟨S2000000, .i32⟩ : BufTy).Contents (Elt F) → (⟨S2000000x1, .i32⟩ : BufTy).Contents (Elt F)),
    StableHlo.binary main_v0 main_v86 main_v87 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v88 ((extractStridedSlice S1x2000000 ![3, 0] · slices_S5x2000000_S1x2000000_3_0) : (⟨S5x2000000, .f32⟩ : BufTy).Contents (Elt F) → (⟨S1x2000000, .f32⟩ : BufTy).Contents (Elt F)),
    StableHlo.reshape main_v88 main_v89 rfl shapeCasts_S1x2000000_S2000000,
    StableHlo.unary main_v89 main_v90 (broadcastInDim S2000000x1 ![0] bcast_S2000000_S2000000x1_0 : (⟨S2000000, .f32⟩ : BufTy).Contents (Elt F) → (⟨S2000000x1, .f32⟩ : BufTy).Contents (Elt F)),
    StableHlo.unary main_v90 main_v91 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v87 main_v91 main_v92 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v93 ((extractStridedSlice S1x2000000 ![3, 0] · slices_S5x2000000_S1x2000000_3_0) : (⟨S5x2000000, .i32⟩ : BufTy).Contents (Elt F) → (⟨S1x2000000, .i32⟩ : BufTy).Contents (Elt F)),
    StableHlo.reshape main_v93 main_v94 rfl shapeCasts_S1x2000000_S2000000,
    StableHlo.nullary main_cst_9 (constant S_ .f32 0x00000000#32),
    StableHlo.unary main_cst_9 main_v95 (broadcastInDim S150000x64 ![] bcast_S_S150000x64 : (⟨S_, .f32⟩ : BufTy).Contents (Elt F) → (⟨S150000x64, .f32⟩ : BufTy).Contents (Elt F)),
    StableHlo.unary main_v94 main_v96 (broadcastInDim S2000000x1 ![0] bcast_S2000000_S2000000x1_0 : (⟨S2000000, .i32⟩ : BufTy).Contents (Elt F) → (⟨S2000000x1, .i32⟩ : BufTy).Contents (Elt F)),
    StableHlo.ternary main_v95 main_v96 main_v92 main_v97 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v98 ((extractStridedSlice S1x64x64 ![3, 0, 0] · slices_S5x64x64_S1x64x64_3_0_0) : (⟨S5x64x64, .f32⟩ : BufTy).Contents (Elt F) → (⟨S1x64x64, .f32⟩ : BufTy).Contents (Elt F)),
    StableHlo.reshape main_v98 main_v99 rfl shapeCasts_S1x64x64_S64x64,
    StableHlo.binary main_v97 main_v99 main_v100 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v101 ((extractStridedSlice S1x1x64 ![3, 0, 0] · slices_S5x1x64_S1x1x64_3_0_0) : (⟨S5x1x64, .f32⟩ : BufTy).Contents (Elt F) → (⟨S1x1x64, .f32⟩ : BufTy).Contents (Elt F)),
    StableHlo.reshape main_v101 main_v102 rfl shapeCasts_S1x1x64_S1x64,
    StableHlo.unary main_v102 main_v103 (broadcastInDim S150000x64 ![0, 1] bcast_S1x64_S150000x64_0_1 : (⟨S1x64, .f32⟩ : BufTy).Contents (Elt F) → (⟨S150000x64, .f32⟩ : BufTy).Contents (Elt F)),
    StableHlo.binary main_v100 main_v103 main_v104 (addf : (⟨S150000x64, .f32⟩ : BufTy).Contents (Elt F) → (⟨S150000x64, .f32⟩ : BufTy).Contents (Elt F) → (⟨S150000x64, .f32⟩ : BufTy).Contents (Elt F)) ]

/-- Relation 4, likewise. -/
abbrev segR4 : List (HloOp τ sig (Elt F)) :=
  [ StableHlo.unary main_arg3 main_v105 ((extractStridedSlice S1x2000000 ![4, 0] · slices_S5x2000000_S1x2000000_4_0) : (⟨S5x2000000, .i32⟩ : BufTy).Contents (Elt F) → (⟨S1x2000000, .i32⟩ : BufTy).Contents (Elt F)),
    StableHlo.reshape main_v105 main_v106 rfl shapeCasts_S1x2000000_S2000000,
    StableHlo.nullary main_c_10 (constantI S_ 32 0#32),
    StableHlo.unary main_c_10 main_v107 (broadcastInDim S2000000 ![] bcast_S_S2000000 : (⟨S_, .i32⟩ : BufTy).Contents (Elt F) → (⟨S2000000, .i32⟩ : BufTy).Contents (Elt F)),
    StableHlo.binary main_v106 main_v107 main_v108 (cmpi .slt : (⟨S2000000, .i32⟩ : BufTy).Contents (Elt F) → (⟨S2000000, .i32⟩ : BufTy).Contents (Elt F) → (⟨S2000000, .i1⟩ : BufTy).Contents (Elt F)),
    StableHlo.nullary main_c_11 (constantI S_ 32 150000#32),
    StableHlo.unary main_c_11 main_v109 (broadcastInDim S2000000 ![] bcast_S_S2000000 : (⟨S_, .i32⟩ : BufTy).Contents (Elt F) → (⟨S2000000, .i32⟩ : BufTy).Contents (Elt F)),
    StableHlo.binary main_v106 main_v109 main_v110 (addi : (⟨S2000000, .i32⟩ : BufTy).Contents (Elt F) → (⟨S2000000, .i32⟩ : BufTy).Contents (Elt F) → (⟨S2000000, .i32⟩ : BufTy).Contents (Elt F)),
    StableHlo.ternary main_v108 main_v110 main_v106 main_v111 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v111 main_v112 (broadcastInDim S2000000x1 ![0] bcast_S2000000_S2000000x1_0 : (⟨S2000000, .i32⟩ : BufTy).Contents (Elt F) → (⟨S2000000x1, .i32⟩ : BufTy).Contents (Elt F)),
    StableHlo.binary main_v0 main_v112 main_v113 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    StableHlo.unary main_arg4 main_v114 ((extractStridedSlice S1x2000000 ![4, 0] · slices_S5x2000000_S1x2000000_4_0) : (⟨S5x2000000, .f32⟩ : BufTy).Contents (Elt F) → (⟨S1x2000000, .f32⟩ : BufTy).Contents (Elt F)),
    StableHlo.reshape main_v114 main_v115 rfl shapeCasts_S1x2000000_S2000000,
    StableHlo.unary main_v115 main_v116 (broadcastInDim S2000000x1 ![0] bcast_S2000000_S2000000x1_0 : (⟨S2000000, .f32⟩ : BufTy).Contents (Elt F) → (⟨S2000000x1, .f32⟩ : BufTy).Contents (Elt F)),
    StableHlo.unary main_v116 main_v117 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v113 main_v117 main_v118 (mulf : (⟨S2000000x64, .f32⟩ : BufTy).Contents (Elt F) → (⟨S2000000x64, .f32⟩ : BufTy).Contents (Elt F) → (⟨S2000000x64, .f32⟩ : BufTy).Contents (Elt F)),
    StableHlo.unary main_arg2 main_v119 ((extractStridedSlice S1x2000000 ![4, 0] · slices_S5x2000000_S1x2000000_4_0) : (⟨S5x2000000, .i32⟩ : BufTy).Contents (Elt F) → (⟨S1x2000000, .i32⟩ : BufTy).Contents (Elt F)),
    StableHlo.reshape main_v119 main_v120 rfl shapeCasts_S1x2000000_S2000000,
    StableHlo.nullary main_cst_12 (constant S_ .f32 0x00000000#32),
    StableHlo.unary main_cst_12 main_v121 (broadcastInDim S150000x64 ![] bcast_S_S150000x64 : (⟨S_, .f32⟩ : BufTy).Contents (Elt F) → (⟨S150000x64, .f32⟩ : BufTy).Contents (Elt F)),
    StableHlo.unary main_v120 main_v122 (broadcastInDim S2000000x1 ![0] bcast_S2000000_S2000000x1_0 : (⟨S2000000, .i32⟩ : BufTy).Contents (Elt F) → (⟨S2000000x1, .i32⟩ : BufTy).Contents (Elt F)),
    StableHlo.ternary main_v121 main_v122 main_v118 main_v123 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    StableHlo.unary main_arg7 main_v124 ((extractStridedSlice S1x64x64 ![4, 0, 0] · slices_S5x64x64_S1x64x64_4_0_0) : (⟨S5x64x64, .f32⟩ : BufTy).Contents (Elt F) → (⟨S1x64x64, .f32⟩ : BufTy).Contents (Elt F)),
    StableHlo.reshape main_v124 main_v125 rfl shapeCasts_S1x64x64_S64x64,
    StableHlo.binary main_v123 main_v125 main_v126 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    StableHlo.unary main_arg8 main_v127 ((extractStridedSlice S1x1x64 ![4, 0, 0] · slices_S5x1x64_S1x1x64_4_0_0) : (⟨S5x1x64, .f32⟩ : BufTy).Contents (Elt F) → (⟨S1x1x64, .f32⟩ : BufTy).Contents (Elt F)),
    StableHlo.reshape main_v127 main_v128 rfl shapeCasts_S1x1x64_S1x64,
    StableHlo.unary main_v128 main_v129 (broadcastInDim S150000x64 ![0, 1] bcast_S1x64_S150000x64_0_1 : (⟨S1x64, .f32⟩ : BufTy).Contents (Elt F) → (⟨S150000x64, .f32⟩ : BufTy).Contents (Elt F)),
    StableHlo.binary main_v126 main_v129 main_v130 (addf : (⟨S150000x64, .f32⟩ : BufTy).Contents (Elt F) → (⟨S150000x64, .f32⟩ : BufTy).Contents (Elt F) → (⟨S150000x64, .f32⟩ : BufTy).Contents (Elt F)) ]

/-- The five hidden matrices side by side, the leaky rectifier, the affine map, the two row gathers and the row sums of products. -/
abbrev segTail : List (HloOp τ sig (Elt F)) :=
  [ StableHlo.nary ![main_v26, main_v52, main_v78, main_v104, main_v130] main_v131 (fun u => concatenate S150000x320 1 [⟨S150000x64, u 0⟩, ⟨S150000x64, u 1⟩, ⟨S150000x64, u 2⟩, ⟨S150000x64, u 3⟩, ⟨S150000x64, u 4⟩] concatenates_S150000x64_S150000x64_S150000x64_S150000x64_S150000x64_S150000x320_d1),
    StableHlo.nullary main_cst_13 (constant S_ .f32 0x3E4CCCCD#32),
    StableHlo.TRef.nullary main_call0.cst (constant S_ .f32 0x00000000#32),
    StableHlo.TRef.unary main_call0.cst main_call0.v0 (broadcastInDim S150000x320 ![] bcast_S_S150000x320),
    StableHlo.TRef.binary (.of main_v131) main_call0.v0 main_call0.v1 (cmpf .oge),
    StableHlo.TRef.unary (.of main_cst_13) main_call0.v2 id,
    StableHlo.TRef.unary main_call0.v2 main_call0.v3 (broadcastInDim S150000x320 ![] bcast_S_S150000x320),
    StableHlo.TRef.binary main_call0.v3 (.of main_v131) main_call0.v4 mulf,
    StableHlo.TRef.ternary main_call0.v1 (.of main_v131) main_call0.v4 main_call0.call0.v0 select,
    StableHlo.binary main_v132 main_arg9 main_v133 ((fun l r => Host.dotGeneral dot_S150000x320_S320x64_S150000x64_1_0_0_1_n_n none l r) : (⟨S150000x320, .f32⟩ : BufTy).Contents (Elt F) → (⟨S320x64, .f32⟩ : BufTy).Contents (Elt F) → (⟨S150000x64, .f32⟩ : BufTy).Contents (Elt F)),
    StableHlo.unary main_arg10 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S150000x64 ![0, 1] bcast_S1x64_S150000x64_0_1 : (⟨S1x64, .f32⟩ : BufTy).Contents (Elt F) → (⟨S150000x64, .f32⟩ : BufTy).Contents (Elt F)),
    StableHlo.binary main_v133 main_v135 main_v136 (addf : (⟨S150000x64, .f32⟩ : BufTy).Contents (Elt F) → (⟨S150000x64, .f32⟩ : BufTy).Contents (Elt F) → (⟨S150000x64, .f32⟩ : BufTy).Contents (Elt F)),
    StableHlo.nullary main_c_14 (constantI S_ 32 0#32),
    StableHlo.unary main_c_14 main_v137 (broadcastInDim S16384 ![] bcast_S_S16384 : (⟨S_, .i32⟩ : BufTy).Contents (Elt F) → (⟨S16384, .i32⟩ : BufTy).Contents (Elt F)),
    StableHlo.binary main_arg0 main_v137 main_v138 (cmpi .slt : (⟨S16384, .i32⟩ : BufTy).Contents (Elt F) → (⟨S16384, .i32⟩ : BufTy).Contents (Elt F) → (⟨S16384, .i1⟩ : BufTy).Contents (Elt F)),
    StableHlo.nullary main_c_15 (constantI S_ 32 150000#32),
    StableHlo.unary main_c_15 main_v139 (broadcastInDim S16384 ![] bcast_S_S16384 : (⟨S_, .i32⟩ : BufTy).Contents (Elt F) → (⟨S16384, .i32⟩ : BufTy).Contents (Elt F)),
    StableHlo.binary main_arg0 main_v139 main_v140 (addi : (⟨S16384, .i32⟩ : BufTy).Contents (Elt F) → (⟨S16384, .i32⟩ : BufTy).Contents (Elt F) → (⟨S16384, .i32⟩ : BufTy).Contents (Elt F)),
    StableHlo.ternary main_v138 main_v140 main_arg0 main_v141 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v141 main_v142 (broadcastInDim S16384x1 ![0] bcast_S16384_S16384x1_0 : (⟨S16384, .i32⟩ : BufTy).Contents (Elt F) → (⟨S16384x1, .i32⟩ : BufTy).Contents (Elt F)),
    StableHlo.binary main_v136 main_v142 main_v143 ((fun x i => Host.gather gather_S150000x64_S16384x1_S16384x64_1_0_n_n_0_1_164 x i) : (⟨S150000x64, .f32⟩ : BufTy).Contents (Elt F) → (⟨S16384x1, .i32⟩ : BufTy).Contents (Elt F) → (⟨S16384x64, .f32⟩ : BufTy).Contents (Elt F)),
    StableHlo.nullary main_c_16 (constantI S_ 32 100000#32),
    StableHlo.unary main_c_16 main_v144 (broadcastInDim S16384 ![] bcast_S_S16384 : (⟨S_, .i32⟩ : BufTy).Contents (Elt F) → (⟨S16384, .i32⟩ : BufTy).Contents (Elt F)),
    StableHlo.binary main_v144 main_arg1 main_v145 (addi : (⟨S16384, .i32⟩ : BufTy).Contents (Elt F) → (⟨S16384, .i32⟩ : BufTy).Contents (Elt F) → (⟨S16384, .i32⟩ : BufTy).Contents (Elt F)),
    StableHlo.nullary main_c_17 (constantI S_ 32 0#32),
    StableHlo.unary main_c_17 main_v146 (broadcastInDim S16384 ![] bcast_S_S16384 : (⟨S_, .i32⟩ : BufTy).Contents (Elt F) → (⟨S16384, .i32⟩ : BufTy).Contents (Elt F)),
    StableHlo.binary main_v145 main_v146 main_v147 (cmpi .slt : (⟨S16384, .i32⟩ : BufTy).Contents (Elt F) → (⟨S16384, .i32⟩ : BufTy).Contents (Elt F) → (⟨S16384, .i1⟩ : BufTy).Contents (Elt F)),
    StableHlo.nullary main_c_18 (constantI S_ 32 150000#32),
    StableHlo.unary main_c_18 main_v148 (broadcastInDim S16384 ![] bcast_S_S16384 : (⟨S_, .i32⟩ : BufTy).Contents (Elt F) → (⟨S16384, .i32⟩ : BufTy).Contents (Elt F)),
    StableHlo.binary main_v145 main_v148 main_v149 (addi : (⟨S16384, .i32⟩ : BufTy).Contents (Elt F) → (⟨S16384, .i32⟩ : BufTy).Contents (Elt F) → (⟨S16384, .i32⟩ : BufTy).Contents (Elt F)),
    StableHlo.ternary main_v147 main_v149 main_v145 main_v150 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v150 main_v151 (broadcastInDim S16384x1 ![0] bcast_S16384_S16384x1_0 : (⟨S16384, .i32⟩ : BufTy).Contents (Elt F) → (⟨S16384x1, .i32⟩ : BufTy).Contents (Elt F)),
    StableHlo.binary main_v136 main_v151 main_v152 ((fun x i => Host.gather gather_S150000x64_S16384x1_S16384x64_1_0_n_n_0_1_164 x i) : (⟨S150000x64, .f32⟩ : BufTy).Contents (Elt F) → (⟨S16384x1, .i32⟩ : BufTy).Contents (Elt F) → (⟨S16384x64, .f32⟩ : BufTy).Contents (Elt F)),
    StableHlo.binary main_v143 main_v152 main_v153 (mulf : (⟨S16384x64, .f32⟩ : BufTy).Contents (Elt F) → (⟨S16384x64, .f32⟩ : BufTy).Contents (Elt F) → (⟨S16384x64, .f32⟩ : BufTy).Contents (Elt F)),
    StableHlo.nullary main_cst_19 (constant S_ .f32 0x00000000#32),
    StableHlo.binary main_v153 main_cst_19 main_v154 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)) ]

set_option maxRecDepth 16384 in
/-- The three windows laid end to end are the seven stretches laid end to end. -/
theorem ops_cut : (ops : List (HloOp τ sig (Elt F))) = segT ++ (segR0 ++ (segR1 ++ (segR2 ++ (segR3 ++ (segR4 ++ segTail))))) := rfl

/-- The buffers that `segT`'s operations write. -/
abbrev segT_W : List (Ref sig .tc) := [main_v0]
set_option maxRecDepth 8192 in
theorem segT_writes : (segT : List (HloOp τ sig (Elt F))).Forall fun op => op.writes ⊆ (segT_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that `segT` does not write keeps its contents through it. -/
theorem segT_keep (V : Valuation τ sig (Elt F)) (r : Ref sig .tc) (h : r ∉ segT_W) :
    after segT V (Proc.devRef .tc r) = V (Proc.devRef .tc r) :=
  after_of_writes_sub segT V segT_writes h

/-- The buffers that `segR0`'s operations write. -/
abbrev segR0_W : List (Ref sig .tc) := [main_v1, main_v2, main_c, main_v3, main_v4, main_c_0, main_v5, main_v6, main_v7, main_v8, main_v9, main_v10, main_v11, main_v12, main_v13, main_v14, main_v15, main_v16, main_cst, main_v17, main_v18, main_v19, main_v20, main_v21, main_v22, main_v23, main_v24, main_v25, main_v26]
set_option maxRecDepth 8192 in
theorem segR0_writes : (segR0 : List (HloOp τ sig (Elt F))).Forall fun op => op.writes ⊆ (segR0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segR0` does not write keeps its contents through it. -/
theorem segR0_keep (V : Valuation τ sig (Elt F)) (r : Ref sig .tc) (h : r ∉ segR0_W) :
    after segR0 V (Proc.devRef .tc r) = V (Proc.devRef .tc r) :=
  after_of_writes_sub segR0 V segR0_writes h

/-- The buffers that `segR1`'s operations write. -/
abbrev segR1_W : List (Ref sig .tc) := [main_v27, main_v28, main_c_1, main_v29, main_v30, main_c_2, main_v31, main_v32, main_v33, main_v34, main_v35, main_v36, main_v37, main_v38, main_v39, main_v40, main_v41, main_v42, main_cst_3, main_v43, main_v44, main_v45, main_v46, main_v47, main_v48, main_v49, main_v50, main_v51, main_v52]
set_option maxRecDepth 8192 in
theorem segR1_writes : (segR1 : List (HloOp τ sig (Elt F))).Forall fun op => op.writes ⊆ (segR1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segR1` does not write keeps its contents through it. -/
theorem segR1_keep (V : Valuation τ sig (Elt F)) (r : Ref sig .tc) (h : r ∉ segR1_W) :
    after segR1 V (Proc.devRef .tc r) = V (Proc.devRef .tc r) :=
  after_of_writes_sub segR1 V segR1_writes h

/-- The buffers that `segR2`'s operations write. -/
abbrev segR2_W : List (Ref sig .tc) := [main_v53, main_v54, main_c_4, main_v55, main_v56, main_c_5, main_v57, main_v58, main_v59, main_v60, main_v61, main_v62, main_v63, main_v64, main_v65, main_v66, main_v67, main_v68, main_cst_6, main_v69, main_v70, main_v71, main_v72, main_v73, main_v74, main_v75, main_v76, main_v77, main_v78]
set_option maxRecDepth 8192 in
theorem segR2_writes : (segR2 : List (HloOp τ sig (Elt F))).Forall fun op => op.writes ⊆ (segR2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segR2` does not write keeps its contents through it. -/
theorem segR2_keep (V : Valuation τ sig (Elt F)) (r : Ref sig .tc) (h : r ∉ segR2_W) :
    after segR2 V (Proc.devRef .tc r) = V (Proc.devRef .tc r) :=
  after_of_writes_sub segR2 V segR2_writes h

/-- The buffers that `segR3`'s operations write. -/
abbrev segR3_W : List (Ref sig .tc) := [main_v79, main_v80, main_c_7, main_v81, main_v82, main_c_8, main_v83, main_v84, main_v85, main_v86, main_v87, main_v88, main_v89, main_v90, main_v91, main_v92, main_v93, main_v94, main_cst_9, main_v95, main_v96, main_v97, main_v98, main_v99, main_v100, main_v101, main_v102, main_v103, main_v104]
set_option maxRecDepth 8192 in
theorem segR3_writes : (segR3 : List (HloOp τ sig (Elt F))).Forall fun op => op.writes ⊆ (segR3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segR3` does not write keeps its contents through it. -/
theorem segR3_keep (V : Valuation τ sig (Elt F)) (r : Ref sig .tc) (h : r ∉ segR3_W) :
    after segR3 V (Proc.devRef .tc r) = V (Proc.devRef .tc r) :=
  after_of_writes_sub segR3 V segR3_writes h

/-- The buffers that `segR4`'s operations write. -/
abbrev segR4_W : List (Ref sig .tc) := [main_v105, main_v106, main_c_10, main_v107, main_v108, main_c_11, main_v109, main_v110, main_v111, main_v112, main_v113, main_v114, main_v115, main_v116, main_v117, main_v118, main_v119, main_v120, main_cst_12, main_v121, main_v122, main_v123, main_v124, main_v125, main_v126, main_v127, main_v128, main_v129, main_v130]
set_option maxRecDepth 8192 in
theorem segR4_writes : (segR4 : List (HloOp τ sig (Elt F))).Forall fun op => op.writes ⊆ (segR4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segR4` does not write keeps its contents through it. -/
theorem segR4_keep (V : Valuation τ sig (Elt F)) (r : Ref sig .tc) (h : r ∉ segR4_W) :
    after segR4 V (Proc.devRef .tc r) = V (Proc.devRef .tc r) :=
  after_of_writes_sub segR4 V segR4_writes h

/-- The buffers that `segTail`'s operations write. -/
abbrev segTail_W : List (Ref sig .tc) := [main_v131, main_cst_13, main_call0_cst, main_call0_v0, main_call0_v1, main_call0_v2, main_call0_v3, main_call0_v4, main_v132, main_v133, main_v134, main_v135, main_v136, main_c_14, main_v137, main_v138, main_c_15, main_v139, main_v140, main_v141, main_v142, main_v143, main_c_16, main_v144, main_v145, main_c_17, main_v146, main_v147, main_c_18, main_v148, main_v149, main_v150, main_v151, main_v152, main_v153, main_cst_19, main_v154]
set_option maxRecDepth 8192 in
theorem segTail_writes : (segTail : List (HloOp τ sig (Elt F))).Forall fun op => op.writes ⊆ (segTail_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that `segTail` does not write keeps its contents through it. -/
theorem segTail_keep (V : Valuation τ sig (Elt F)) (r : Ref sig .tc) (h : r ∉ segTail_W) :
    after segTail V (Proc.devRef .tc r) = V (Proc.devRef .tc r) :=
  after_of_writes_sub segTail V segTail_writes h

end Cert.ReferenceIdeal.RefRun

end
-- ==== Proof.RefRunRel.lean ====
/-
  What the node-table stretch and each relation's stretch leave in the one buffer later stretches read, as the
  stage functions of the contents before the stretch: reading the fold back operation by operation gives the
  operations' composed term, which is the stage function's body.
-/
import proofs.«118015_j56899726737489_1_alg».proof.Proof.RefRunSegs

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The node table is the users' rows followed by the items' rows. -/
theorem segT_v0 (V : Valuation τ sig (Elt F)) :
    after segT V (Proc.devRef .tc main_v0) = Stages.table (V (Proc.devRef .tc main_arg5)) (V (Proc.devRef .tc main_arg6)) := by
  simp only [segT]
  after_results_simp
  all_goals rfl

set_option maxRecDepth 8192 in
set_option maxHeartbeats 1000000 in
/-- Relation 0's hidden matrix, from the table and the arguments. -/
theorem segR0_out (V : Valuation τ sig (Elt F)) :
    after segR0 V (Proc.devRef .tc main_v26)
      = Stages.hidden0 (Stages.aggregate0 (V (Proc.devRef .tc main_arg2)) (V (Proc.devRef .tc main_arg3)) (V (Proc.devRef .tc main_arg4)) (V (Proc.devRef .tc main_v0)))
          (V (Proc.devRef .tc main_arg7)) (V (Proc.devRef .tc main_arg8)) := by
  simp only [segR0]
  after_results_simp
  all_goals rfl

set_option maxRecDepth 8192 in
set_option maxHeartbeats 1000000 in
/-- Relation 1's hidden matrix, from the table and the arguments. -/
theorem segR1_out (V : Valuation τ sig (Elt F)) :
    after segR1 V (Proc.devRef .tc main_v52)
      = Stages.hidden1 (Stages.aggregate1 (V (Proc.devRef .tc main_arg2)) (V (Proc.devRef .tc main_arg3)) (V (Proc.devRef .tc main_arg4)) (V (Proc.devRef .tc main_v0)))
          (V (Proc.devRef .tc main_arg7)) (V (Proc.devRef .tc main_arg8)) := by
  simp only [segR1]
  after_results_simp
  all_goals rfl

set_option maxRecDepth 8192 in
set_option maxHeartbeats 1000000 in
/-- Relation 2's hidden matrix, from the table and the arguments. -/
theorem segR2_out (V : Valuation τ sig (Elt F)) :
    after segR2 V (Proc.devRef .tc main_v78)
      = Stages.hidden2 (Stages.aggregate2 (V (Proc.devRef .tc main_arg2)) (V (Proc.devRef .tc main_arg3)) (V (Proc.devRef .tc main_arg4)) (V (Proc.devRef .tc main_v0)))
          (V (Proc.devRef .tc main_arg7)) (V (Proc.devRef .tc main_arg8)) := by
  simp only [segR2]
  after_results_simp
  all_goals rfl

set_option maxRecDepth 8192 in
set_option maxHeartbeats 1000000 in
/-- Relation 3's hidden matrix, from the table and the arguments. -/
theorem segR3_out (V : Valuation τ sig (Elt F)) :
    after segR3 V (Proc.devRef .tc main_v104)
      = Stages.hidden3 (Stages.aggregate3 (V (Proc.devRef .tc main_arg2)) (V (Proc.devRef .tc main_arg3)) (V (Proc.devRef .tc main_arg4)) (V (Proc.devRef .tc main_v0)))
          (V (Proc.devRef .tc main_arg7)) (V (Proc.devRef .tc main_arg8)) := by
  simp only [segR3]
  after_results_simp
  all_goals rfl

set_option maxRecDepth 8192 in
set_option maxHeartbeats 1000000 in
/-- Relation 4's hidden matrix, from the table and the arguments. -/
theorem segR4_out (V : Valuation τ sig (Elt F)) :
    after segR4 V (Proc.devRef .tc main_v130)
      = Stages.hidden4 (Stages.aggregate4 (V (Proc.devRef .tc main_arg2)) (V (Proc.devRef .tc main_arg3)) (V (Proc.devRef .tc main_arg4)) (V (Proc.devRef .tc main_v0)))
          (V (Proc.devRef .tc main_arg7)) (V (Proc.devRef .tc main_arg8)) := by
  simp only [segR4]
  after_results_simp
  all_goals rfl

end Cert.ReferenceIdeal.RefRun

end
-- ==== Proof.RefRunTail.lean ====
/-
  What the last stretch leaves in the result buffer: the row sums of products of the two gathered row batches of
  the logits, the logits being the affine map of the leaky rectifier of the five hidden matrices side by side.
-/
import proofs.«118015_j56899726737489_1_alg».proof.Proof.RefRunSegs

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

section FiveOperands

variable {τ' : Topo} {sig' : RefSig} {Val : EltTy → Type} {x a b c e y : Ref sig' .tc}

/-- An operation over a literal family of five operands: its result with each operand's contents at its own
    reference (the family applied to a numeral is that operand). -/
theorem nary5_result
    (f : ((k : Fin 5) → ((![x, a, b, c, e] : Fin 5 → Ref sig' .tc) k).ty.Contents Val) → y.ty.Contents Val) (hxs hy)
    (V : Valuation τ' sig' Val) :
    (nary (τ := τ') ![x, a, b, c, e] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) := by
  rw [nary_result]; congr 1; funext k; fin_cases k <;> rfl

theorem nary5_result'
    (f : ((k : Fin 5) → ((![x, a, b, c, e] : Fin 5 → Ref sig' .tc) k).ty.Contents Val) → y.ty.Contents Val) (hxs hy)
    (V : Valuation τ' sig' Val) :
    (nary (τ := τ') ![x, a, b, c, e] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc e)) (fun i => i.elim0)))))) :=
  nary5_result f hxs hy V

end FiveOperands

set_option maxRecDepth 8192 in
set_option maxHeartbeats 2000000 in
/-- The result: for each pair of gathered logits rows, the sum of their elementwise products. -/
theorem segTail_out (V : Valuation τ sig (Elt F)) :
    after segTail V (Proc.devRef .tc main_v154)
      = Stages.pairScore
          (Stages.rowsAt (Stages.logitsOf (V (Proc.devRef .tc main_v26)) (V (Proc.devRef .tc main_v52)) (V (Proc.devRef .tc main_v78)) (V (Proc.devRef .tc main_v104)) (V (Proc.devRef .tc main_v130)) (V (Proc.devRef .tc main_arg9)) (V (Proc.devRef .tc main_arg10)))
            (Stages.wrappedBatch (V (Proc.devRef .tc main_arg0))))
          (Stages.rowsAt (Stages.logitsOf (V (Proc.devRef .tc main_v26)) (V (Proc.devRef .tc main_v52)) (V (Proc.devRef .tc main_v78)) (V (Proc.devRef .tc main_v104)) (V (Proc.devRef .tc main_v130)) (V (Proc.devRef .tc main_arg9)) (V (Proc.devRef .tc main_arg10)))
            (Stages.wrappedBatch (Stages.shifted (V (Proc.devRef .tc main_arg1))))) := by
  simp only [segTail]
  simp (disch := decide) only [after_cons, after_nil,
    nullary_result', unary_result', binary_result', ternary_result', reshape_result', nary5_result',
    nullary_result_ne', unary_result_ne', binary_result_ne', ternary_result_ne', reshape_result_ne', nary_result_ne']
  all_goals rfl

end Cert.ReferenceIdeal.RefRun

end
-- ==== Proof.RefRun.lean ====
/-
  The reference program's run: every weakly fair execution of @main terminates with the result buffer at
  `Stages.result` of the argument arrays and the arguments unchanged.

  The contents after the whole line are the contents after its seven stretches composed (`after_ops`). An
  argument is written by no stretch, so it keeps its launch contents throughout; the table is written by the
  first stretch and kept by the rest; relation k's hidden matrix is written by its own stretch, from the table
  and the arguments as they stand before it, and kept afterwards; the last stretch reads the five hidden
  matrices and four arguments. Substituting stage by stage gives `Stages.result`'s body.
-/
import proofs.«118015_j56899726737489_1_alg».proof.Proof.RefRunRel
import proofs.«118015_j56899726737489_1_alg».proof.Proof.RefRunTail
import proofs.«118015_j56899726737489_1_alg».proof.Defs
import proofs.«118015_j56899726737489_1_alg».proof.Proof.Gen.ReferenceIdeal
import proofs.«118015_j56899726737489_1_alg».proof.Proof.Gen.Pre_finite_inputs

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The device's buffer contents after the first K stretches. -/
def val1 (V0 : Valuation τ sig (Elt F)) : Valuation τ sig (Elt F) := after segT V0
def val2 (V0 : Valuation τ sig (Elt F)) : Valuation τ sig (Elt F) := after segR0 (val1 V0)
def val3 (V0 : Valuation τ sig (Elt F)) : Valuation τ sig (Elt F) := after segR1 (val2 V0)
def val4 (V0 : Valuation τ sig (Elt F)) : Valuation τ sig (Elt F) := after segR2 (val3 V0)
def val5 (V0 : Valuation τ sig (Elt F)) : Valuation τ sig (Elt F) := after segR3 (val4 V0)
def val6 (V0 : Valuation τ sig (Elt F)) : Valuation τ sig (Elt F) := after segR4 (val5 V0)
def val7 (V0 : Valuation τ sig (Elt F)) : Valuation τ sig (Elt F) := after segTail (val6 V0)

/-- The fold over the whole line is the folds over the stretches, composed. -/
theorem after_ops (V0 : Valuation τ sig (Elt F)) : after ops V0 = val7 V0 := by
  rw [ops_cut]
  simp only [LibFoldAppend.after_append]
  rfl

/-! ### The arguments: written by no stretch -/
theorem val1_main_arg0 (V0 : Valuation τ sig (Elt F)) : val1 V0 (Proc.devRef .tc main_arg0) = V0 (Proc.devRef .tc main_arg0) :=
  segT_keep V0 main_arg0 (by decide)
theorem val1_main_arg1 (V0 : Valuation τ sig (Elt F)) : val1 V0 (Proc.devRef .tc main_arg1) = V0 (Proc.devRef .tc main_arg1) :=
  segT_keep V0 main_arg1 (by decide)
theorem val1_main_arg2 (V0 : Valuation τ sig (Elt F)) : val1 V0 (Proc.devRef .tc main_arg2) = V0 (Proc.devRef .tc main_arg2) :=
  segT_keep V0 main_arg2 (by decide)
theorem val1_main_arg3 (V0 : Valuation τ sig (Elt F)) : val1 V0 (Proc.devRef .tc main_arg3) = V0 (Proc.devRef .tc main_arg3) :=
  segT_keep V0 main_arg3 (by decide)
theorem val1_main_arg4 (V0 : Valuation τ sig (Elt F)) : val1 V0 (Proc.devRef .tc main_arg4) = V0 (Proc.devRef .tc main_arg4) :=
  segT_keep V0 main_arg4 (by decide)
theorem val1_main_arg5 (V0 : Valuation τ sig (Elt F)) : val1 V0 (Proc.devRef .tc main_arg5) = V0 (Proc.devRef .tc main_arg5) :=
  segT_keep V0 main_arg5 (by decide)
theorem val1_main_arg6 (V0 : Valuation τ sig (Elt F)) : val1 V0 (Proc.devRef .tc main_arg6) = V0 (Proc.devRef .tc main_arg6) :=
  segT_keep V0 main_arg6 (by decide)
theorem val1_main_arg7 (V0 : Valuation τ sig (Elt F)) : val1 V0 (Proc.devRef .tc main_arg7) = V0 (Proc.devRef .tc main_arg7) :=
  segT_keep V0 main_arg7 (by decide)
theorem val1_main_arg8 (V0 : Valuation τ sig (Elt F)) : val1 V0 (Proc.devRef .tc main_arg8) = V0 (Proc.devRef .tc main_arg8) :=
  segT_keep V0 main_arg8 (by decide)
theorem val1_main_arg9 (V0 : Valuation τ sig (Elt F)) : val1 V0 (Proc.devRef .tc main_arg9) = V0 (Proc.devRef .tc main_arg9) :=
  segT_keep V0 main_arg9 (by decide)
theorem val1_main_arg10 (V0 : Valuation τ sig (Elt F)) : val1 V0 (Proc.devRef .tc main_arg10) = V0 (Proc.devRef .tc main_arg10) :=
  segT_keep V0 main_arg10 (by decide)
theorem val2_main_arg0 (V0 : Valuation τ sig (Elt F)) : val2 V0 (Proc.devRef .tc main_arg0) = V0 (Proc.devRef .tc main_arg0) :=
  (segR0_keep (val1 V0) main_arg0 (by decide)).trans (val1_main_arg0 V0)
theorem val2_main_arg1 (V0 : Valuation τ sig (Elt F)) : val2 V0 (Proc.devRef .tc main_arg1) = V0 (Proc.devRef .tc main_arg1) :=
  (segR0_keep (val1 V0) main_arg1 (by decide)).trans (val1_main_arg1 V0)
theorem val2_main_arg2 (V0 : Valuation τ sig (Elt F)) : val2 V0 (Proc.devRef .tc main_arg2) = V0 (Proc.devRef .tc main_arg2) :=
  (segR0_keep (val1 V0) main_arg2 (by decide)).trans (val1_main_arg2 V0)
theorem val2_main_arg3 (V0 : Valuation τ sig (Elt F)) : val2 V0 (Proc.devRef .tc main_arg3) = V0 (Proc.devRef .tc main_arg3) :=
  (segR0_keep (val1 V0) main_arg3 (by decide)).trans (val1_main_arg3 V0)
theorem val2_main_arg4 (V0 : Valuation τ sig (Elt F)) : val2 V0 (Proc.devRef .tc main_arg4) = V0 (Proc.devRef .tc main_arg4) :=
  (segR0_keep (val1 V0) main_arg4 (by decide)).trans (val1_main_arg4 V0)
theorem val2_main_arg5 (V0 : Valuation τ sig (Elt F)) : val2 V0 (Proc.devRef .tc main_arg5) = V0 (Proc.devRef .tc main_arg5) :=
  (segR0_keep (val1 V0) main_arg5 (by decide)).trans (val1_main_arg5 V0)
theorem val2_main_arg6 (V0 : Valuation τ sig (Elt F)) : val2 V0 (Proc.devRef .tc main_arg6) = V0 (Proc.devRef .tc main_arg6) :=
  (segR0_keep (val1 V0) main_arg6 (by decide)).trans (val1_main_arg6 V0)
theorem val2_main_arg7 (V0 : Valuation τ sig (Elt F)) : val2 V0 (Proc.devRef .tc main_arg7) = V0 (Proc.devRef .tc main_arg7) :=
  (segR0_keep (val1 V0) main_arg7 (by decide)).trans (val1_main_arg7 V0)
theorem val2_main_arg8 (V0 : Valuation τ sig (Elt F)) : val2 V0 (Proc.devRef .tc main_arg8) = V0 (Proc.devRef .tc main_arg8) :=
  (segR0_keep (val1 V0) main_arg8 (by decide)).trans (val1_main_arg8 V0)
theorem val2_main_arg9 (V0 : Valuation τ sig (Elt F)) : val2 V0 (Proc.devRef .tc main_arg9) = V0 (Proc.devRef .tc main_arg9) :=
  (segR0_keep (val1 V0) main_arg9 (by decide)).trans (val1_main_arg9 V0)
theorem val2_main_arg10 (V0 : Valuation τ sig (Elt F)) : val2 V0 (Proc.devRef .tc main_arg10) = V0 (Proc.devRef .tc main_arg10) :=
  (segR0_keep (val1 V0) main_arg10 (by decide)).trans (val1_main_arg10 V0)
theorem val3_main_arg0 (V0 : Valuation τ sig (Elt F)) : val3 V0 (Proc.devRef .tc main_arg0) = V0 (Proc.devRef .tc main_arg0) :=
  (segR1_keep (val2 V0) main_arg0 (by decide)).trans (val2_main_arg0 V0)
theorem val3_main_arg1 (V0 : Valuation τ sig (Elt F)) : val3 V0 (Proc.devRef .tc main_arg1) = V0 (Proc.devRef .tc main_arg1) :=
  (segR1_keep (val2 V0) main_arg1 (by decide)).trans (val2_main_arg1 V0)
theorem val3_main_arg2 (V0 : Valuation τ sig (Elt F)) : val3 V0 (Proc.devRef .tc main_arg2) = V0 (Proc.devRef .tc main_arg2) :=
  (segR1_keep (val2 V0) main_arg2 (by decide)).trans (val2_main_arg2 V0)
theorem val3_main_arg3 (V0 : Valuation τ sig (Elt F)) : val3 V0 (Proc.devRef .tc main_arg3) = V0 (Proc.devRef .tc main_arg3) :=
  (segR1_keep (val2 V0) main_arg3 (by decide)).trans (val2_main_arg3 V0)
theorem val3_main_arg4 (V0 : Valuation τ sig (Elt F)) : val3 V0 (Proc.devRef .tc main_arg4) = V0 (Proc.devRef .tc main_arg4) :=
  (segR1_keep (val2 V0) main_arg4 (by decide)).trans (val2_main_arg4 V0)
theorem val3_main_arg5 (V0 : Valuation τ sig (Elt F)) : val3 V0 (Proc.devRef .tc main_arg5) = V0 (Proc.devRef .tc main_arg5) :=
  (segR1_keep (val2 V0) main_arg5 (by decide)).trans (val2_main_arg5 V0)
theorem val3_main_arg6 (V0 : Valuation τ sig (Elt F)) : val3 V0 (Proc.devRef .tc main_arg6) = V0 (Proc.devRef .tc main_arg6) :=
  (segR1_keep (val2 V0) main_arg6 (by decide)).trans (val2_main_arg6 V0)
theorem val3_main_arg7 (V0 : Valuation τ sig (Elt F)) : val3 V0 (Proc.devRef .tc main_arg7) = V0 (Proc.devRef .tc main_arg7) :=
  (segR1_keep (val2 V0) main_arg7 (by decide)).trans (val2_main_arg7 V0)
theorem val3_main_arg8 (V0 : Valuation τ sig (Elt F)) : val3 V0 (Proc.devRef .tc main_arg8) = V0 (Proc.devRef .tc main_arg8) :=
  (segR1_keep (val2 V0) main_arg8 (by decide)).trans (val2_main_arg8 V0)
theorem val3_main_arg9 (V0 : Valuation τ sig (Elt F)) : val3 V0 (Proc.devRef .tc main_arg9) = V0 (Proc.devRef .tc main_arg9) :=
  (segR1_keep (val2 V0) main_arg9 (by decide)).trans (val2_main_arg9 V0)
theorem val3_main_arg10 (V0 : Valuation τ sig (Elt F)) : val3 V0 (Proc.devRef .tc main_arg10) = V0 (Proc.devRef .tc main_arg10) :=
  (segR1_keep (val2 V0) main_arg10 (by decide)).trans (val2_main_arg10 V0)
theorem val4_main_arg0 (V0 : Valuation τ sig (Elt F)) : val4 V0 (Proc.devRef .tc main_arg0) = V0 (Proc.devRef .tc main_arg0) :=
  (segR2_keep (val3 V0) main_arg0 (by decide)).trans (val3_main_arg0 V0)
theorem val4_main_arg1 (V0 : Valuation τ sig (Elt F)) : val4 V0 (Proc.devRef .tc main_arg1) = V0 (Proc.devRef .tc main_arg1) :=
  (segR2_keep (val3 V0) main_arg1 (by decide)).trans (val3_main_arg1 V0)
theorem val4_main_arg2 (V0 : Valuation τ sig (Elt F)) : val4 V0 (Proc.devRef .tc main_arg2) = V0 (Proc.devRef .tc main_arg2) :=
  (segR2_keep (val3 V0) main_arg2 (by decide)).trans (val3_main_arg2 V0)
theorem val4_main_arg3 (V0 : Valuation τ sig (Elt F)) : val4 V0 (Proc.devRef .tc main_arg3) = V0 (Proc.devRef .tc main_arg3) :=
  (segR2_keep (val3 V0) main_arg3 (by decide)).trans (val3_main_arg3 V0)
theorem val4_main_arg4 (V0 : Valuation τ sig (Elt F)) : val4 V0 (Proc.devRef .tc main_arg4) = V0 (Proc.devRef .tc main_arg4) :=
  (segR2_keep (val3 V0) main_arg4 (by decide)).trans (val3_main_arg4 V0)
theorem val4_main_arg5 (V0 : Valuation τ sig (Elt F)) : val4 V0 (Proc.devRef .tc main_arg5) = V0 (Proc.devRef .tc main_arg5) :=
  (segR2_keep (val3 V0) main_arg5 (by decide)).trans (val3_main_arg5 V0)
theorem val4_main_arg6 (V0 : Valuation τ sig (Elt F)) : val4 V0 (Proc.devRef .tc main_arg6) = V0 (Proc.devRef .tc main_arg6) :=
  (segR2_keep (val3 V0) main_arg6 (by decide)).trans (val3_main_arg6 V0)
theorem val4_main_arg7 (V0 : Valuation τ sig (Elt F)) : val4 V0 (Proc.devRef .tc main_arg7) = V0 (Proc.devRef .tc main_arg7) :=
  (segR2_keep (val3 V0) main_arg7 (by decide)).trans (val3_main_arg7 V0)
theorem val4_main_arg8 (V0 : Valuation τ sig (Elt F)) : val4 V0 (Proc.devRef .tc main_arg8) = V0 (Proc.devRef .tc main_arg8) :=
  (segR2_keep (val3 V0) main_arg8 (by decide)).trans (val3_main_arg8 V0)
theorem val4_main_arg9 (V0 : Valuation τ sig (Elt F)) : val4 V0 (Proc.devRef .tc main_arg9) = V0 (Proc.devRef .tc main_arg9) :=
  (segR2_keep (val3 V0) main_arg9 (by decide)).trans (val3_main_arg9 V0)
theorem val4_main_arg10 (V0 : Valuation τ sig (Elt F)) : val4 V0 (Proc.devRef .tc main_arg10) = V0 (Proc.devRef .tc main_arg10) :=
  (segR2_keep (val3 V0) main_arg10 (by decide)).trans (val3_main_arg10 V0)
theorem val5_main_arg0 (V0 : Valuation τ sig (Elt F)) : val5 V0 (Proc.devRef .tc main_arg0) = V0 (Proc.devRef .tc main_arg0) :=
  (segR3_keep (val4 V0) main_arg0 (by decide)).trans (val4_main_arg0 V0)
theorem val5_main_arg1 (V0 : Valuation τ sig (Elt F)) : val5 V0 (Proc.devRef .tc main_arg1) = V0 (Proc.devRef .tc main_arg1) :=
  (segR3_keep (val4 V0) main_arg1 (by decide)).trans (val4_main_arg1 V0)
theorem val5_main_arg2 (V0 : Valuation τ sig (Elt F)) : val5 V0 (Proc.devRef .tc main_arg2) = V0 (Proc.devRef .tc main_arg2) :=
  (segR3_keep (val4 V0) main_arg2 (by decide)).trans (val4_main_arg2 V0)
theorem val5_main_arg3 (V0 : Valuation τ sig (Elt F)) : val5 V0 (Proc.devRef .tc main_arg3) = V0 (Proc.devRef .tc main_arg3) :=
  (segR3_keep (val4 V0) main_arg3 (by decide)).trans (val4_main_arg3 V0)
theorem val5_main_arg4 (V0 : Valuation τ sig (Elt F)) : val5 V0 (Proc.devRef .tc main_arg4) = V0 (Proc.devRef .tc main_arg4) :=
  (segR3_keep (val4 V0) main_arg4 (by decide)).trans (val4_main_arg4 V0)
theorem val5_main_arg5 (V0 : Valuation τ sig (Elt F)) : val5 V0 (Proc.devRef .tc main_arg5) = V0 (Proc.devRef .tc main_arg5) :=
  (segR3_keep (val4 V0) main_arg5 (by decide)).trans (val4_main_arg5 V0)
theorem val5_main_arg6 (V0 : Valuation τ sig (Elt F)) : val5 V0 (Proc.devRef .tc main_arg6) = V0 (Proc.devRef .tc main_arg6) :=
  (segR3_keep (val4 V0) main_arg6 (by decide)).trans (val4_main_arg6 V0)
theorem val5_main_arg7 (V0 : Valuation τ sig (Elt F)) : val5 V0 (Proc.devRef .tc main_arg7) = V0 (Proc.devRef .tc main_arg7) :=
  (segR3_keep (val4 V0) main_arg7 (by decide)).trans (val4_main_arg7 V0)
theorem val5_main_arg8 (V0 : Valuation τ sig (Elt F)) : val5 V0 (Proc.devRef .tc main_arg8) = V0 (Proc.devRef .tc main_arg8) :=
  (segR3_keep (val4 V0) main_arg8 (by decide)).trans (val4_main_arg8 V0)
theorem val5_main_arg9 (V0 : Valuation τ sig (Elt F)) : val5 V0 (Proc.devRef .tc main_arg9) = V0 (Proc.devRef .tc main_arg9) :=
  (segR3_keep (val4 V0) main_arg9 (by decide)).trans (val4_main_arg9 V0)
theorem val5_main_arg10 (V0 : Valuation τ sig (Elt F)) : val5 V0 (Proc.devRef .tc main_arg10) = V0 (Proc.devRef .tc main_arg10) :=
  (segR3_keep (val4 V0) main_arg10 (by decide)).trans (val4_main_arg10 V0)
theorem val6_main_arg0 (V0 : Valuation τ sig (Elt F)) : val6 V0 (Proc.devRef .tc main_arg0) = V0 (Proc.devRef .tc main_arg0) :=
  (segR4_keep (val5 V0) main_arg0 (by decide)).trans (val5_main_arg0 V0)
theorem val6_main_arg1 (V0 : Valuation τ sig (Elt F)) : val6 V0 (Proc.devRef .tc main_arg1) = V0 (Proc.devRef .tc main_arg1) :=
  (segR4_keep (val5 V0) main_arg1 (by decide)).trans (val5_main_arg1 V0)
theorem val6_main_arg2 (V0 : Valuation τ sig (Elt F)) : val6 V0 (Proc.devRef .tc main_arg2) = V0 (Proc.devRef .tc main_arg2) :=
  (segR4_keep (val5 V0) main_arg2 (by decide)).trans (val5_main_arg2 V0)
theorem val6_main_arg3 (V0 : Valuation τ sig (Elt F)) : val6 V0 (Proc.devRef .tc main_arg3) = V0 (Proc.devRef .tc main_arg3) :=
  (segR4_keep (val5 V0) main_arg3 (by decide)).trans (val5_main_arg3 V0)
theorem val6_main_arg4 (V0 : Valuation τ sig (Elt F)) : val6 V0 (Proc.devRef .tc main_arg4) = V0 (Proc.devRef .tc main_arg4) :=
  (segR4_keep (val5 V0) main_arg4 (by decide)).trans (val5_main_arg4 V0)
theorem val6_main_arg5 (V0 : Valuation τ sig (Elt F)) : val6 V0 (Proc.devRef .tc main_arg5) = V0 (Proc.devRef .tc main_arg5) :=
  (segR4_keep (val5 V0) main_arg5 (by decide)).trans (val5_main_arg5 V0)
theorem val6_main_arg6 (V0 : Valuation τ sig (Elt F)) : val6 V0 (Proc.devRef .tc main_arg6) = V0 (Proc.devRef .tc main_arg6) :=
  (segR4_keep (val5 V0) main_arg6 (by decide)).trans (val5_main_arg6 V0)
theorem val6_main_arg7 (V0 : Valuation τ sig (Elt F)) : val6 V0 (Proc.devRef .tc main_arg7) = V0 (Proc.devRef .tc main_arg7) :=
  (segR4_keep (val5 V0) main_arg7 (by decide)).trans (val5_main_arg7 V0)
theorem val6_main_arg8 (V0 : Valuation τ sig (Elt F)) : val6 V0 (Proc.devRef .tc main_arg8) = V0 (Proc.devRef .tc main_arg8) :=
  (segR4_keep (val5 V0) main_arg8 (by decide)).trans (val5_main_arg8 V0)
theorem val6_main_arg9 (V0 : Valuation τ sig (Elt F)) : val6 V0 (Proc.devRef .tc main_arg9) = V0 (Proc.devRef .tc main_arg9) :=
  (segR4_keep (val5 V0) main_arg9 (by decide)).trans (val5_main_arg9 V0)
theorem val6_main_arg10 (V0 : Valuation τ sig (Elt F)) : val6 V0 (Proc.devRef .tc main_arg10) = V0 (Proc.devRef .tc main_arg10) :=
  (segR4_keep (val5 V0) main_arg10 (by decide)).trans (val5_main_arg10 V0)
theorem val7_main_arg0 (V0 : Valuation τ sig (Elt F)) : val7 V0 (Proc.devRef .tc main_arg0) = V0 (Proc.devRef .tc main_arg0) :=
  (segTail_keep (val6 V0) main_arg0 (by decide)).trans (val6_main_arg0 V0)
theorem val7_main_arg1 (V0 : Valuation τ sig (Elt F)) : val7 V0 (Proc.devRef .tc main_arg1) = V0 (Proc.devRef .tc main_arg1) :=
  (segTail_keep (val6 V0) main_arg1 (by decide)).trans (val6_main_arg1 V0)
theorem val7_main_arg2 (V0 : Valuation τ sig (Elt F)) : val7 V0 (Proc.devRef .tc main_arg2) = V0 (Proc.devRef .tc main_arg2) :=
  (segTail_keep (val6 V0) main_arg2 (by decide)).trans (val6_main_arg2 V0)
theorem val7_main_arg3 (V0 : Valuation τ sig (Elt F)) : val7 V0 (Proc.devRef .tc main_arg3) = V0 (Proc.devRef .tc main_arg3) :=
  (segTail_keep (val6 V0) main_arg3 (by decide)).trans (val6_main_arg3 V0)
theorem val7_main_arg4 (V0 : Valuation τ sig (Elt F)) : val7 V0 (Proc.devRef .tc main_arg4) = V0 (Proc.devRef .tc main_arg4) :=
  (segTail_keep (val6 V0) main_arg4 (by decide)).trans (val6_main_arg4 V0)
theorem val7_main_arg5 (V0 : Valuation τ sig (Elt F)) : val7 V0 (Proc.devRef .tc main_arg5) = V0 (Proc.devRef .tc main_arg5) :=
  (segTail_keep (val6 V0) main_arg5 (by decide)).trans (val6_main_arg5 V0)
theorem val7_main_arg6 (V0 : Valuation τ sig (Elt F)) : val7 V0 (Proc.devRef .tc main_arg6) = V0 (Proc.devRef .tc main_arg6) :=
  (segTail_keep (val6 V0) main_arg6 (by decide)).trans (val6_main_arg6 V0)
theorem val7_main_arg7 (V0 : Valuation τ sig (Elt F)) : val7 V0 (Proc.devRef .tc main_arg7) = V0 (Proc.devRef .tc main_arg7) :=
  (segTail_keep (val6 V0) main_arg7 (by decide)).trans (val6_main_arg7 V0)
theorem val7_main_arg8 (V0 : Valuation τ sig (Elt F)) : val7 V0 (Proc.devRef .tc main_arg8) = V0 (Proc.devRef .tc main_arg8) :=
  (segTail_keep (val6 V0) main_arg8 (by decide)).trans (val6_main_arg8 V0)
theorem val7_main_arg9 (V0 : Valuation τ sig (Elt F)) : val7 V0 (Proc.devRef .tc main_arg9) = V0 (Proc.devRef .tc main_arg9) :=
  (segTail_keep (val6 V0) main_arg9 (by decide)).trans (val6_main_arg9 V0)
theorem val7_main_arg10 (V0 : Valuation τ sig (Elt F)) : val7 V0 (Proc.devRef .tc main_arg10) = V0 (Proc.devRef .tc main_arg10) :=
  (segTail_keep (val6 V0) main_arg10 (by decide)).trans (val6_main_arg10 V0)

/-! ### The node table -/
theorem val1_main_v0 (V0 : Valuation τ sig (Elt F)) : val1 V0 (Proc.devRef .tc main_v0) = Stages.table (V0 (Proc.devRef .tc main_arg5)) (V0 (Proc.devRef .tc main_arg6)) :=
  segT_v0 V0
theorem val2_main_v0 (V0 : Valuation τ sig (Elt F)) : val2 V0 (Proc.devRef .tc main_v0) = Stages.table (V0 (Proc.devRef .tc main_arg5)) (V0 (Proc.devRef .tc main_arg6)) :=
  (segR0_keep (val1 V0) main_v0 (by decide)).trans (val1_main_v0 V0)
theorem val3_main_v0 (V0 : Valuation τ sig (Elt F)) : val3 V0 (Proc.devRef .tc main_v0) = Stages.table (V0 (Proc.devRef .tc main_arg5)) (V0 (Proc.devRef .tc main_arg6)) :=
  (segR1_keep (val2 V0) main_v0 (by decide)).trans (val2_main_v0 V0)
theorem val4_main_v0 (V0 : Valuation τ sig (Elt F)) : val4 V0 (Proc.devRef .tc main_v0) = Stages.table (V0 (Proc.devRef .tc main_arg5)) (V0 (Proc.devRef .tc main_arg6)) :=
  (segR2_keep (val3 V0) main_v0 (by decide)).trans (val3_main_v0 V0)
theorem val5_main_v0 (V0 : Valuation τ sig (Elt F)) : val5 V0 (Proc.devRef .tc main_v0) = Stages.table (V0 (Proc.devRef .tc main_arg5)) (V0 (Proc.devRef .tc main_arg6)) :=
  (segR3_keep (val4 V0) main_v0 (by decide)).trans (val4_main_v0 V0)

/-! ### The five hidden matrices -/
theorem val2_main_v26 (V0 : Valuation τ sig (Elt F)) : val2 V0 (Proc.devRef .tc main_v26) = Stages.hidden0 (Stages.aggregate0 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) := by
  refine (segR0_out (val1 V0)).trans ?_
  rw [val1_main_arg2, val1_main_arg3, val1_main_arg4, val1_main_v0, val1_main_arg7, val1_main_arg8]
theorem val3_main_v26 (V0 : Valuation τ sig (Elt F)) : val3 V0 (Proc.devRef .tc main_v26) = Stages.hidden0 (Stages.aggregate0 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR1_keep (val2 V0) main_v26 (by decide)).trans (val2_main_v26 V0)
theorem val4_main_v26 (V0 : Valuation τ sig (Elt F)) : val4 V0 (Proc.devRef .tc main_v26) = Stages.hidden0 (Stages.aggregate0 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR2_keep (val3 V0) main_v26 (by decide)).trans (val3_main_v26 V0)
theorem val5_main_v26 (V0 : Valuation τ sig (Elt F)) : val5 V0 (Proc.devRef .tc main_v26) = Stages.hidden0 (Stages.aggregate0 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR3_keep (val4 V0) main_v26 (by decide)).trans (val4_main_v26 V0)
theorem val6_main_v26 (V0 : Valuation τ sig (Elt F)) : val6 V0 (Proc.devRef .tc main_v26) = Stages.hidden0 (Stages.aggregate0 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR4_keep (val5 V0) main_v26 (by decide)).trans (val5_main_v26 V0)
theorem val3_main_v52 (V0 : Valuation τ sig (Elt F)) : val3 V0 (Proc.devRef .tc main_v52) = Stages.hidden1 (Stages.aggregate1 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) := by
  refine (segR1_out (val2 V0)).trans ?_
  rw [val2_main_arg2, val2_main_arg3, val2_main_arg4, val2_main_v0, val2_main_arg7, val2_main_arg8]
theorem val4_main_v52 (V0 : Valuation τ sig (Elt F)) : val4 V0 (Proc.devRef .tc main_v52) = Stages.hidden1 (Stages.aggregate1 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR2_keep (val3 V0) main_v52 (by decide)).trans (val3_main_v52 V0)
theorem val5_main_v52 (V0 : Valuation τ sig (Elt F)) : val5 V0 (Proc.devRef .tc main_v52) = Stages.hidden1 (Stages.aggregate1 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR3_keep (val4 V0) main_v52 (by decide)).trans (val4_main_v52 V0)
theorem val6_main_v52 (V0 : Valuation τ sig (Elt F)) : val6 V0 (Proc.devRef .tc main_v52) = Stages.hidden1 (Stages.aggregate1 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR4_keep (val5 V0) main_v52 (by decide)).trans (val5_main_v52 V0)
theorem val4_main_v78 (V0 : Valuation τ sig (Elt F)) : val4 V0 (Proc.devRef .tc main_v78) = Stages.hidden2 (Stages.aggregate2 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) := by
  refine (segR2_out (val3 V0)).trans ?_
  rw [val3_main_arg2, val3_main_arg3, val3_main_arg4, val3_main_v0, val3_main_arg7, val3_main_arg8]
theorem val5_main_v78 (V0 : Valuation τ sig (Elt F)) : val5 V0 (Proc.devRef .tc main_v78) = Stages.hidden2 (Stages.aggregate2 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR3_keep (val4 V0) main_v78 (by decide)).trans (val4_main_v78 V0)
theorem val6_main_v78 (V0 : Valuation τ sig (Elt F)) : val6 V0 (Proc.devRef .tc main_v78) = Stages.hidden2 (Stages.aggregate2 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR4_keep (val5 V0) main_v78 (by decide)).trans (val5_main_v78 V0)
theorem val5_main_v104 (V0 : Valuation τ sig (Elt F)) : val5 V0 (Proc.devRef .tc main_v104) = Stages.hidden3 (Stages.aggregate3 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) := by
  refine (segR3_out (val4 V0)).trans ?_
  rw [val4_main_arg2, val4_main_arg3, val4_main_arg4, val4_main_v0, val4_main_arg7, val4_main_arg8]
theorem val6_main_v104 (V0 : Valuation τ sig (Elt F)) : val6 V0 (Proc.devRef .tc main_v104) = Stages.hidden3 (Stages.aggregate3 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) :=
  (segR4_keep (val5 V0) main_v104 (by decide)).trans (val5_main_v104 V0)
theorem val6_main_v130 (V0 : Valuation τ sig (Elt F)) : val6 V0 (Proc.devRef .tc main_v130) = Stages.hidden4 (Stages.aggregate4 (V0 (Proc.devRef .tc main_arg2)) (V0 (Proc.devRef .tc main_arg3)) (V0 (Proc.devRef .tc main_arg4)) (Stages.table (V0 (Proc.devRef .tc main_arg5)) (V0 (Proc.devRef .tc main_arg6)))) (V0 (Proc.devRef .tc main_arg7)) (V0 (Proc.devRef .tc main_arg8)) := by
  refine (segR4_out (val5 V0)).trans ?_
  rw [val5_main_arg2, val5_main_arg3, val5_main_arg4, val5_main_v0, val5_main_arg7, val5_main_arg8]

/-! ### The result -/

/-- After the whole line the result buffer holds `Stages.result` of the arguments' contents before it. -/
theorem out_eq (V0 : Valuation τ sig (Elt F)) :
    after ops V0 (Proc.devRef .tc main_v154) = Stages.result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [after_ops]
  refine (segTail_out (val6 V0)).trans ?_
  rw [val6_main_v26, val6_main_v52, val6_main_v78, val6_main_v104, val6_main_v130, val6_main_arg9, val6_main_arg10,
    val6_main_arg0, val6_main_arg1]
  rfl

/-- After the whole line an argument holds what it held before it. -/
theorem arg_eq (V0 : Valuation τ sig (Elt F)) :
    after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5)
    ∧ after ops V0 (Proc.devRef .tc main_arg6) = V0 (Proc.devRef .tc main_arg6)
    ∧ after ops V0 (Proc.devRef .tc main_arg7) = V0 (Proc.devRef .tc main_arg7)
    ∧ after ops V0 (Proc.devRef .tc main_arg8) = V0 (Proc.devRef .tc main_arg8)
    ∧ after ops V0 (Proc.devRef .tc main_arg9) = V0 (Proc.devRef .tc main_arg9)
    ∧ after ops V0 (Proc.devRef .tc main_arg10) = V0 (Proc.devRef .tc main_arg10) := by
  rw [after_ops]
  exact ⟨val7_main_arg0 V0, val7_main_arg1 V0, val7_main_arg2 V0, val7_main_arg3 V0, val7_main_arg4 V0, val7_main_arg5 V0, val7_main_arg6 V0, val7_main_arg7 V0, val7_main_arg8 V0, val7_main_arg9 V0, val7_main_arg10 V0⟩

/-- From any memory with zero counters, at the exact-arithmetic floats: every weakly fair execution of @main
    terminates with the result at `Stages.result` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v154) = Stages.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c =>
    have hA := arg_eq (launchContents m c)
    ⟨(h c main_v154).trans (out_eq (launchContents m c)),
      (h c main_arg0).trans hA.1,
      (h c main_arg1).trans hA.2.1,
      (h c main_arg2).trans hA.2.2.1,
      (h c main_arg3).trans hA.2.2.2.1,
      (h c main_arg4).trans hA.2.2.2.2.1,
      (h c main_arg5).trans hA.2.2.2.2.2.1,
      (h c main_arg6).trans hA.2.2.2.2.2.2.1,
      (h c main_arg7).trans hA.2.2.2.2.2.2.2.1,
      (h c main_arg8).trans hA.2.2.2.2.2.2.2.2.1,
      (h c main_arg9).trans hA.2.2.2.2.2.2.2.2.2.1,
      (h c main_arg10).trans hA.2.2.2.2.2.2.2.2.2.2⟩)
    (run_main m ρ)

/-- The reference runs and its argument arrays end unchanged. -/
theorem frame : Cert.frame_ReferenceIdeal := fun m ρ _ =>
  (θ_run (defs (F := Ideal)) _ _).mono (fun _ h c => (h c).2) (run m ρ)

end Cert.ReferenceIdeal.RefRun

end
-- ==== Proof.KernelIdealLayout.lean ====
/-
  The host-side layout stages of the kernel's program, read at one element.

  stacked       five [150000, 64] matrices, each given a new leading unit axis, laid one after the other along that
                axis: element (k, n, j) of the stack is element (n, j) of matrix k.
  affineSlabs   a [320, 64] matrix regrouped as [5, 64, 64]: a regrouping keeps the row-major position, and
                (k, l, d) sits at 64·64·k + 64·l + d = 64·(64·k + l) + d, the position of (64·k + l, d).
  biasRow       a vector as a one-row matrix: element (0, d) is element d.
  scoreVector   a one-column matrix as a vector: element r is element (r, 0).
-/
import proofs.«118015_j56899726737489_1_alg».proof.Proof.KernelIdealStages
import proofs.«118015_j56899726737489_1_alg».proof.Proof.LibColumnVector
import Idealize.ShloMosaic.Lib.ValueIdx
import Idealize.ShloMosaic.Lib.ValueLayout
import Idealize.ShloMosaic.Lib.Pipeline.Value

noncomputable section

namespace Cert.KernelIdeal.Layout

open Idealize.ShloMosaic Idealize.ShloMosaic.ValueIdx Cert.KernelIdeal Cert.KernelIdeal.Facts₀ Cert.KernelIdeal.Facts

/-- A [150000, 64] matrix given a new leading unit axis reads, at (u, n, j), the matrix at (n, j): neither of
its extents is one, so neither coordinate is replaced by zero. -/
theorem leadingUnit_apply {α : Type} (g : S150000x64.Idx → α)
    (h : S150000x64.BroadcastsInDim S1x150000x64 (![1, 2] : Fin 2 → Fin S1x150000x64.rank))
    (u : Fin 1) (n : Fin 150000) (j : Fin 64) :
    broadcastInDim S1x150000x64 ![1, 2] h g (ix3 u n j) = g (ix2 n j) :=
  broadcastInDim_apply _ h g (ix3 u n j) (ix2 n j) fun a => by
    match a with
    | ⟨0, _⟩ =>
      show n.val = if (150000 : ℕ) = 1 then 0 else n.val
      rw [if_neg (by decide)]
    | ⟨1, _⟩ =>
      show j.val = if (64 : ℕ) = 1 then 0 else j.val
      rw [if_neg (by decide)]

/-- Off the stacking axis a piece's index (0, n, j) and the stack's index (k, n, j) have the same coordinates. -/
theorem offAxis (k : Fin 5) (n : Fin 150000) (j : Fin 64) (hr : S1x150000x64.rank = S5x150000x64.rank)
    (b : Fin S1x150000x64.rank) (hb : b.cast hr ≠ (0 : Fin S5x150000x64.rank)) :
    ((ix3 (0 : Fin 1) n j : S1x150000x64.Idx) b).val = ((ix3 k n j : S5x150000x64.Idx) (b.cast hr)).val := by
  match b with
  | ⟨0, _⟩ => exact absurd (Fin.ext rfl) hb
  | ⟨1, _⟩ => rfl
  | ⟨2, _⟩ => rfl

/-- Element (k, n, j) of the stack of the five aggregated matrices is element (n, j) of matrix k: the pieces
before piece k fill k rows of the leading axis, and piece k's one row is row k. -/
theorem stacked_apply (g0 g1 g2 g3 g4 : FVec Ideal S150000x64 .f32) (k : Fin 5) (n : Fin 150000) (j : Fin 64) :
    Stages.stacked g0 g1 g2 g3 g4 (ix3 k n j) = (![g0, g1, g2, g3, g4] k) (ix2 n j) := by
  unfold Stages.stacked
  match k with
  | ⟨0, hk⟩ =>
    show _ = g0 (ix2 n j)
    exact (concatenate_apply_piece (0 : Fin S5x150000x64.rank) _ _ (ix3 (⟨0, hk⟩ : Fin 5) n j) 0 (by exact (by decide : (0 : ℕ) < 5)) S1x150000x64 _ rfl rfl 0 rfl
      (ix3 (0 : Fin 1) n j) (offAxis _ n j rfl) rfl).trans (leadingUnit_apply g0 _ 0 n j)
  | ⟨1, hk⟩ =>
    show _ = g1 (ix2 n j)
    exact (concatenate_apply_piece (0 : Fin S5x150000x64.rank) _ _ (ix3 (⟨1, hk⟩ : Fin 5) n j) 1 (by exact (by decide : (1 : ℕ) < 5)) S1x150000x64 _ rfl rfl 1 rfl
      (ix3 (0 : Fin 1) n j) (offAxis _ n j rfl) rfl).trans (leadingUnit_apply g1 _ 0 n j)
  | ⟨2, hk⟩ =>
    show _ = g2 (ix2 n j)
    exact (concatenate_apply_piece (0 : Fin S5x150000x64.rank) _ _ (ix3 (⟨2, hk⟩ : Fin 5) n j) 2 (by exact (by decide : (2 : ℕ) < 5)) S1x150000x64 _ rfl rfl 2 rfl
      (ix3 (0 : Fin 1) n j) (offAxis _ n j rfl) rfl).trans (leadingUnit_apply g2 _ 0 n j)
  | ⟨3, hk⟩ =>
    show _ = g3 (ix2 n j)
    exact (concatenate_apply_piece (0 : Fin S5x150000x64.rank) _ _ (ix3 (⟨3, hk⟩ : Fin 5) n j) 3 (by exact (by decide : (3 : ℕ) < 5)) S1x150000x64 _ rfl rfl 3 rfl
      (ix3 (0 : Fin 1) n j) (offAxis _ n j rfl) rfl).trans (leadingUnit_apply g3 _ 0 n j)
  | ⟨4, hk⟩ =>
    show _ = g4 (ix2 n j)
    exact (concatenate_apply_piece (0 : Fin S5x150000x64.rank) _ _ (ix3 (⟨4, hk⟩ : Fin 5) n j) 4 (by exact (by decide : (4 : ℕ) < 5)) S1x150000x64 _ rfl rfl 4 rfl
      (ix3 (0 : Fin 1) n j) (offAxis _ n j rfl) rfl).trans (leadingUnit_apply g4 _ 0 n j)

/-- Element (k, l, d) of the affine matrix read in five slabs is element (64·k + l, d) of the matrix. -/
theorem affineSlabs_apply (a9 : FVec Ideal S320x64 .f32) (k : Fin 5) (l d : Fin 64) :
    Stages.affineSlabs a9 (ix3 k l d) = a9 (ix2 ⟨64 * k.val + l.val, by omega⟩ d) := by
  unfold Stages.affineSlabs
  exact shapeCast_apply a9 _ (ix3 k l d) (ix2 ⟨64 * k.val + l.val, by omega⟩ d) (by
    rw [Shape.rowMajor_val_three, Shape.rowMajor_val_two]
    show (64 * k.val + l.val) * 64 + d.val = (k.val * 64 + l.val) * 64 + d.val
    omega)

/-- Element (0, d) of the bias row is element d of the bias vector. -/
theorem biasRow_apply (a10 : FVec Ideal S64 .f32) (d : Fin 64) :
    Stages.biasRow a10 (ix2 (0 : Fin 1) d) = a10 (ix1 d) := by
  unfold Stages.biasRow
  exact shapeCast_a_1a_apply a10 _ 0 d

/-- Element r of the score vector is element (r, 0) of the score column. -/
theorem scoreVector_apply (y : FVec Ideal S16384x1 .f32) (r : Fin 16384) :
    Stages.scoreVector y (ix1 r) = y (ix2 r (0 : Fin 1)) := by
  unfold Stages.scoreVector
  exact Cert.LibColumnVector.shapeCast_a1_a_apply y _ r

end Cert.KernelIdeal.Layout

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«118015_j56899726737489_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.RefLogits.lean ====
/-
  The reference program's logits read at one element, on the extended reals.

  For node n and output column d the logits are
      (∑ j : Fin 320, leaky (H n j) * A j d) + c d,
  where H is the five hidden matrices laid side by side: column j = 64·k + l of H is column l of relation k's
  hidden matrix, and relation k's hidden matrix at (n, l) is (∑ j, g_k (n, j) * W (k, j, l)) + b (k, 0, l).
  Each operation of the program is read at an index: a plain matrix product as the sum over the shared axis, a
  slab cut out of a stack of matrices as the stack at that slab, a leading unit axis dropped by a reshape, one
  row broadcast down every row, a five-piece concatenation along the columns as piece j / 64 at column j % 64,
  and the rectifier pointwise.
-/
import proofs.«118015_j56899726737489_1_alg».proof.Proof.RefStages
import proofs.«118015_j56899726737489_1_alg».proof.Proof.Spec
import proofs.«118015_j56899726737489_1_alg».proof.Proof.LibPlainDot
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RefLogits

open Idealize.ShloMosaic Idealize.ShloMosaic.ValueIdx Cert.ReferenceIdeal Cert.ReferenceIdeal.Facts₀ Cert.ReferenceIdeal.Facts

/-! ## The layout operations at an index -/

/-- Slab k of a stack of five 64×64 matrices, cut out as a 1×64×64 array, is the stack at slab k. -/
theorem slab_apply {α : Type} (o : Nat) (X : S5x64x64.Idx → α) (h : S5x64x64.Slices ![o, 0, 0] S1x64x64)
    (k : Fin 5) (hk : k.val = o) (j l : Fin 64) :
    extractStridedSlice S1x64x64 ![o, 0, 0] X h (ix3 (0 : Fin 1) j l) = X (ix3 k j l) :=
  extractStridedSlice_apply _ _ _ _ _ (fun ax => by
    match ax with
    | ⟨0, _⟩ => exact hk
    | ⟨1, _⟩ => exact (Nat.zero_add _).symm
    | ⟨2, _⟩ => exact (Nat.zero_add _).symm)

/-- Row k of a stack of five 1×64 rows, cut out as a 1×1×64 array, is the stack at row k. -/
theorem biasRow_apply {α : Type} (o : Nat) (X : S5x1x64.Idx → α) (h : S5x1x64.Slices ![o, 0, 0] S1x1x64)
    (k : Fin 5) (hk : k.val = o) (l : Fin 64) :
    extractStridedSlice S1x1x64 ![o, 0, 0] X h (ix3 (0 : Fin 1) (0 : Fin 1) l) = X (ix3 k (0 : Fin 1) l) :=
  extractStridedSlice_apply _ _ _ _ _ (fun ax => by
    match ax with
    | ⟨0, _⟩ => exact hk
    | ⟨1, _⟩ => exact (Nat.zero_add _).symm
    | ⟨2, _⟩ => exact (Nat.zero_add _).symm)

/-- Five 150000×64 matrices laid side by side: column 64·k + l of the result is column l of piece k. -/
theorem sideBySide_apply {α : Type} (x0 x1 x2 x3 x4 : S150000x64.Idx → α)
    (h : Shape.Concatenates [S150000x64, S150000x64, S150000x64, S150000x64, S150000x64] S150000x320 1)
    (n : Fin 150000) (k : Fin 5) (l : Fin 64) (j : Fin 320) (hj : j.val = 64 * k.val + l.val) :
    concatenate S150000x320 1 [⟨S150000x64, x0⟩, ⟨S150000x64, x1⟩, ⟨S150000x64, x2⟩, ⟨S150000x64, x3⟩, ⟨S150000x64, x4⟩] h
        (ix2 n j) = (![x0, x1, x2, x3, x4] k) (ix2 n l) := by
  have hi : ∀ b : Fin S150000x64.rank, b.cast (rfl : S150000x64.rank = S150000x320.rank) ≠ (1 : Fin S150000x320.rank) →
      ((ix2 n l) b).val = ((ix2 n j) (b.cast rfl)).val := fun b => by
    match b with
    | ⟨0, _⟩ => exact fun _ => rfl
    | ⟨1, _⟩ => exact fun hb => absurd rfl hb
  match k, hj with
  | ⟨0, _⟩, hj =>
    have hj' : j.val = 64 * 0 + l.val := hj
    exact concatenate_apply_piece 1 [⟨S150000x64, x0⟩, ⟨S150000x64, x1⟩, ⟨S150000x64, x2⟩, ⟨S150000x64, x3⟩, ⟨S150000x64, x4⟩] h (ix2 n j) 0 (by show (0 : ℕ) < 5; omega) S150000x64 x0 rfl rfl 0 rfl
      (ix2 n l) hi (by show 0 + l.val = j.val; omega)
  | ⟨1, _⟩, hj =>
    have hj' : j.val = 64 * 1 + l.val := hj
    exact concatenate_apply_piece 1 [⟨S150000x64, x0⟩, ⟨S150000x64, x1⟩, ⟨S150000x64, x2⟩, ⟨S150000x64, x3⟩, ⟨S150000x64, x4⟩] h (ix2 n j) 1 (by show (1 : ℕ) < 5; omega) S150000x64 x1 rfl rfl 64 rfl
      (ix2 n l) hi (by show 64 + l.val = j.val; omega)
  | ⟨2, _⟩, hj =>
    have hj' : j.val = 64 * 2 + l.val := hj
    exact concatenate_apply_piece 1 [⟨S150000x64, x0⟩, ⟨S150000x64, x1⟩, ⟨S150000x64, x2⟩, ⟨S150000x64, x3⟩, ⟨S150000x64, x4⟩] h (ix2 n j) 2 (by show (2 : ℕ) < 5; omega) S150000x64 x2 rfl rfl 128 rfl
      (ix2 n l) hi (by show 128 + l.val = j.val; omega)
  | ⟨3, _⟩, hj =>
    have hj' : j.val = 64 * 3 + l.val := hj
    exact concatenate_apply_piece 1 [⟨S150000x64, x0⟩, ⟨S150000x64, x1⟩, ⟨S150000x64, x2⟩, ⟨S150000x64, x3⟩, ⟨S150000x64, x4⟩] h (ix2 n j) 3 (by show (3 : ℕ) < 5; omega) S150000x64 x3 rfl rfl 192 rfl
      (ix2 n l) hi (by show 192 + l.val = j.val; omega)
  | ⟨4, _⟩, hj =>
    have hj' : j.val = 64 * 4 + l.val := hj
    exact concatenate_apply_piece 1 [⟨S150000x64, x0⟩, ⟨S150000x64, x1⟩, ⟨S150000x64, x2⟩, ⟨S150000x64, x3⟩, ⟨S150000x64, x4⟩] h (ix2 n j) 4 (by show (4 : ℕ) < 5; omega) S150000x64 x4 rfl rfl 256 rfl
      (ix2 n l) hi (by show 256 + l.val = j.val; omega)

/-- A vector of 64 entries laid along a single row, then that row along every one of the 150000 rows. -/
theorem biasRows_apply {α : Type} (c : S64.Idx → α) (h1 : S64.BroadcastsInDim S1x64 ![1])
    (h2 : S1x64.BroadcastsInDim S150000x64 ![0, 1]) (n : Fin 150000) (d : Fin 64) :
    broadcastInDim S150000x64 ![0, 1] h2 (broadcastInDim S1x64 ![1] h1 c) (ix2 n d) = c (ix1 d) :=
  (broadcastInDim_oneRow_apply h2 _ n d).trans
    (broadcastInDim_apply ![1] h1 c (ix2 (0 : Fin 1) d) (ix1 d) (fun a => by
      match a with
      | ⟨0, _⟩ => rfl))

/-! ## The stages at an index -/

/-- A relation's hidden matrix at (n, l): the aggregated row against column l of the weights, plus the bias. -/
theorem hiddenOf_apply (g : FVec Ideal S150000x64 .f32) (w : FVec Ideal S1x64x64 .f32) (b : FVec Ideal S1x1x64 .f32)
    (n : Fin 150000) (l : Fin 64) :
    Stages.hiddenOf g w b (ix2 n l)
      = (∑ j : Fin 64, g (ix2 n j) * w (ix3 (0 : Fin 1) j l)) + b (ix3 (0 : Fin 1) (0 : Fin 1) l) := by
  unfold Stages.hiddenOf
  refine (addf_apply _ _ _).trans (congrArg₂ (· + ·) ?_ ?_)
  · refine (PlainDot.apply (M := 150000) (K := 64) (N := 64) none g _ n l).trans ?_
    exact Finset.sum_congr rfl fun j _ =>
      congrArg (g (ix2 n j) * ·) (shapeCast_1ab_ab_apply w shapeCasts_S1x64x64_S64x64 j l)
  · exact (broadcastInDim_oneRow_apply bcast_S1x64_S150000x64_0_1 _ n l).trans
      (shapeCast_1ab_ab_apply b shapeCasts_S1x1x64_S1x64 (0 : Fin 1) l)

/-- The rectifier at an index is the specification's rectifier of the element. -/
theorem rectified_apply (x : FVec Ideal S150000x320 .f32) (i : S150000x320.Idx) :
    Stages.rectified x i = Cert.Spec.leaky (x i) := rfl

/-- A relation's hidden matrix from slab k of the weights and row k of the biases, at (n, l). -/
theorem hiddenSlab_apply (g : FVec Ideal S150000x64 .f32) (a7 : FVec Ideal S5x64x64 .f32) (a8 : FVec Ideal S5x1x64 .f32)
    (o : Nat) (h7 : S5x64x64.Slices ![o, 0, 0] S1x64x64) (h8 : S5x1x64.Slices ![o, 0, 0] S1x1x64)
    (k : Fin 5) (hk : k.val = o) (n : Fin 150000) (l : Fin 64) :
    Stages.hiddenOf g (extractStridedSlice S1x64x64 ![o, 0, 0] a7 h7) (extractStridedSlice S1x1x64 ![o, 0, 0] a8 h8) (ix2 n l)
      = (∑ j : Fin 64, g (ix2 n j) * a7 (ix3 k j l)) + a8 (ix3 k (0 : Fin 1) l) := by
  refine (hiddenOf_apply g _ _ n l).trans (congrArg₂ (· + ·) ?_ ?_)
  · exact Finset.sum_congr rfl fun j _ => congrArg (g (ix2 n j) * ·) (slab_apply o a7 h7 k hk j l)
  · exact biasRow_apply o a8 h8 k hk l

/-- Relation k's hidden matrix at (n, l) is the specification's hidden row k of node n at l. -/
theorem hidden_pick (g0 g1 g2 g3 g4 : FVec Ideal S150000x64 .f32) (a7 : FVec Ideal S5x64x64 .f32)
    (a8 : FVec Ideal S5x1x64 .f32) (n : Fin 150000) (k : Fin 5) (l : Fin 64) :
    (![Stages.hidden0 g0 a7 a8, Stages.hidden1 g1 a7 a8, Stages.hidden2 g2 a7 a8, Stages.hidden3 g3 a7 a8,
        Stages.hidden4 g4 a7 a8] k) (ix2 n l)
      = Cert.Spec.hidden (fun k j => (![g0, g1, g2, g3, g4] k) (ix2 n j)) (fun k j l => a7 (ix3 k j l))
          (fun k l => a8 (ix3 k (0 : Fin 1) l)) k l := by
  unfold Cert.Spec.hidden
  match k with
  | ⟨0, _⟩ => exact hiddenSlab_apply g0 a7 a8 0 slices_S5x64x64_S1x64x64_0_0_0 slices_S5x1x64_S1x1x64_0_0_0 0 rfl n l
  | ⟨1, _⟩ => exact hiddenSlab_apply g1 a7 a8 1 slices_S5x64x64_S1x64x64_1_0_0 slices_S5x1x64_S1x1x64_1_0_0 1 rfl n l
  | ⟨2, _⟩ => exact hiddenSlab_apply g2 a7 a8 2 slices_S5x64x64_S1x64x64_2_0_0 slices_S5x1x64_S1x1x64_2_0_0 2 rfl n l
  | ⟨3, _⟩ => exact hiddenSlab_apply g3 a7 a8 3 slices_S5x64x64_S1x64x64_3_0_0 slices_S5x1x64_S1x1x64_3_0_0 3 rfl n l
  | ⟨4, _⟩ => exact hiddenSlab_apply g4 a7 a8 4 slices_S5x64x64_S1x64x64_4_0_0 slices_S5x1x64_S1x1x64_4_0_0 4 rfl n l

/-! ## The logits at an index -/

/-- The reference's logits at (n, d): the specification's row of node n, the five rectified hidden rows side by
    side against the 320×64 matrix in one sum, plus the bias. -/
theorem logitsOf_apply (g0 g1 g2 g3 g4 : FVec Ideal S150000x64 .f32) (a7 : FVec Ideal S5x64x64 .f32)
    (a8 : FVec Ideal S5x1x64 .f32) (a9 : FVec Ideal S320x64 .f32) (a10 : FVec Ideal S64 .f32)
    (n : Fin 150000) (d : Fin 64) :
    Stages.logitsOf (Stages.hidden0 g0 a7 a8) (Stages.hidden1 g1 a7 a8) (Stages.hidden2 g2 a7 a8)
        (Stages.hidden3 g3 a7 a8) (Stages.hidden4 g4 a7 a8) a9 a10 (ValueIdx.ix2 n d)
      = Cert.Spec.rowConcatenated (fun k j => (![g0, g1, g2, g3, g4] k) (ValueIdx.ix2 n j))
          (fun k j l => a7 (ValueIdx.ix3 k j l)) (fun k l => a8 (ValueIdx.ix3 k 0 l))
          (fun j d => a9 (ValueIdx.ix2 j d)) (fun d => a10 (ValueIdx.ix1 d)) d := by
  unfold Stages.logitsOf Cert.Spec.rowConcatenated
  refine (addf_apply _ _ _).trans (congrArg₂ (· + ·) ?_ ?_)
  · refine (PlainDot.apply (M := 150000) (K := 320) (N := 64) none _ a9 n d).trans ?_
    refine Finset.sum_congr rfl fun j _ => congrArg (· * a9 (ix2 j d)) ?_
    refine (rectified_apply _ _).trans (congrArg Cert.Spec.leaky ?_)
    have hk : j.val / 64 < 5 := by have := j.isLt; omega
    have hl : j.val % 64 < 64 := Nat.mod_lt _ (by decide)
    refine (sideBySide_apply _ _ _ _ _ _ n ⟨j.val / 64, hk⟩ ⟨j.val % 64, hl⟩ j
      (by show j.val = 64 * (j.val / 64) + j.val % 64; omega)).trans ?_
    exact hidden_pick g0 g1 g2 g3 g4 a7 a8 n ⟨j.val / 64, hk⟩ ⟨j.val % 64, hl⟩
  · exact biasRows_apply a10 bcast_S64_S1x64_1 bcast_S1x64_S150000x64_0_1 n d

end Cert.ReferenceIdeal.RefLogits

end
-- ==== Proof.PairScoreRef.lean ====
/-
  The pair score of the reference, on the extended reals. Its last three operations multiply two arrays of
  16384 rows by 64 columns entry by entry and add each row's 64 products onto a scalar initial value, the zero
  word. The host's sum over the second axis is, at row r, the initial value plus the sum of that row's entries;
  the zero word is the extended real 0, so at row r the result is the dot product of row r of the two arrays:
      score r = 0 + ∑ d, u (r, d) * i (r, d) = ∑ d, u (r, d) * i (r, d).
-/
import proofs.«118015_j56899726737489_1_alg».proof.ReferenceIdeal
import proofs.«118015_j56899726737489_1_alg».proof.Proof.LibRowReduce

noncomputable section

namespace Cert.ReferenceIdeal.PairScore

open Idealize.ShloMosaic Idealize.ShloMosaic.ValueIdx Cert.ReferenceIdeal

/-- Dropping the second axis of a 16384 by 64 array leaves the 16384 rows. -/
theorem reduces_rows : S16384x64.Reduces [1] S16384 := by decide

/-- The row sums of the entrywise product, started from the zero word, at row r: the dot product of row r of
    the two arrays — for any witnesses of the two shape facts the operation carries. -/
theorem score_apply_of (u i : FVec Ideal S16384x64 .f32) (h' : S16384x64.ReducesTo [1] S16384)
    (hu : 0 < S_.numel) (r : Fin 16384) :
    Host.reduceAdd (F := Ideal) (mulf u i) (constant (F := Ideal) S_ .f32 0x00000000#32) h' hu (ix1 r)
      = ∑ d : Fin 64, u (ix2 r d) * i (ix2 r d) := by
  refine (RowReduce.hostSum_at (mulf u i) (constant (F := Ideal) S_ .f32 0x00000000#32) h' reduces_rows hu r).trans ?_
  rw [constant_apply, Ideal.ofBits_zero_f32, zero_add]
  exact Finset.sum_congr rfl fun d _ => mulf_apply u i (ix2 r d)

section Printed
variable [Facts₀]
open Facts₀

/-- The same with the two shape facts named as the reference program names them. -/
theorem score_apply (u i : FVec Ideal S16384x64 .f32) (r : Fin 16384) :
    Host.reduceAdd (F := Ideal) (mulf u i) (constant (F := Ideal) S_ .f32 0x00000000#32)
        reducesTo_S16384x64_S16384_d1 h_S_ (ix1 r)
      = ∑ d : Fin 64, u (ix2 r d) * i (ix2 r d) :=
  score_apply_of u i reducesTo_S16384x64_S16384_d1 h_S_ r

end Printed

end Cert.ReferenceIdeal.PairScore

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.SpecLaw.lean ====
/-
  The one algebraic law of this certificate: adding the five relations' contributions one after the other onto
  the zero word equals the single sum over the 320 side-by-side columns.

  The zero word is the extended real 0, so the accumulated row is (C0 + C1 + C2 + C3 + C4) + c d with
  Ck = ∑ l, leaky (hidden k l) · A (64·k + l) d. A sum over 320 = 5·64 indices is the sum over the five blocks of
  64 consecutive indices of the sums inside each block; at index j = 64·k + l one has j / 64 = k and j % 64 = l,
  so the side-by-side hidden column j is relation k's hidden entry l. Only commutativity and associativity of
  addition on the extended reals are used: no finiteness is needed.
-/
import Mathlib
import Idealize.ShloMosaic.PureOps.Ideal
import Idealize.ShloMosaic.PureOps.Ideal.Laws
import proofs.«118015_j56899726737489_1_alg».proof.Proof.Spec
import proofs.«118015_j56899726737489_1_alg».proof.Proof.LibBlockSums

noncomputable section

namespace Cert.Spec

open Idealize.ShloMosaic

/-- The f32 zero word is the extended real 0. -/
theorem zeroW_eq : zeroW = 0 := Ideal.ofBits_zero_f32

/-- Column 64·k + l of the side-by-side hidden rows is entry l of relation k's hidden row. -/
theorem hiddenSideBySide_block (a : Fin 5 → Fin 64 → EReal) (W : Fin 5 → Fin 64 → Fin 64 → EReal)
    (b : Fin 5 → Fin 64 → EReal) (k : Fin 5) (l : Fin 64) :
    hiddenSideBySide a W b ⟨64 * k.val + l.val, by omega⟩ = hidden a W b k l := by
  have hk : (⟨(64 * k.val + l.val) / 64, by omega⟩ : Fin 5) = k := Fin.ext (by simp only; omega)
  have hl : (⟨(64 * k.val + l.val) % 64, Nat.mod_lt _ (by decide)⟩ : Fin 64) = l := Fin.ext (by simp only; omega)
  unfold hiddenSideBySide
  simp only [hk, hl]

/-- The single sum over the 320 side-by-side columns is the sum of the five relations' contributions. -/
theorem sum_concatenated_eq_sum_contributions (a : Fin 5 → Fin 64 → EReal) (W : Fin 5 → Fin 64 → Fin 64 → EReal)
    (b : Fin 5 → Fin 64 → EReal) (A : Fin 320 → Fin 64 → EReal) (d : Fin 64) :
    ∑ j : Fin 320, leaky (hiddenSideBySide a W b j) * A j d
      = ∑ k : Fin 5, contribution a W b (fun k l d => A ⟨64 * k.val + l.val, by omega⟩ d) k d := by
  refine (BlockSums.sum_blocks (m := 5) (n := 64) (N := 320) (by norm_num)
    (fun k l => ⟨64 * k.val + l.val, by omega⟩) (fun k l => by simp only; omega)
    (fun j => leaky (hiddenSideBySide a W b j) * A j d)).trans ?_
  refine Finset.sum_congr rfl fun k _ => ?_
  unfold contribution
  refine Finset.sum_congr rfl fun l _ => ?_
  rw [hiddenSideBySide_block]

/-- Accumulating the five contributions onto the zero word, then the bias, is the one sum over 320 columns, then
the bias, when the 320×64 matrix is read in five 64×64 slabs. -/
theorem rowAccumulated_eq_rowConcatenated (a : Fin 5 → Fin 64 → EReal) (W : Fin 5 → Fin 64 → Fin 64 → EReal)
    (b : Fin 5 → Fin 64 → EReal) (A : Fin 320 → Fin 64 → EReal) (c : Fin 64 → EReal) (d : Fin 64) :
    rowAccumulated a W b (fun k l d => A ⟨64 * k.val + l.val, by omega⟩ d) c d = rowConcatenated a W b A c d := by
  unfold rowAccumulated rowConcatenated
  rw [sum_concatenated_eq_sum_contributions, Fin.sum_univ_five, zeroW_eq, zero_add]

end Cert.Spec

end
-- ==== Proof.StagesAgree.lean ====
/-
  The two programs share their host-side stages: the node table, each relation's aggregated features, the wrapped
  batch of node numbers and the picked rows are spelt by the same operations in both, over the same shapes, so the
  kernel program's stage and the reference program's stage are one function.
-/
import proofs.«118015_j56899726737489_1_alg».proof.Proof.KernelIdealStages
import proofs.«118015_j56899726737489_1_alg».proof.Proof.RefStages
import Idealize.ShloMosaic.PureOps.Ideal

noncomputable section

namespace Cert.StagesAgree

open Idealize.ShloMosaic

open Cert.KernelIdeal in
theorem table_eq (a5 : FVec Ideal S100000x64 .f32) (a6 : FVec Ideal S50000x64 .f32) :
    Cert.KernelIdeal.Stages.table (F := Ideal) a5 a6 = Cert.ReferenceIdeal.Stages.table (F := Ideal) a5 a6 := rfl

open Cert.KernelIdeal in
theorem aggregate0_eq (a2 a3 : IVec S5x2000000 32) (a4 : FVec Ideal S5x2000000 .f32) (T : FVec Ideal S150000x64 .f32) :
    Cert.KernelIdeal.Stages.aggregate0 (F := Ideal) a2 a3 a4 T = Cert.ReferenceIdeal.Stages.aggregate0 (F := Ideal) a2 a3 a4 T := rfl
open Cert.KernelIdeal in
theorem aggregate1_eq (a2 a3 : IVec S5x2000000 32) (a4 : FVec Ideal S5x2000000 .f32) (T : FVec Ideal S150000x64 .f32) :
    Cert.KernelIdeal.Stages.aggregate1 (F := Ideal) a2 a3 a4 T = Cert.ReferenceIdeal.Stages.aggregate1 (F := Ideal) a2 a3 a4 T := rfl
open Cert.KernelIdeal in
theorem aggregate2_eq (a2 a3 : IVec S5x2000000 32) (a4 : FVec Ideal S5x2000000 .f32) (T : FVec Ideal S150000x64 .f32) :
    Cert.KernelIdeal.Stages.aggregate2 (F := Ideal) a2 a3 a4 T = Cert.ReferenceIdeal.Stages.aggregate2 (F := Ideal) a2 a3 a4 T := rfl
open Cert.KernelIdeal in
theorem aggregate3_eq (a2 a3 : IVec S5x2000000 32) (a4 : FVec Ideal S5x2000000 .f32) (T : FVec Ideal S150000x64 .f32) :
    Cert.KernelIdeal.Stages.aggregate3 (F := Ideal) a2 a3 a4 T = Cert.ReferenceIdeal.Stages.aggregate3 (F := Ideal) a2 a3 a4 T := rfl
open Cert.KernelIdeal in
theorem aggregate4_eq (a2 a3 : IVec S5x2000000 32) (a4 : FVec Ideal S5x2000000 .f32) (T : FVec Ideal S150000x64 .f32) :
    Cert.KernelIdeal.Stages.aggregate4 (F := Ideal) a2 a3 a4 T = Cert.ReferenceIdeal.Stages.aggregate4 (F := Ideal) a2 a3 a4 T := rfl

open Cert.KernelIdeal in
theorem wrappedBatch_eq (x : IVec S16384 32) :
    Cert.KernelIdeal.Stages.wrappedBatch x = Cert.ReferenceIdeal.Stages.wrappedBatch x := rfl
open Cert.KernelIdeal in
theorem shifted_eq (x : IVec S16384 32) :
    Cert.KernelIdeal.Stages.shifted x = Cert.ReferenceIdeal.Stages.shifted x := rfl
open Cert.KernelIdeal in
theorem rowsAt_eq (L : FVec Ideal S150000x64 .f32) (ix : IVec S16384x1 32) :
    Cert.KernelIdeal.Stages.rowsAt (F := Ideal) L ix = Cert.ReferenceIdeal.Stages.rowsAt (F := Ideal) L ix := rfl

end Cert.StagesAgree

end
-- ==== Proof.Bridge.lean ====
/-
  The two programs compute one function of the argument arrays.

  Both pick rows of a matrix of logits by the same two batches of node numbers and sum, for each pair of picked rows,
  the products of their entries; so it is enough that the two matrices of logits are equal, entry by entry. At node n
  and column d the kernel program's logit is the five relations' contributions added one after the other onto zero and
  then the bias, each relation's aggregated feature row read off the stack, its affine slab k read off rows
  64·k … 64·k + 63 of the affine matrix; the reference's is one sum over the 320 side-by-side rectified hidden columns
  and then the bias. The two agree by regrouping that sum in five blocks of 64 — sums on the extended reals are
  commutative and associative, so no finiteness is used. The aggregated features themselves, the batches of node
  numbers and the row picking are the same host operations in both programs and are never opened.
-/
import proofs.«118015_j56899726737489_1_alg».proof.Proof.KernelIdealResult
import proofs.«118015_j56899726737489_1_alg».proof.Proof.KernelIdealLayout
import proofs.«118015_j56899726737489_1_alg».proof.Proof.RefLogits
import proofs.«118015_j56899726737489_1_alg».proof.Proof.PairScoreRef
import proofs.«118015_j56899726737489_1_alg».proof.Proof.SpecLaw
import proofs.«118015_j56899726737489_1_alg».proof.Proof.StagesAgree

noncomputable section

namespace Cert.Bridge

open Idealize.ShloMosaic Idealize.ShloMosaic.ValueIdx Cert.KernelIdeal

/-- The logits agree: the first kernel's array over the stacked features is the reference's logits over the same
    five aggregated matrices. -/
theorem logits_agree (g0 g1 g2 g3 g4 : FVec Ideal S150000x64 .f32) (a7 : FVec Ideal S5x64x64 .f32) (a8 : FVec Ideal S5x1x64 .f32)
    (a9 : FVec Ideal S320x64 .f32) (a10 : FVec Ideal S64 .f32) :
    DenseArray.logitsArray (Stages.stacked g0 g1 g2 g3 g4) a7 a8 (Stages.affineSlabs a9) (Stages.biasRow a10)
      = Cert.ReferenceIdeal.Stages.logitsOf (F := Ideal) (Cert.ReferenceIdeal.Stages.hidden0 g0 a7 a8) (Cert.ReferenceIdeal.Stages.hidden1 g1 a7 a8)
          (Cert.ReferenceIdeal.Stages.hidden2 g2 a7 a8) (Cert.ReferenceIdeal.Stages.hidden3 g3 a7 a8) (Cert.ReferenceIdeal.Stages.hidden4 g4 a7 a8) a9 a10 := by
  funext i
  obtain ⟨n, d, rfl⟩ : ∃ (n : Fin 150000) (d : Fin 64), i = ix2 n d := ⟨i 0, i 1, eq_ix2 i⟩
  rw [DenseArray.logitsArray_apply]
  simp only [Layout.stacked_apply, Layout.affineSlabs_apply, Layout.biasRow_apply]
  refine (Cert.Spec.rowAccumulated_eq_rowConcatenated _ _ _ (fun j d => a9 (ix2 j d)) _ d).trans ?_
  exact (Cert.ReferenceIdeal.RefLogits.logitsOf_apply g0 g1 g2 g3 g4 a7 a8 a9 a10 n d).symm

/-- The kernel program's result is the reference's result, as functions of the eleven argument arrays. -/
theorem result_agree (a0 a1 : IVec S16384 32) (a2 a3 : IVec S5x2000000 32) (a4 : FVec Ideal S5x2000000 .f32) (a5 : FVec Ideal S100000x64 .f32)
    (a6 : FVec Ideal S50000x64 .f32) (a7 : FVec Ideal S5x64x64 .f32) (a8 : FVec Ideal S5x1x64 .f32) (a9 : FVec Ideal S320x64 .f32)
    (a10 : FVec Ideal S64 .f32) :
    Value.result a0 a1 a2 a3 a4 a5 a6 a7 a8 a9 a10 = Cert.ReferenceIdeal.Stages.result (F := Ideal) a0 a1 a2 a3 a4 a5 a6 a7 a8 a9 a10 := by
  have hL : Value.logits a2 a3 a4 a5 a6 a7 a8 a9 a10
      = Cert.ReferenceIdeal.Stages.logitsOf (F := Ideal)
          (Cert.ReferenceIdeal.Stages.hidden0 (Cert.ReferenceIdeal.Stages.aggregate0 a2 a3 a4 (Cert.ReferenceIdeal.Stages.table a5 a6)) a7 a8)
          (Cert.ReferenceIdeal.Stages.hidden1 (Cert.ReferenceIdeal.Stages.aggregate1 a2 a3 a4 (Cert.ReferenceIdeal.Stages.table a5 a6)) a7 a8)
          (Cert.ReferenceIdeal.Stages.hidden2 (Cert.ReferenceIdeal.Stages.aggregate2 a2 a3 a4 (Cert.ReferenceIdeal.Stages.table a5 a6)) a7 a8)
          (Cert.ReferenceIdeal.Stages.hidden3 (Cert.ReferenceIdeal.Stages.aggregate3 a2 a3 a4 (Cert.ReferenceIdeal.Stages.table a5 a6)) a7 a8)
          (Cert.ReferenceIdeal.Stages.hidden4 (Cert.ReferenceIdeal.Stages.aggregate4 a2 a3 a4 (Cert.ReferenceIdeal.Stages.table a5 a6)) a7 a8) a9 a10 := by
    unfold Value.logits
    rw [Cert.StagesAgree.aggregate0_eq, Cert.StagesAgree.aggregate1_eq, Cert.StagesAgree.aggregate2_eq, Cert.StagesAgree.aggregate3_eq,
      Cert.StagesAgree.aggregate4_eq, Cert.StagesAgree.table_eq]
    exact logits_agree _ _ _ _ _ a7 a8 a9 a10
  funext i
  obtain ⟨r, rfl⟩ : ∃ r : Fin 16384, i = ix1 r := ⟨i 0, eq_ix1 i⟩
  unfold Value.result Cert.ReferenceIdeal.Stages.result
  rw [Layout.scoreVector_apply, hL]
  unfold Cert.ReferenceIdeal.Stages.pairScore
  refine Eq.trans ?_ (Cert.ReferenceIdeal.PairScore.score_apply_of _ _ _ _ r).symm
  unfold ScoreArray.pairColumn
  rw [Cert.StagesAgree.rowsAt_eq, Cert.StagesAgree.rowsAt_eq, Cert.StagesAgree.wrappedBatch_eq, Cert.StagesAgree.wrappedBatch_eq,
    Cert.StagesAgree.shifted_eq]

end Cert.Bridge

end
-- ==== Proof.lean ====
/-
  The certificate of a two-kernel program against its reference, over the extended reals.

  The program: from user and item embeddings (a node table of 150000 rows of 64 numbers) and five sparse relations
  given as (row, column, value) triples, each relation's aggregated features are the accumulating scatter of
  value · table[column] into row 'row'; each node's output row is an affine map of the five relations' leakily
  rectified hidden rows (aggregated row times the relation's 64×64 weights, plus its bias); the result is, for each of
  16384 (user, item) pairs, the dot product of the two nodes' output rows.
  The kernel program computes the output rows in a first kernel, block of 6000 nodes by block, adding the five
  relations' contributions one after the other, and the dot products in a second kernel, block of 2048 pairs by
  block; gathers and scatters stay host operations. The reference lays the five hidden rows side by side and
  multiplies by the 320×64 affine matrix at once.

  * The two kernel programs' frames (the word-level one and the idealized one, the same text): the run of @main over
    its six items — two stretches of host operations, the first kernel's 25 grid points, a stretch, the second kernel's
    8 grid points, a reshape — ends with every buffer at named contents, and no item writes an argument.
  * The reference's frame: its run, written out operation by operation.
  * preserves: the idealization rewrote nothing.
  * algebraic: the kernel program's result buffer, read off the run's last contents through the two kernels' output
    arrays (each the union of its blocks) is one function of the argument arrays, and that function is the
    reference's (a sum over 320 = 5 · 64 terms regrouped in five blocks; no finiteness is needed, so the
    precondition is never opened).
-/
import proofs.«118015_j56899726737489_1_alg».proof.Defs
import proofs.«118015_j56899726737489_1_alg».proof.Proof.Gen.Kernel
import proofs.«118015_j56899726737489_1_alg».proof.Proof.Gen.KernelIdeal
import proofs.«118015_j56899726737489_1_alg».proof.Proof.Gen.ReferenceIdeal
import proofs.«118015_j56899726737489_1_alg».proof.Proof.Gen.Pre_finite_inputs
import proofs.«118015_j56899726737489_1_alg».proof.Proof.KernelKept
import proofs.«118015_j56899726737489_1_alg».proof.Proof.KernelIdealKept
import proofs.«118015_j56899726737489_1_alg».proof.Proof.KernelIdealValue
import proofs.«118015_j56899726737489_1_alg».proof.Proof.RefRun
import proofs.«118015_j56899726737489_1_alg».proof.Proof.Bridge

noncomputable section

namespace Cert.Proof

open Idealize.ShloMosaic Idealize.SL.Sem

/-- The word-level kernel program runs and leaves its arguments as launched. -/
theorem frame_kernel : Cert.frame_Kernel := fun m ρ _ => Cert.Kernel.Kept.frame (F := Bits) m ρ

/-- The idealized kernel program runs and leaves its arguments as launched. -/
theorem frame_kernelIdeal : Cert.frame_KernelIdeal := fun m ρ _ => Cert.KernelIdeal.Kept.frame (F := Ideal) m ρ

/-- The ideal pass rewrote no operation. -/
theorem preserves : Cert.preserves_Kernel_KernelIdeal := trivial

/-- From memories that agree on the arguments both idealized programs run, end with equal results and unchanged
    arguments: the common result is the reference's function of the arguments. -/
theorem algebraic : Cert.algebraic_KernelIdeal_ReferenceIdeal := by
  intro m ρ m' ρ' _ hagree
  refine ⟨fun c => Cert.ReferenceIdeal.Stages.result (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)),
    ?_, Cert.ReferenceIdeal.RefRun.run m' ρ'⟩
  refine (θ_run (Cert.KernelIdeal.defs (F := Ideal)) _ _).mono (fun r h c => ⟨?_,
      (h c _ (Cert.KernelIdeal.Run.mem_uc Cert.KernelIdeal.main_arg0 (by decide))).trans (Cert.KernelIdeal.Kept.kept_arg0 m c),
      (h c _ (Cert.KernelIdeal.Run.mem_uc Cert.KernelIdeal.main_arg1 (by decide))).trans (Cert.KernelIdeal.Kept.kept_arg1 m c),
      (h c _ (Cert.KernelIdeal.Run.mem_uc Cert.KernelIdeal.main_arg2 (by decide))).trans (Cert.KernelIdeal.Kept.kept_arg2 m c),
      (h c _ (Cert.KernelIdeal.Run.mem_uc Cert.KernelIdeal.main_arg3 (by decide))).trans (Cert.KernelIdeal.Kept.kept_arg3 m c),
      (h c _ (Cert.KernelIdeal.Run.mem_uc Cert.KernelIdeal.main_arg4 (by decide))).trans (Cert.KernelIdeal.Kept.kept_arg4 m c),
      (h c _ (Cert.KernelIdeal.Run.mem_uc Cert.KernelIdeal.main_arg5 (by decide))).trans (Cert.KernelIdeal.Kept.kept_arg5 m c),
      (h c _ (Cert.KernelIdeal.Run.mem_uc Cert.KernelIdeal.main_arg6 (by decide))).trans (Cert.KernelIdeal.Kept.kept_arg6 m c),
      (h c _ (Cert.KernelIdeal.Run.mem_uc Cert.KernelIdeal.main_arg7 (by decide))).trans (Cert.KernelIdeal.Kept.kept_arg7 m c),
      (h c _ (Cert.KernelIdeal.Run.mem_uc Cert.KernelIdeal.main_arg8 (by decide))).trans (Cert.KernelIdeal.Kept.kept_arg8 m c),
      (h c _ (Cert.KernelIdeal.Run.mem_uc Cert.KernelIdeal.main_arg9 (by decide))).trans (Cert.KernelIdeal.Kept.kept_arg9 m c),
      (h c _ (Cert.KernelIdeal.Run.mem_uc Cert.KernelIdeal.main_arg10 (by decide))).trans (Cert.KernelIdeal.Kept.kept_arg10 m c)⟩)
    (Cert.KernelIdeal.Run.run_all m ρ)
  obtain ⟨e0, e1, e2, e3, e4, e5, e6, e7, e8, e9, e10⟩ := hagree c
  refine ((h c _ (Cert.KernelIdeal.Run.mem_uc Cert.KernelIdeal.main_v122 (by decide))).trans (Cert.KernelIdeal.Value.result_eq m c)).trans ?_
  beta_reduce
  rw [e0, e1, e2, e3, e4, e5, e6, e7, e8, e9, e10]
  exact Cert.Bridge.result_agree _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefRun.frame, preserves, algebraic⟩

end Cert.Proof

end
